-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S128x1000 : Shape := ⟨2, ![128, 1000]⟩
abbrev S128x5 : Shape := ⟨2, ![128, 5]⟩
abbrev S14541x768 : Shape := ⟨2, ![14541, 768]⟩
abbrev S14541x14541 : Shape := ⟨2, ![14541, 14541]⟩
abbrev S1x5768 : Shape := ⟨2, ![1, 5768]⟩
abbrev S1 : Shape := ⟨1, ![1]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x5 : S_.BroadcastsInDim S128x5 (![] : Fin 0 → Fin S128x5.rank)
  reducesTo_S128x5_S_d0_1 : S128x5.ReducesTo [0, 1] S_
  bcast_S_S128x1000 : S_.BroadcastsInDim S128x1000 (![] : Fin 0 → Fin S128x1000.rank)
  reducesTo_S128x1000_S_d0_1 : S128x1000.ReducesTo [0, 1] S_
  bcast_S_S14541x768 : S_.BroadcastsInDim S14541x768 (![] : Fin 0 → Fin S14541x768.rank)
  reducesTo_S14541x768_S_d0_1 : S14541x768.ReducesTo [0, 1] S_
  bcast_S_S14541x14541 : S_.BroadcastsInDim S14541x14541 (![] : Fin 0 → Fin S14541x14541.rank)
  reducesTo_S14541x14541_S_d0_1 : S14541x14541.ReducesTo [0, 1] S_
  bcast_S_S1x5768 : S_.BroadcastsInDim S1x5768 (![] : Fin 0 → Fin S1x5768.rank)
  reducesTo_S1x5768_S_d0_1 : S1x5768.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S14541x14541 .f32) (main_arg9 : FVec F S1x5768 .f32) (main_arg10 : FVec F S1 .f32) (main_v33 : IVec S_ 1) : IVec S_ 1 :=
  let main_v34 : FVec F S14541x14541 .f32 := Host.absf main_arg8
  let main_cst_12 : FVec F S_ .f32 := constant S_ .f32 0x7F800000#32
  let main_v35 : FVec F S14541x14541 .f32 := broadcastInDim S14541x14541 ![] bcast_S_S14541x14541 main_cst_12
  let main_v36 : IVec S14541x14541 1 := cmpf .olt main_v34 main_v35
  let main_c_13 : IVec S_ 1 := constantI S_ 1 1#1
  let main_v37 : IVec S_ 1 := (fun x v => Host.reduce IntOp.andi x v reducesTo_S14541x14541_S_d0_1 h_S_) main_v36 main_c_13
  let main_v38 : IVec S_ 1 := andi main_v33 main_v37
  let main_v39 : FVec F S1x5768 .f32 := Host.absf main_arg9
  let main_cst_14 : FVec F S_ .f32 := constant S_ .f32 0x7F800000#32
  let main_v40 : FVec F S1x5768 .f32 := broadcastInDim S1x5768 ![] bcast_S_S1x5768 main_cst_14
  let main_v41 : IVec S1x5768 1 := cmpf .olt main_v39 main_v40
  let main_c_15 : IVec S_ 1 := constantI S_ 1 1#1
  let main_v42 : IVec S_ 1 := (fun x v => Host.reduce IntOp.andi x v reducesTo_S1x5768_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x1000 .f32) (main_arg6 : FVec F S128x1000 .f32) (main_arg7 : FVec F S14541x768 .f32) (main_arg8 : FVec F S14541x14541 .f32) (main_arg9 : FVec F S1x5768 .f32) (main_arg10 : FVec F S1 .f32) (main_v13 : IVec S_ 1) (main_v16 : IVec S128x5 1) : IVec S_ 1 :=
  let main_c_5 : IVec S_ 1 := constantI S_ 1 1#1
  let main_v17 : IVec S_ 1 := (fun x v => Host.reduce IntOp.andi x v reducesTo_S128x5_S_d0_1 h_S_) main_v16 main_c_5
  let main_v18 : IVec S_ 1 := andi main_v13 main_v17
  let main_v19 : FVec F S128x1000 .f32 := Host.absf main_arg5
  let main_cst_6 : FVec F S_ .f32 := constant S_ .f32 0x7F800000#32
  let main_v20 : FVec F S128x1000 .f32 := broadcastInDim S128x1000 ![] bcast_S_S128x1000 main_cst_6
  let main_v21 : IVec S128x1000 1 := cmpf .olt main_v19 main_v20
  let main_c_7 : IVec S_ 1 := constantI S_ 1 1#1
  let main_v22 : IVec S_ 1 := (fun x v => Host.reduce IntOp.andi x v reducesTo_S128x1000_S_d0_1 h_S_) main_v21 main_c_7
  let main_v23 : IVec S_ 1 := andi main_v18 main_v22
  let main_v24 : FVec F S128x1000 .f32 := Host.absf main_arg6
  let main_cst_8 : FVec F S_ .f32 := constant S_ .f32 0x7F800000#32
  let main_v25 : FVec F S128x1000 .f32 := broadcastInDim S128x1000 ![] bcast_S_S128x1000 main_cst_8
  let main_v26 : IVec S128x1000 1 := cmpf .olt main_v24 main_v25
  let main_c_9 : IVec S_ 1 := constantI S_ 1 1#1
  let main_v27 : IVec S_ 1 := (fun x v => Host.reduce IntOp.andi x v reducesTo_S128x1000_S_d0_1 h_S_) main_v26 main_c_9
  let main_v28 : IVec S_ 1 := andi main_v23 main_v27
  let main_v29 : FVec F S14541x768 .f32 := Host.absf main_arg7
  let main_cst_10 : FVec F S_ .f32 := constant S_ .f32 0x7F800000#32
  let main_v30 : FVec F S14541x768 .f32 := broadcastInDim S14541x768 ![] bcast_S_S14541x768 main_cst_10
  let main_v31 : IVec S14541x768 1 := cmpf .olt main_v29 main_v30
  let main_c_11 : IVec S_ 1 := constantI S_ 1 1#1
  let main_v32 : IVec S_ 1 := (fun x v => Host.reduce IntOp.andi x v reducesTo_S14541x768_S_d0_1 h_S_) main_v31 main_c_11
  let main_v33 : IVec S_ 1 := andi main_v28 main_v32
  fn_part2 (F := F) main_arg8 main_arg9 main_arg10 main_v33

def fn {F : FTy → Type} [FloatOps F] (main_arg0 : FVec F S128 .f32) (main_arg1 : FVec F S128 .f32) (main_arg2 : IVec S128x1000 32) (main_arg3 : FVec F S128x5 .f32) (main_arg4 : FVec F S128x5 .f32) (main_arg5 : FVec F S128x1000 .f32) (main_arg6 : FVec F S128x1000 .f32) (main_arg7 : FVec F S14541x768 .f32) (main_arg8 : FVec F S14541x14541 .f32) (main_arg9 : FVec F S1x5768 .f32) (main_arg10 : FVec F S1 .f32) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x5 .f32 := Host.absf main_arg3
  let main_cst_2 : FVec F S_ .f32 := constant S_ .f32 0x7F800000#32
  let main_v10 : FVec F S128x5 .f32 := broadcastInDim S128x5 ![] bcast_S_S128x5 main_cst_2
  let main_v11 : IVec S128x5 1 := cmpf .olt main_v9 main_v10
  let main_c_3 : IVec S_ 1 := constantI S_ 1 1#1
  let main_v12 : IVec S_ 1 := (fun x v => Host.reduce IntOp.andi x v reducesTo_S128x5_S_d0_1 h_S_) main_v11 main_c_3
  let main_v13 : IVec S_ 1 := andi main_v8 main_v12
  let main_v14 : FVec F S128x5 .f32 := Host.absf main_arg4
  let main_cst_4 : FVec F S_ .f32 := constant S_ .f32 0x7F800000#32
  let main_v15 : FVec F S128x5 .f32 := broadcastInDim S128x5 ![] bcast_S_S128x5 main_cst_4
  let main_v16 : IVec S128x5 1 := cmpf .olt main_v14 main_v15
  fn_part1 (F := F) main_arg5 main_arg6 main_arg7 main_arg8 main_arg9 main_arg10 main_v13 main_v16
-- ==== Kernel.lean ====
abbrev S128 : Shape := ⟨1, ![128]⟩
abbrev S128x1000 : Shape := ⟨2, ![128, 1000]⟩
abbrev S128x5 : Shape := ⟨2, ![128, 5]⟩
abbrev S14541x768 : Shape := ⟨2, ![14541, 768]⟩
abbrev S14541x14541 : Shape := ⟨2, ![14541, 14541]⟩
abbrev S1x5768 : Shape := ⟨2, ![1, 5768]⟩
abbrev S1 : Shape := ⟨1, ![1]⟩
abbrev S14541 : Shape := ⟨1, ![14541]⟩
abbrev S256x14541 : Shape := ⟨2, ![256, 14541]⟩
abbrev S256 : Shape := ⟨1, ![256]⟩
abbrev S_ : Shape := ⟨0, ![]⟩
abbrev S128x1000x1 : Shape := ⟨3, ![128, 1000, 1]⟩
abbrev S128x1000x768 : Shape := ⟨3, ![128, 1000, 768]⟩
abbrev S128x768 : Shape := ⟨2, ![128, 768]⟩
abbrev S64x40x768 : Shape := ⟨3, ![64, 40, 768]⟩
abbrev S64x768 : Shape := ⟨2, ![64, 768]⟩
abbrev S128x5768 : Shape := ⟨2, ![128, 5768]⟩
abbrev S5768x1 : Shape := ⟨2, ![5768, 1]⟩
abbrev S128x1 : Shape := ⟨2, ![128, 1]⟩
abbrev S1x1 : Shape := ⟨2, ![1, 1]⟩

abbrev nBuf : Space → Nat
  | .hbm => 78
  | .vmem => 10
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128x1000, .i32⟩
  | .hbm, ⟨3, _⟩ => ⟨S128x5, .f32⟩
  | .hbm, ⟨4, _⟩ => ⟨S128x5, .f32⟩
  | .hbm, ⟨5, _⟩ => ⟨S128x1000, .f32⟩
  | .hbm, ⟨6, _⟩ => ⟨S128x1000, .f32⟩
  | .hbm, ⟨7, _⟩ => ⟨S14541x768, .f32⟩
  | .hbm, ⟨8, _⟩ => ⟨S14541x14541, .f32⟩
  | .hbm, ⟨9, _⟩ => ⟨S1x5768, .f32⟩
  | .hbm, ⟨10, _⟩ => ⟨S1, .f32⟩
  | .hbm, ⟨11, _⟩ => ⟨S14541, .f32⟩
  | .hbm, ⟨12, _⟩ => ⟨S_, .i32⟩
  | .hbm, ⟨13, _⟩ => ⟨S128x1000, .i32⟩
  | .hbm, ⟨14, _⟩ => ⟨S128x1000, .i1⟩
  | .hbm, ⟨15, _⟩ => ⟨S_, .i32⟩
  | .hbm, ⟨16, _⟩ => ⟨S128x1000, .i32⟩
  | .hbm, ⟨17, _⟩ => ⟨S128x1000, .i32⟩
  | .hbm, ⟨18, _⟩ => ⟨S128x1000, .i32⟩
  | .hbm, ⟨19, _⟩ => ⟨S128x1000x1, .i32⟩
  | .hbm, ⟨20, _⟩ => ⟨S128x1000, .f32⟩
  | .hbm, ⟨21, _⟩ => ⟨S_, .i32⟩
  | .hbm, ⟨22, _⟩ => ⟨S128x1000, .i32⟩
  | .hbm, ⟨23, _⟩ => ⟨S128x1000, .i1⟩
  | .hbm, ⟨24, _⟩ => ⟨S_, .i32⟩
  | .hbm, ⟨25, _⟩ => ⟨S128x1000, .i32⟩
  | .hbm, ⟨26, _⟩ => ⟨S128x1000, .i32⟩
  | .hbm, ⟨27, _⟩ => ⟨S128x1000, .i32⟩
  | .hbm, ⟨28, _⟩ => ⟨S128x1000x1, .i32⟩
  | .hbm, ⟨29, _⟩ => ⟨S128x1000x768, .f32⟩
  | .hbm, ⟨30, _⟩ => ⟨S128x768, .f32⟩
  | .hbm, ⟨31, _⟩ => ⟨S128x1000, .f32⟩
  | .hbm, ⟨32, _⟩ => ⟨S128x1000, .f32⟩
  | .hbm, ⟨33, _⟩ => ⟨S128x1000, .f32⟩
  | .hbm, ⟨34, _⟩ => ⟨S128x5768, .f32⟩
  | .hbm, ⟨35, _⟩ => ⟨S5768x1, .f32⟩
  | .hbm, ⟨36, _⟩ => ⟨S128x1, .f32⟩
  | .hbm, ⟨37, _⟩ => ⟨S1x1, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128x1, .f32⟩
  | .hbm, ⟨56, _⟩ => ⟨S128x5, .f32⟩
  | .hbm, ⟨57, _⟩ => ⟨S128x5, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128x1, .f32⟩
  | .hbm, ⟨62, _⟩ => ⟨S128x5, .f32⟩
  | .hbm, ⟨63, _⟩ => ⟨S128x5, .f32⟩
  | .hbm, ⟨64, _⟩ => ⟨S128x5, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x5, .f32⟩
  | .hbm, ⟨70, _⟩ => ⟨S128x5, .f32⟩
  | .hbm, ⟨71, _⟩ => ⟨S_, .f32⟩
  | .hbm, ⟨72, _⟩ => ⟨S128x5, .f32⟩
  | .hbm, ⟨73, _⟩ => ⟨S128x5, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S256x14541, .f32⟩
  | .local _ .vmem, ⟨1, _⟩ => ⟨S256x14541, .f32⟩
  | .local _ .vmem, ⟨2, _⟩ => ⟨S256, .f32⟩
  | .local _ .vmem, ⟨3, _⟩ => ⟨S256, .f32⟩
  | .local _ .vmem, ⟨4, _⟩ => ⟨S64x40x768, .f32⟩
  | .local _ .vmem, ⟨5, _⟩ => ⟨S64x40x768, .f32⟩
  | .local _ .vmem, ⟨6, _⟩ => ⟨S64x768, .f32⟩
  | .local _ .vmem, ⟨7, _⟩ => ⟨S64x768, .f32⟩
  | .local _ .vmem, ⟨8, _⟩ => ⟨S64x768, .f32⟩
  | .local _ .vmem, ⟨9, _⟩ => ⟨S64x768, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_cst : Ref sig .tc := ⟨.hbm, 71, rfl⟩
abbrev main_call0_v0 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![57], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x14541 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v18 : BitVec 1 := Scalar.cmpi .eq arg1 c24_i32
  let v19 : BitVec 32 := Scalar.extui v18
  let c0_i32_12 : BitVec 32 := 0#32
  let v20 : BitVec 1 := Scalar.cmpi .ne v19 c0_i32_12
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x40x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  inb_S256x14541_S256x14541_0_0 : ∀ a, (![0, 0] : Fin 2 → Nat) a + S256x14541.size a ≤ S256x14541.size a
  h_S256x14541 : 0 < S256x14541.numel
  reduces_S256x14541_S256 : S256x14541.Reduces [1] S256
  inb_S256_S256_0 : ∀ a, (![0] : Fin 1 → Nat) a + S256.size a ≤ S256.size a
  h_S256 : 0 < S256.numel
  bcast_S_S128x1000 : S_.BroadcastsInDim S128x1000 (![] : Fin 0 → Fin S128x1000.rank)
  bcast_S128x1000_S128x1000x1_0_1 : S128x1000.BroadcastsInDim S128x1000x1 (![0, 1] : Fin 2 → Fin S128x1000x1.rank)
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S64x40x768_S64x40x768_0_0_0 : ∀ a, (![0, 0, 0] : Fin 3 → Nat) a + S64x40x768.size a ≤ S64x40x768.size a
  h_S64x40x768 : 0 < S64x40x768.numel
  shapeCasts_S64x40x768_S64x40x768 : S64x40x768.ShapeCasts S64x40x768
  reduces_S64x40x768_S64x768 : S64x40x768.Reduces [1] S64x768
  concatenates_S128x768_S128x1000_S128x1000_S128x1000_S128x1000_S128x1000_S128x5768_d1 : Shape.Concatenates [S128x768, S128x1000, S128x1000, S128x1000, S128x1000, S128x1000] S128x5768 1
  transposes_S1x5768_S5768x1_1_0 : S1x5768.Transposes [1, 0] S5768x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x5_0_1 : S128x1.BroadcastsInDim S128x5 (![0, 1] : Fin 2 → Fin S128x5.rank)
  bcast_S_S128x5 : S_.BroadcastsInDim S128x5 (![] : Fin 0 → Fin S128x5.rank)
  reducesTo_S128x5_S_d0_1 : S128x5.ReducesTo [0, 1] S_
  h_S_ : 0 < S_.numel
  gather_S14541_S128x1000x1_S128x1000_n_0_n_n_0_2_1_wf : GatherDims.WF S14541 S128x1000x1 S128x1000 [] [0] [] [0] [] 2 ![1]
  gather_S14541x768_S128x1000x1_S128x1000x768_2_0_n_n_0_2_1768_wf : GatherDims.WF S14541x768 S128x1000x1 S128x1000x768 [2] [0] [] [0] [] 2 ![1, 768]
  dot_S128x5768_S5768x1_S128x1_1_0_0_1_n_n_wf : DotDims.WF S128x5768 S5768x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x14541.size a < S14541x14541.size a
  hwx0_0 : ∀ i : grid0.Coords, EltTy.bits .f32 = 32 ∨ (Rect.unit (s := S14541x14541) (fun a => cc0_transform_0 i a * S256x14541.size a) (fun a => (Pipeline.Clip.of (cc0_transform_0 i a) (S256x14541.size a) (S14541x14541.size a)).extent (S256x14541.size a)) fun a => Pipeline.Clip.inb (Pipeline.Clip.ok_of (hstart0_0 i a))).WholeWords (EltTy.packing .f32)
  hwxs0_0 : ∀ i : grid0.Coords, EltTy.bits .f32 = 32 ∨ (Rect.unit (s := S256x14541) (fun _ => 0) (fun a => (Pipeline.Clip.of (cc0_transform_0 i a) (S256x14541.size a) (S14541x14541.size a)).extent (S256x14541.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256.size a < S14541.size a
  hwx0_1 : ∀ i : grid0.Coords, EltTy.bits .f32 = 32 ∨ (Rect.unit (s := S14541) (fun a => cc0_transform_1 i a * S256.size a) (fun a => (Pipeline.Clip.of (cc0_transform_1 i a) (S256.size a) (S14541.size a)).extent (S256.size a)) fun a => Pipeline.Clip.inb (Pipeline.Clip.ok_of (hstart0_1 i a))).WholeWords (EltTy.packing .f32)
  hwxs0_1 : ∀ i : grid0.Coords, EltTy.bits .f32 = 32 ∨ (Rect.unit (s := S256) (fun _ => 0) (fun a => (Pipeline.Clip.of (cc0_transform_1 i a) (S256.size a) (S14541.size a)).extent (S256.size a)) fun a => (Nat.zero_add _).trans_le (Pipeline.Clip.extent_le (Pipeline.Clip.ok_of (hstart0_1 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x40x768.size a ≤ S128x1000x768.size a
  hwx1_0 : ∀ i : grid1.Coords, EltTy.bits .f32 = 32 ∨ (Rect.block (s := S128x1000x768) S64x40x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x768.size a ≤ S128x768.size a
  hwx1_1 : ∀ i : grid1.Coords, EltTy.bits .f32 = 32 ∨ (Rect.block (s := S128x768) S64x768.size (cc1_transform_1 i) (hinb1_1 i)).WholeWords (EltTy.packing .f32)

variable [Facts₀]

def gather_S14541_S128x1000x1_S128x1000_n_0_n_n_0_2_1 : GatherDims S14541 S128x1000x1 S128x1000 where
  offsetDims := []
  collapsedSliceDims := [0]
  operandBatchingDims := []
  startIndicesBatchingDims := []
  startIndexMap := [0]
  indexVectorDim := 2
  sliceSizes := ![1]
  wf := gather_S14541_S128x1000x1_S128x1000_n_0_n_n_0_2_1_wf
def gather_S14541x768_S128x1000x1_S128x1000x768_2_0_n_n_0_2_1768 : GatherDims S14541x768 S128x1000x1 S128x1000x768 where
  offsetDims := [2]
  collapsedSliceDims := [0]
  operandBatchingDims := []
  startIndicesBatchingDims := []
  startIndexMap := [0]
  indexVectorDim := 2
  sliceSizes := ![1, 768]
  wf := gather_S14541x768_S128x1000x1_S128x1000x768_2_0_n_n_0_2_1768_wf
def dot_S128x5768_S5768x1_S128x1_1_0_0_1_n_n : DotDims S128x5768 S5768x1 S128x1 where
  lhsContracting := [1]
  rhsContracting := [0]
  lhsNonContracting := [0]
  rhsNonContracting := [1]
  lhsBatch := []
  rhsBatch := []
  wf := dot_S128x5768_S5768x1_S128x1_1_0_0_1_n_n_wf

abbrev win0_0 : Pipeline.Window sig grid0 :=
  Pipeline.Window.ofSpecClip (Memref.whole main_arg8) S256x14541.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S256.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v14) S64x40x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S64x768.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S128 : Shape := ⟨1, ![128]⟩
abbrev S128x1000 : Shape := ⟨2, ![128, 1000]⟩
abbrev S128x5 : Shape := ⟨2, ![128, 5]⟩
abbrev S14541x768 : Shape := ⟨2, ![14541, 768]⟩
abbrev S14541x14541 : Shape := ⟨2, ![14541, 14541]⟩
abbrev S1x5768 : Shape := ⟨2, ![1, 5768]⟩
abbrev S1 : Shape := ⟨1, ![1]⟩
abbrev S_ : Shape := ⟨0, ![]⟩
abbrev S128x1000x1 : Shape := ⟨3, ![128, 1000, 1]⟩
abbrev S128x1000x768 : Shape := ⟨3, ![128, 1000, 768]⟩
abbrev S128x768 : Shape := ⟨2, ![128, 768]⟩
abbrev S128x1x768 : Shape := ⟨3, ![128, 1, 768]⟩
abbrev S14541 : Shape := ⟨1, ![14541]⟩
abbrev S128x5768 : Shape := ⟨2, ![128, 5768]⟩
abbrev S5768x1 : Shape := ⟨2, ![5768, 1]⟩
abbrev S128x1 : Shape := ⟨2, ![128, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128x1000, .i32⟩
  | .hbm, ⟨3, _⟩ => ⟨S128x5, .f32⟩
  | .hbm, ⟨4, _⟩ => ⟨S128x5, .f32⟩
  | .hbm, ⟨5, _⟩ => ⟨S128x1000, .f32⟩
  | .hbm, ⟨6, _⟩ => ⟨S128x1000, .f32⟩
  | .hbm, ⟨7, _⟩ => ⟨S14541x768, .f32⟩
  | .hbm, ⟨8, _⟩ => ⟨S14541x14541, .f32⟩
  | .hbm, ⟨9, _⟩ => ⟨S1x5768, .f32⟩
  | .hbm, ⟨10, _⟩ => ⟨S1, .f32⟩
  | .hbm, ⟨11, _⟩ => ⟨S_, .i32⟩
  | .hbm, ⟨12, _⟩ => ⟨S128x1000, .i32⟩
  | .hbm, ⟨13, _⟩ => ⟨S128x1000, .i1⟩
  | .hbm, ⟨14, _⟩ => ⟨S_, .i32⟩
  | .hbm, ⟨15, _⟩ => ⟨S128x1000, .i32⟩
  | .hbm, ⟨16, _⟩ => ⟨S128x1000, .i32⟩
  | .hbm, ⟨17, _⟩ => ⟨S128x1000, .i32⟩
  | .hbm, ⟨18, _⟩ => ⟨S128x1000x1, .i32⟩
  | .hbm, ⟨19, _⟩ => ⟨S128x1000x768, .f32⟩
  | .hbm, ⟨20, _⟩ => ⟨S_, .i32⟩
  | .hbm, ⟨21, _⟩ => ⟨S_, .f32⟩
  | .hbm, ⟨22, _⟩ => ⟨S128x768, .f32⟩
  | .hbm, ⟨23, _⟩ => ⟨S128x1x768, .f32⟩
  | .hbm, ⟨24, _⟩ => ⟨S_, .f32⟩
  | .hbm, ⟨25, _⟩ => ⟨S128x1x768, .f32⟩
  | .hbm, ⟨26, _⟩ => ⟨S128x1x768, .f32⟩
  | .hbm, ⟨27, _⟩ => ⟨S128x1000x768, .f32⟩
  | .hbm, ⟨28, _⟩ => ⟨S128x1000x768, .f32⟩
  | .hbm, ⟨29, _⟩ => ⟨S128x1000x768, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128x768, .f32⟩
  | .hbm, ⟨35, _⟩ => ⟨S128x768, .f32⟩
  | .hbm, ⟨36, _⟩ => ⟨S128x768, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S128x768, .f32⟩
  | .hbm, ⟨42, _⟩ => ⟨S128x768, .f32⟩
  | .hbm, ⟨43, _⟩ => ⟨S128x768, .f32⟩
  | .hbm, ⟨44, _⟩ => ⟨S_, .f32⟩
  | .hbm, ⟨45, _⟩ => ⟨S14541, .f32⟩
  | .hbm, ⟨46, _⟩ => ⟨S_, .f32⟩
  | .hbm, ⟨47, _⟩ => ⟨S14541, .f32⟩
  | .hbm, ⟨48, _⟩ => ⟨S14541, .f32⟩
  | .hbm, ⟨49, _⟩ => ⟨S_, .i32⟩
  | .hbm, ⟨50, _⟩ => ⟨S128x1000, .i32⟩
  | .hbm, ⟨51, _⟩ => ⟨S128x1000, .i1⟩
  | .hbm, ⟨52, _⟩ => ⟨S_, .i32⟩
  | .hbm, ⟨53, _⟩ => ⟨S128x1000, .i32⟩
  | .hbm, ⟨54, _⟩ => ⟨S128x1000, .i32⟩
  | .hbm, ⟨55, _⟩ => ⟨S128x1000, .i32⟩
  | .hbm, ⟨56, _⟩ => ⟨S128x1000x1, .i32⟩
  | .hbm, ⟨57, _⟩ => ⟨S128x1000, .f32⟩
  | .hbm, ⟨58, _⟩ => ⟨S128x1000, .f32⟩
  | .hbm, ⟨59, _⟩ => ⟨S128x1000, .f32⟩
  | .hbm, ⟨60, _⟩ => ⟨S128x1000, .f32⟩
  | .hbm, ⟨61, _⟩ => ⟨S128x5768, .f32⟩
  | .hbm, ⟨62, _⟩ => ⟨S5768x1, .f32⟩
  | .hbm, ⟨63, _⟩ => ⟨S128x1, .f32⟩
  | .hbm, ⟨64, _⟩ => ⟨S1x1, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S_, .f32⟩
  | .hbm, ⟨73, _⟩ => ⟨S128x1, .f32⟩
  | .hbm, ⟨74, _⟩ => ⟨S128x1, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128x1, .f32⟩
  | .hbm, ⟨83, _⟩ => ⟨S128x5, .f32⟩
  | .hbm, ⟨84, _⟩ => ⟨S128x5, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128x1, .f32⟩
  | .hbm, ⟨89, _⟩ => ⟨S128x5, .f32⟩
  | .hbm, ⟨90, _⟩ => ⟨S128x5, .f32⟩
  | .hbm, ⟨91, _⟩ => ⟨S128x5, .f32⟩
  | .hbm, ⟨92, _⟩ => ⟨S128x1, .f32⟩
  | .hbm, ⟨93, _⟩ => ⟨S_, .f32⟩
  | .hbm, ⟨94, _⟩ => ⟨S128x1, .f32⟩
  | .hbm, ⟨95, _⟩ => ⟨S128x1, .f32⟩
  | .hbm, ⟨96, _⟩ => ⟨S128x5, .f32⟩
  | .hbm, ⟨97, _⟩ => ⟨S128x5, .f32⟩
  | .hbm, ⟨98, _⟩ => ⟨S_, .f32⟩
  | .hbm, ⟨99, _⟩ => ⟨S128x5, .f32⟩
  | .hbm, ⟨100, _⟩ => ⟨S128x5, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v7 : Ref sig .tc := ⟨.hbm, 43, rfl⟩
abbrev main_cst : Ref sig .tc := ⟨.hbm, 44, rfl⟩
abbrev main_v8 : Ref sig .tc := ⟨.hbm, 45, rfl⟩
abbrev main_cst_2 : Ref sig .tc := ⟨.hbm, 46, rfl⟩
abbrev main_v9 : Ref sig .tc := ⟨.hbm, 47, rfl⟩
abbrev main_v10 : Ref sig .tc := ⟨.hbm, 48, rfl⟩
abbrev main_c_3 : Ref sig .tc := ⟨.hbm, 49, rfl⟩
abbrev main_v11 : Ref sig .tc := ⟨.hbm, 50, rfl⟩
abbrev main_v12 : Ref sig .tc := ⟨.hbm, 51, rfl⟩
abbrev main_c_4 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_5 : Ref sig .tc := ⟨.hbm, 69, rfl⟩
abbrev main_v29 : Ref sig .tc := ⟨.hbm, 70, rfl⟩
abbrev main_v30 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_7 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_8 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_9 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call1_cst : Ref sig .tc := ⟨.hbm, 98, rfl⟩
abbrev main_call1_v0 : Ref sig .tc := ⟨.hbm, 99, rfl⟩
abbrev main_v53 : Ref sig .tc := ⟨.hbm, 100, rfl⟩
abbrev main_cst_10 : Ref sig .tc := ⟨.hbm, 101, rfl⟩
abbrev main_v54 : Ref sig .tc := ⟨.hbm, 102, rfl⟩
abbrev main_cst_11 : Ref sig .tc := ⟨.hbm, 103, rfl⟩
abbrev main_v55 : Ref sig .tc := ⟨.hbm, 104, rfl⟩

abbrev nD : Nat := 1
abbrev τ : Topo := Topo.v7x

variable {F : FTy → Type} [FloatOps F]

class Facts₀ : Prop where
  bcast_S_S128x1000 : S_.BroadcastsInDim S128x1000 (![] : Fin 0 → Fin S128x1000.rank)
  bcast_S128x1000_S128x1000x1_0_1 : S128x1000.BroadcastsInDim S128x1000x1 (![0, 1] : Fin 2 → Fin S128x1000x1.rank)
  reducesTo_S128x1000x768_S128x768_d1 : S128x1000x768.ReducesTo [1] S128x768
  h_S_ : 0 < S_.numel
  bcast_S128x768_S128x1x768_0_2 : S128x768.BroadcastsInDim S128x1x768 (![0, 2] : Fin 2 → Fin S128x1x768.rank)
  bcast_S_S128x1x768 : S_.BroadcastsInDim S128x1x768 (![] : Fin 0 → Fin S128x1x768.rank)
  bcast_S128x1x768_S128x1000x768_0_1_2 : S128x1x768.BroadcastsInDim S128x1000x768 (![0, 1, 2] : Fin 3 → Fin S128x1000x768.rank)
  bcast_S_S128x768 : S_.BroadcastsInDim S128x768 (![] : Fin 0 → Fin S128x768.rank)
  reducesTo_S14541x14541_S14541_d1 : S14541x14541.ReducesTo [1] S14541
  bcast_S_S14541 : S_.BroadcastsInDim S14541 (![] : Fin 0 → Fin S14541.rank)
  concatenates_S128x768_S128x1000_S128x1000_S128x1000_S128x1000_S128x1000_S128x5768_d1 : Shape.Concatenates [S128x768, S128x1000, S128x1000, S128x1000, S128x1000, S128x1000] S128x5768 1
  transposes_S1x5768_S5768x1_1_0 : S1x5768.Transposes [1, 0] S5768x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x5_0_1 : S128x1.BroadcastsInDim S128x5 (![0, 1] : Fin 2 → Fin S128x5.rank)
  bcast_S_S128x5 : S_.BroadcastsInDim S128x5 (![] : Fin 0 → Fin S128x5.rank)
  reducesTo_S128x5_S_d0_1 : S128x5.ReducesTo [0, 1] S_
  gather_S14541x768_S128x1000x1_S128x1000x768_2_0_n_n_0_2_1768_wf : GatherDims.WF S14541x768 S128x1000x1 S128x1000x768 [2] [0] [] [0] [] 2 ![1, 768]
  gather_S14541_S128x1000x1_S128x1000_n_0_n_n_0_2_1_wf : GatherDims.WF S14541 S128x1000x1 S128x1000 [] [0] [] [0] [] 2 ![1]
  dot_S128x5768_S5768x1_S128x1_1_0_0_1_n_n_wf : DotDims.WF S128x5768 S5768x1 S128x1 [1] [0] [0] [1] [] []

variable [Facts₀]

def gather_S14541x768_S128x1000x1_S128x1000x768_2_0_n_n_0_2_1768 : GatherDims S14541x768 S128x1000x1 S128x1000x768 where
  offsetDims := [2]
  collapsedSliceDims := [0]
  operandBatchingDims := []
  startIndicesBatchingDims := []
  startIndexMap := [0]
  indexVectorDim := 2
  sliceSizes := ![1, 768]
  wf := gather_S14541x768_S128x1000x1_S128x1000x768_2_0_n_n_0_2_1768_wf
def gather_S14541_S128x1000x1_S128x1000_n_0_n_n_0_2_1 : GatherDims S14541 S128x1000x1 S128x1000 where
  offsetDims := []
  collapsedSliceDims := [0]
  operandBatchingDims := []
  startIndicesBatchingDims := []
  startIndexMap := [0]
  indexVectorDim := 2
  sliceSizes := ![1]
  wf := gather_S14541_S128x1000x1_S128x1000_n_0_n_n_0_2_1_wf
def dot_S128x5768_S5768x1_S128x1_1_0_0_1_n_n : DotDims S128x5768 S5768x1 S128x1 where
  lhsContracting := [1]
  rhsContracting := [0]
  lhsNonContracting := [0]
  rhsNonContracting := [1]
  lhsBatch := []
  rhsBatch := []
  wf := dot_S128x5768_S5768x1_S128x1_1_0_0_1_n_n_wf

class Facts : Prop extends Facts₀ where

variable [Facts]
-- ==== Proof.KRegion0.lean ====
/-
  Region 0 of the word-level kernel: the row-mean call. The input array is read in 57 blocks of 256 rows, the last
  of which overhangs the array by 51 rows; the body sums each row of its block, divides by the number of columns and
  stores the 256 quotients. Only the frame is stated here: the input array is never written, and the output window
  is forgotten (what the kernel leaves in its array is not named).
-/
import proofs.«163166_j5368709120527_1_alg».proof.Proof.Gen.Kernel.Launch
import proofs.«163166_j5368709120527_1_alg».proof.Proof.Gen.Kernel.Skeleton
import proofs.«163166_j5368709120527_1_alg».proof.Proof.Gen.Kernel.Points
import proofs.«163166_j5368709120527_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: its part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_in : Rect S256x14541 := Rect.unit (s := S256x14541) ![0, 0] S256x14541.size inb_S256x14541_S256x14541_0_0
abbrev r0_out : Rect S256 := Rect.unit (s := S256) ![0] S256.size inb_S256_S256_0

/-- The output staging buffer after the body, from the input staging buffer's contents: the one store. -/
def out0_1 (x0 : Vec F S256x14541 .f32) : Vec F S256 .f32 :=
  View.canon [⟨r0_out, k0_pay1 (View.ld x0 r0_in)⟩]

/-- The store covers the buffer. -/
theorem cover0_1 (p0 : Vec F S256 .f32) (y : S256.Idx) :
    ∃ pc ∈ ([⟨r0_out, p0⟩] : List (View.Piece (Elt F) S256 .f32)), y ∈ pc.1.set :=
  View.cover_of_tiled [⟨r0_out, p0⟩] S256.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S256x14541 .f32) (harg1 : arg1.IsWhole)
    (arg2 : Memref sig .tc .vmem S256 .f32) (harg2 : arg2.IsWhole)
    (x0 : Vec F S256x14541 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__simi_mean_kernel i arg1 harg1 arg2 harg2) K := by
  simp only [cc0__simi_mean_kernel_eq_skeleton]; unfold cc0__simi_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The word that fills out a block past the array's end in the proof data (nothing reads it). -/
abbrev zfill : S256x14541.Idx → Elt F .f32 := fun _ => Scalar.ofBits .f32 0#32

/-- The input block at point `t`, filled out to the staging buffer's shape. -/
def xblk0 (c : Dev nD) (t : Fin cfg0.N) : S256x14541.Idx → Elt F .f32 :=
  win0_0.fill (grid0.coords t) zfill (iblk0 V c 0 t)

/-- The proof data of pipeline 0 on core `c`: the arrays as the region finds them; after the body the input's buffer
    at its block (filled out) and the output's at the body's store over that; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => xblk0 V c t
    | ⟨1, _⟩ => out0_1 (xblk0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xblk0 V c t := by dsimp only [dat0]
theorem after0_1 (c : Dev nD) (t : Fin cfg0.N) : (dat0 V c).after 1 t = out0_1 (xblk0 V c t) := by dsimp only [dat0]

/-- The input's buffer as the body finds it: just fetched, the block on the rows inside the array and anything past
    them. -/
theorem before0_0 (c : Dev nD) (t : Fin cfg0.N) (d) :
    (dat0 V c).before 0 t d = win0_0.fill (grid0.coords t) d (iblk0 V c 0 t) := by
  rw [(dat0 V c).before_fetched 0 t (fetch0_0 t) d]
  unfold Dat.fetched Dat.blockOf iblk0; rw [A_eq0]

/-- The output window is never fetched. -/
theorem fetch0_1 (t : Fin cfg0.N) : (cfg0.win 1).fetch t = false := rfl

/-- The output's buffer as the body finds it: at contents nothing names. -/
theorem before0_1 (c : Dev nD) (t : Fin cfg0.N) (d) : (dat0 V c).before 1 t d = d := by
  unfold Dat.before
  rw [if_neg (by rw [fetch0_1 t]; exact Bool.false_ne_true)]
  split
  · rfl
  · rw [if_pos (flush0_1 _)]

/-- The arrays after the region: the input as it was. -/
theorem arr0_in (c : Dev nD) : (dat0 V c).arrAt 0 cfg0.N = V c main_arg8 :=
  ((dat0 V c).arrAt_in 0 rfl _).trans (A_eq0 V c 0)

/-! ## The body obligation, the output window forgotten

At the word level the lane sums are a function of the WHOLE source vector, of which nothing says that a row's sum
ignores the other rows: what the body computes from the rows past the array's end into the rows the write-back
moves is not named. The obligation is stated with the output window forgotten: its buffer is handed to the body at
any contents and taken back at any contents. -/

/-- The windows the obligation forgets: the output window. -/
abbrev fgt0 : Fin cfg0.W → Bool := ![false, true]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ X, owns (c : Thread nD τ) (st0_1 t) fullShare X))

/-- and what it returns: the input's buffer stated on the rows inside the array, the output's at any contents. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ X, owns (c : Thread nD τ) (st0_1 t) fullShare X))

/-- The body at any point: the input's buffer holds its block filled out with anything and is left as found; the
    output's buffer is stored into. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩, ⟨%d1, H1⟩⟩
  rw [before0_0 V c t d0]
  iapply (sound_kernel0 c Set.univ _ _ _ _ _ (win0_0.fill (grid0.coords t) d0 (iblk0 V c 0 t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xblk0 V c t) = iblk0 V c 0 t := win0_0.cut_fill _ _ _
  isplitl [H0]
  · iexists d0; rw [hx]; iexact H0
  · iexists _; iexact H1

/-- The library's body obligation with the output window forgotten, at every point. -/
theorem body_obligation0_fgt (c : Dev nD) :
    BodyObligationLoose (dat0 (F := F) V c) (defs₀ (F := F)) Variants.none () Set.univ fgt0 := fun t => by
  rw [bigSep_W0, bigSep_W0]
  exact sound_body0 V c t

end Cert.Kernel.Hand

end
-- ==== Proof.KRunHost.lean ====
/-
  The run of the word-level program, first part: the thread states between the items of the program when what a
  region leaves in its output array is NOT named. The row-mean region's last input block overhangs its array, so at
  the word level the rows it computes from the overhang are not a function of the arguments; the frame claim reads
  only the argument arrays, so the contents of the two regions' output arrays are left existentially quantified:
  between two items every unscoped buffer is held at the item-by-item valuation for SOME choice of those contents.
  A stretch of host operations run from such a state ends in such a state.
-/
import proofs.«163166_j5368709120527_1_alg».proof.Proof.Gen.Kernel.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L0 : GSem nD τ sig → Finset Unit := fun _ => ∅
abbrev lv0 : GSem nD τ sig → Unit → ℕ := fun _ _ => 0

/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- Every unscoped buffer held at the valuation `Vf o c`, for some choice `o` of the regions' output contents. -/
abbrev TEx (Vf : Outs (F := F) → Dev nD → Valuation τ sig (Elt F)) (c : Dev nD) : sProp 𝕄 :=
  iprop(∃ o, iprop(StableHlo.held (c : Thread nD τ) (Pipeline.ucRefs τ sig) (Vf o c) ∗ Rr c))

/-- A stretch of host operations entered with the unscoped buffers at `Vf o c` for some `o` leaves them at the
    operations' results over `Vf o c` for that `o`. -/
def hostSegEx (ops : List (HloOp τ sig (Elt F))) (hsub : ops.Forall fun op => op.bufs ⊆ StableHlo.tcRefs τ sig)
    (hfresh : ops.Forall fun op => op.fresh = ∅) (Vf : Outs (F := F) → Dev nD → Valuation τ sig (Elt F)) :
    Pipeline.HostSeg (Name := ℕ) (U := UR sig nD τ) (pcfgs (F := F)) defs₀ Variants.none L0 lv0 where
  prog := StableHlo.seq ops
  pre c := TEx Vf c
  post c := TEx (fun o c => StableHlo.after ops (Vf o c)) c
  run c {β} k K := by
    iintro ⟨Hk, Hbd, ⟨%o, HP⟩, Hlev⟩
    have hrun := (Pipeline.HostSeg.ofOps (Name := ℕ) (U := UR sig nD τ) (pcfgs (F := F)) defs₀ Variants.none L0 lv0 (Pipeline.ucRefs τ sig) ops
      (fun op h => Pipeline.sub_ucRefs op ((List.forall_iff_forall_mem.mp hsub) op h))
      (fun op h => (List.forall_iff_forall_mem.mp hfresh) op h) (Vf o) Rr).run c k K
    simp only [Pipeline.HostSeg.ofOps] at hrun
    iapply hrun
    isplitl [Hk]
    · iintro ⟨Hbd, Hpost⟩
      iapply Hk
      isplitl [Hbd]; · iexact Hbd
      iexists o; iexact Hpost
    isplitl [Hbd]; · iexact Hbd
    isplitl [HP]; · iexact HP
    iexact Hlev

end Cert.Kernel.Hand

end
-- ==== Proof.KRegion1Runs.lean ====
/-
  The standard-deviation kernel's region, first part: what the run of its body at a grid point depends on.
  The grid is 2 x 25: the first coordinate picks 64 of the 128 batch rows, the second one of the 25 blocks of 40
  gathered rows. The body zeroes its two accumulators when the second coordinate is 0, adds the block's sum and its
  sum of squares at every point, and stores the output block only when the second coordinate is 24. Here: the two
  conditions in closed form over the linear point number (point t has second coordinate t mod 25), the points at
  which the output window is idle, the two accumulators as memrefs and views, the class invariant with the
  accumulators named, and the input window's block at a point.
-/
import proofs.«163166_j5368709120527_1_alg».proof.Proof.Gen.Kernel.Launch
import proofs.«163166_j5368709120527_1_alg».proof.Proof.Gen.Kernel.Skeleton
import proofs.«163166_j5368709120527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "The second grid coordinate is 0": the accumulators are zeroed. -/
abbrev cond1_0 (i : grid1.Coords) : Prop := (Scalar.cmpi .ne (Scalar.extui (Scalar.cmpi .eq (BitVec.ofNat 32 (i 1).val) 0#32)) 0#32) = 1#1
/-- It holds at the points that are 0 modulo 25. -/
theorem hcond1_0 : ∀ t : Fin cfg1.N, cond1_0 (grid1.coords t) ↔ t.val % 25 = 0 :=
  (by decide +kernel : ∀ t : Fin grid1.N, cond1_0 (grid1.coords t) ↔ t.val % 25 = 0)

/-- "The second grid coordinate is 24": the output block is stored. -/
abbrev cond1_1 (i : grid1.Coords) : Prop := k1_cond2 i = 1#1
/-- It holds at the points that are 24 modulo 25. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The input window is never idle. -/
theorem liveAt1_0 : ∀ t : Fin cfg1.N, cfg1.idle 0 (grid1.coords t) = false := by decide +kernel
/-- Away from the last block of a row group the output window is idle: nothing is stored into it, -/
theorem idleAt1_1 : ∀ t : Fin cfg1.N, ¬cond1_1 (grid1.coords t) → cfg1.idle 1 (grid1.coords t) = true := by decide +kernel
/-- and it is not written back there. -/
theorem noFlush1_1 : ∀ t : Fin cfg1.N, ¬cond1_1 (grid1.coords t) → (cfg1.win 1).flush t = false := by decide +kernel
/-- At the last block it is live. -/
theorem liveAt1_1 : ∀ t : Fin cfg1.N, cond1_1 (grid1.coords t) → cfg1.idle 1 (grid1.coords t) = false := by decide +kernel

/-! ## The memrefs the body is called with -/

/-- One staging buffer of the output window, through which its contents are stated. -/
abbrev VO1_1 : View sig .tc .vmem S64x768 .f32 := (Memref.whole cc1_stg1_0 : Memref sig .tc .vmem S64x768 .f32).view
abbrev ms1_0 (t : Fin cfg1.N) : Memref sig .tc .vmem S64x40x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x768 .f32 := win1_1.stage (cfg1.slots t 1)
abbrev hs1_1 (t : Fin cfg1.N) : (ms1_1 t).IsWhole := hstage1_1 ((cfg1.slots t 1).cast nbuf1_1)
/-- The running sum and the running sum of squares: whole scoped buffers of the kernel's own. -/
abbrev scM1_0 : Memref sig .tc .vmem S64x768 .f32 := Memref.whole cc1_scratch0
abbrev scM1_1 : Memref sig .tc .vmem S64x768 .f32 := Memref.whole cc1_scratch1
abbrev VS1_0 : View sig .tc .vmem S64x768 .f32 := scM1_0.view
abbrev VS1_1 : View sig .tc .vmem S64x768 .f32 := scM1_1.view

/-- The other region's four staging buffers, as whole memrefs: scoped buffers this region never touches. -/
abbrev oM0 : Memref sig .tc .vmem S256x14541 .f32 := Memref.whole cc0_stg0_0
abbrev oM1 : Memref sig .tc .vmem S256x14541 .f32 := Memref.whole cc0_stg0_1
abbrev oM2 : Memref sig .tc .vmem S256 .f32 := Memref.whole cc0_stg1_0
abbrev oM3 : Memref sig .tc .vmem S256 .f32 := Memref.whole cc0_stg1_1

/-- The class invariant spelled out: the other region's staging buffers and the two accumulators, each owned whole at
    some contents, and the generator register at some state. -/
theorem PhiA1_eq (c : Dev nD) :
    (Pipeline.ΦA spec1 c : sProp 𝕄)
      = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [oM0, oM1, oM2, oM3, scM1_0, scM1_1, owns_whole]; try rfl

/-! ## The input window's block -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.KRegion1RunA.lean ====
/-
  The body of the standard-deviation kernel at a point whose second coordinate is 0: the two accumulators are zeroed and then receive the first block's sum and sum of squares; the output block is not stored.
-/
import proofs.«163166_j5368709120527_1_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_A (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) :
    Σ' (L1 : List (View.Piece (Elt F) S64x768 .f32)), Σ' (LS0 : List (View.Piece (Elt F) S64x768 .f32)), { LS1 : List (View.Piece (Elt F) S64x768 .f32) //
      ∀ (xi1 : Vec F S64x768 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨[], ?_, ?_, fun xi1 E K => ?run⟩
  case run =>
    simp only [cc1__emb_std_kernel_eq_skeleton]; unfold cc1__emb_std_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KRegion1RunB.lean ====
/-
  The body of the standard-deviation kernel at a point whose second coordinate is neither 0 nor 24: each accumulator receives its previous contents plus the block's sum, respectively sum of squares; the output block is not stored.
-/
import proofs.«163166_j5368709120527_1_alg».proof.Proof.KRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_B (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) :
    Σ' (L1 : List (View.Piece (Elt F) S64x768 .f32)), Σ' (LS0 : List (View.Piece (Elt F) S64x768 .f32)), { LS1 : List (View.Piece (Elt F) S64x768 .f32) //
      ∀ (xi1 : Vec F S64x768 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨[], ?_, ?_, fun xi1 E K => ?run⟩
  case run =>
    simp only [cc1__emb_std_kernel_eq_skeleton]; unfold cc1__emb_std_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KRegion1RunC.lean ====
/-
  The body of the standard-deviation kernel at a point whose second coordinate is 24: the accumulators receive the last block, and the output block is stored from them.
-/
import proofs.«163166_j5368709120527_1_alg».proof.Proof.KRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_C (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) :
    Σ' (L1 : List (View.Piece (Elt F) S64x768 .f32)), Σ' (LS0 : List (View.Piece (Elt F) S64x768 .f32)), { LS1 : List (View.Piece (Elt F) S64x768 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨?_, ?_, ?_, fun E K => ?run⟩
  case run =>
    simp only [cc1__emb_std_kernel_eq_skeleton]; unfold cc1__emb_std_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    iexists _; iexact HS1

end Cert.Kernel.Hand

end
-- ==== Proof.KRegion1.lean ====
/-
  The standard-deviation kernel's region, second part: what its buffers hold point by point, and the proof data.
  After the body at point t the running sum holds the sum over the blocks met so far in the current group of 25
  points, the running sum of squares likewise, and at the group's last point the output block holds the standard
  deviation computed from the two. The contents are stated by recursion on the point number: a point that is 0
  modulo 25 starts afresh, any other continues from what the point before left in the two accumulators. The
  region's invariant carries the two accumulators at these contents; the obligation of the body at a point is
  met by the run of the matching case.
-/
import proofs.«163166_j5368709120527_1_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output's staging buffer: its pieces read back (none: a placeholder nothing consults, the window being idle there). -/
def out1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VO1_1.read (Elt F) (VO1_1.writes (Elt F) VO1_1.junk (kernelRun1_A c i arg2 harg2 arg3 harg3 arg4 harg4 arg5 harg5 hc0 hc1 x0).1)

/-- Case A's pieces for the running sum cover it. -/
theorem scover1_A_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) (y : S64x768.Idx) :
    ∃ pc ∈ (kernelRun1_A c i arg2 harg2 arg3 harg3 arg4 harg4 arg5 harg5 hc0 hc1 x0).2.1, y ∈ pc.1.set :=
  View.cover_of_tiledL (kernelRun1_A c i arg2 harg2 arg3 harg3 arg4 harg4 arg5 harg5 hc0 hc1 x0).2.1 S64x768.size (by sl_kernel_rfl) y

/-- What case A leaves in the running sum. -/
def sout1_A_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VS1_0.read (Elt F) (VS1_0.writes (Elt F) VS1_0.junk (kernelRun1_A c i arg2 harg2 arg3 harg3 arg4 harg4 arg5 harg5 hc0 hc1 x0).2.1)

/-- Case A's pieces for the running sum of squares cover it. -/
theorem scover1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) (y : S64x768.Idx) :
    ∃ pc ∈ (kernelRun1_A c i arg2 harg2 arg3 harg3 arg4 harg4 arg5 harg5 hc0 hc1 x0).2.2.1, y ∈ pc.1.set :=
  View.cover_of_tiledL (kernelRun1_A c i arg2 harg2 arg3 harg3 arg4 harg4 arg5 harg5 hc0 hc1 x0).2.2.1 S64x768.size (by sl_kernel_rfl) y

/-- What case A leaves in the running sum of squares. -/
def sout1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VS1_1.read (Elt F) (VS1_1.writes (Elt F) VS1_1.junk (kernelRun1_A c i arg2 harg2 arg3 harg3 arg4 harg4 arg5 harg5 hc0 hc1 x0).2.2.1)

/-- What case B leaves in the output's staging buffer: its pieces read back (none: a placeholder nothing consults, the window being idle there). -/
def out1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VO1_1.read (Elt F) (VO1_1.writes (Elt F) VO1_1.junk (kernelRun1_B c i arg2 harg2 arg3 harg3 arg4 harg4 arg5 harg5 hc0 hc1 x0 xs0 xs1).1)

/-- Case B's pieces for the running sum cover it. -/
theorem scover1_B_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) (y : S64x768.Idx) :
    ∃ pc ∈ (kernelRun1_B c i arg2 harg2 arg3 harg3 arg4 harg4 arg5 harg5 hc0 hc1 x0 xs0 xs1).2.1, y ∈ pc.1.set :=
  View.cover_of_tiledL (kernelRun1_B c i arg2 harg2 arg3 harg3 arg4 harg4 arg5 harg5 hc0 hc1 x0 xs0 xs1).2.1 S64x768.size (by sl_kernel_rfl) y

/-- What case B leaves in the running sum. -/
def sout1_B_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VS1_0.read (Elt F) (VS1_0.writes (Elt F) VS1_0.junk (kernelRun1_B c i arg2 harg2 arg3 harg3 arg4 harg4 arg5 harg5 hc0 hc1 x0 xs0 xs1).2.1)

/-- Case B's pieces for the running sum of squares cover it. -/
theorem scover1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) (y : S64x768.Idx) :
    ∃ pc ∈ (kernelRun1_B c i arg2 harg2 arg3 harg3 arg4 harg4 arg5 harg5 hc0 hc1 x0 xs0 xs1).2.2.1, y ∈ pc.1.set :=
  View.cover_of_tiledL (kernelRun1_B c i arg2 harg2 arg3 harg3 arg4 harg4 arg5 harg5 hc0 hc1 x0 xs0 xs1).2.2.1 S64x768.size (by sl_kernel_rfl) y

/-- What case B leaves in the running sum of squares. -/
def sout1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VS1_1.read (Elt F) (VS1_1.writes (Elt F) VS1_1.junk (kernelRun1_B c i arg2 harg2 arg3 harg3 arg4 harg4 arg5 harg5 hc0 hc1 x0 xs0 xs1).2.2.1)

/-- At a last block the output's pieces tile its block, so they cover it. -/
theorem cover1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).1, y ∈ pc.1.set :=
  View.cover_of_tiledL (kernelRun1_C c i arg2 harg2 arg3 harg3 arg4 harg4 arg5 harg5 hc0 hc1 x0 xs0 xs1).1 S64x768.size (by sl_kernel_rfl) y

/-- What case C leaves in the output's staging buffer: its pieces read back. -/
def out1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VO1_1.read (Elt F) (VO1_1.writes (Elt F) VO1_1.junk (kernelRun1_C c i arg2 harg2 arg3 harg3 arg4 harg4 arg5 harg5 hc0 hc1 x0 xs0 xs1).1)

/-- Case C's pieces for the running sum cover it. -/
theorem scover1_C_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).2.1, y ∈ pc.1.set :=
  View.cover_of_tiledL (kernelRun1_C c i arg2 harg2 arg3 harg3 arg4 harg4 arg5 harg5 hc0 hc1 x0 xs0 xs1).2.1 S64x768.size (by sl_kernel_rfl) y

/-- What case C leaves in the running sum. -/
def sout1_C_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VS1_0.read (Elt F) (VS1_0.writes (Elt F) VS1_0.junk (kernelRun1_C c i arg2 harg2 arg3 harg3 arg4 harg4 arg5 harg5 hc0 hc1 x0 xs0 xs1).2.1)

/-- Case C's pieces for the running sum of squares cover it. -/
theorem scover1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).2.2.1, y ∈ pc.1.set :=
  View.cover_of_tiledL (kernelRun1_C c i arg2 harg2 arg3 harg3 arg4 harg4 arg5 harg5 hc0 hc1 x0 xs0 xs1).2.2.1 S64x768.size (by sl_kernel_rfl) y

/-- What case C leaves in the running sum of squares. -/
def sout1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VS1_1.read (Elt F) (VS1_1.writes (Elt F) VS1_1.junk (kernelRun1_C c i arg2 harg2 arg3 harg3 arg4 harg4 arg5 harg5 hc0 hc1 x0 xs0 xs1).2.2.1)

/-! ## What the buffers hold after each point -/

/-- After the body at position n: the output's staging buffer, the running sum, the running sum of squares. -/
def outsAt1 (c : Dev nD) : (n : ℕ) → n < cfg1.N → Vec F S64x768 .f32 × Vec F S64x768 .f32 × Vec F S64x768 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 25 = 0 then
      if h1 : (n + 1) % 25 = 24 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 25 = 24 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

/-- At a point that starts a group: case A's contents. -/
theorem outsAt1_A (c : Dev nD) (t : Fin cfg1.N) (h0 : t.val % 25 = 0) (h1 : ¬t.val % 25 = 24) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- At a middle point: case B's contents over what the point before left. -/
theorem outsAt1_B (c : Dev nD) (t : Fin cfg1.N) (h0 : ¬t.val % 25 = 0) (h1 : ¬t.val % 25 = 24) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point that ends a group: case C's contents over what the point before left. -/
theorem outsAt1_C (c : Dev nD) (t : Fin cfg1.N) (h0 : ¬t.val % 25 = 0) (h1 : t.val % 25 = 24) :
    outsAt1 V c t.val t.isLt = (out1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start the class invariant (every scoped buffer at anything); afterwards the other
    region's staging buffers at anything, the two accumulators at what the point before left, and the generator
    register at some state. -/
def PhiS (c : Dev nD) : (n : ℕ) → n ≤ cfg1.N → sProp 𝕄
  | 0, _ => Pipeline.ΦA spec1 c
  | n + 1, hn => iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c n hn).2.1 ∗ owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c n hn).2.1 ∗ owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The proof data -/

/-- The region's proof data on core c: the arrays as the region finds them; after the body at point t the input's
    buffer at its block and the output's at the recursion's first component; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's memref holds its block; the point number modulo 25 says which case applies;
    the invariant hands the body the two accumulators at what the point before left (at anything where a group
    starts) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 50 := lt_of_lt_of_eq t.isLt (show cfg1.N = 50 from N_1)
  by_cases h0 : t.val % 25 = 0
  · by_cases h1 : t.val % 25 = 24
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨⟨HO0, HO1, HO2, HO3, HS0, HS1⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_A_0 c _ _ _ _ _ _ _ _ _ _ _ _)
            unfold owns; iexists _; isplitr
            swap; · iexact HS1
            ipureintro; exact View.read_writes_of_cover _ _ _ _ _ (scover1_A_1 c _ _ _ _ _ _ _ _ _ _ _ _)
          iexact Hg
        isplitl [Ho]; · iexact Ho
        isplitl [H0]; · iexact H0
        iexists _; iexact H1
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_A_0 c _ _ _ _ _ _ _ _ _ _ _ _)
            unfold owns; iexists _; isplitr
            swap; · iexact HS1
            ipureintro; exact View.read_writes_of_cover _ _ _ _ _ (scover1_A_1 c _ _ _ _ _ _ _ _ _ _ _ _)
          iexact Hg
        isplitl [Ho]; · iexact Ho
        isplitl [H0]; · iexact H0
        iexists _; iexact H1
  · by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0 sout1_C_1; (try dsimp only)
      have hz : t.val ≠ 0 := fun h => h0 (by rw [h])
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_C c (grid1.coords t) _ _ _ _ _ _ _ _ (fun h => h0 ((hcond1_0 t).mp h)) ((hcond1_1 t).mpr h1) (iblk1 V c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_C_0 c _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0 sout1_B_1; (try dsimp only)
      have hz : t.val ≠ 0 := fun h => h0 (by rw [h])
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_B c (grid1.coords t) _ _ _ _ _ _ _ _ (fun h => h0 ((hcond1_0 t).mp h)) (fun h => h1 ((hcond1_1 t).mp h)) (iblk1 V c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_B_0 c _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _)
          iexact Hg
        isplitl [Ho]; · iexact Ho
        isplitl [H0]; · iexact H0
        iexists _; iexact H1

/-- The body obligation at every point. -/
theorem body_obligation1_strict (c : Dev nD) : BodyObligation (dat1 (F := F) V c) (defs₀ (F := F)) Variants.none () Set.univ := fun t => by
  rw [bigSep_W1, bigSep_W1]
  exact sound_body1 V c t

/-- In the form a region record takes. -/
theorem body_obligation1 (c : Dev nD) : Pipeline.BodyObligationLoose (dat1 (F := F) V c) (defs₀ (F := F)) Variants.none () Set.univ :=
  (body_obligation1_strict (F := F) V c).loose

/-! ## Entering and leaving the region -/

/-- The class invariant is the invariant before the first point. -/
theorem hin1A (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HO0, HO1, HO2, HO3, HS0, HS1⟩, Hg⟩
  isplitl [HO0 HO1 HO2 HO3 HS0 HS1]
  · isplitl [HO0]; · iexact HO0
    isplitl [HO1]; · iexact HO1
    isplitl [HO2]; · iexact HO2
    isplitl [HO3]; · iexact HO3
    isplitl [HS0]; · iexists _; iexact HS0
    iexists _; iexact HS1
  iexact Hg

theorem hout1A (c : Dev nD) : (dat1 V c).Φ (Fin.last cfg1.N) ⊢ Pipeline.ΦA spec1 c :=
  Phi_out1 V c _ (by rw [Fin.val_last]; have : cfg1.N = 50 := N_1; omega)

/-- The input window's array is never written: it ends as the region found it. -/
theorem arr1_in (c : Dev nD) : (dat1 V c).arrAt 0 cfg1.N = V c main_v14 :=
  ((dat1 V c).arrAt_in 0 rfl _).trans (A_eq1 V c 0)

end Cert.Kernel.Hand

end
-- ==== Proof.KRunData.lean ====
/-
  The run of the word-level program, second part: the two regions as segments over thread states that leave the
  regions' output contents unnamed.
  The row-mean region is read with its output window forgotten: its body hands the output's staging buffer back at
  contents nobody names, so after the region its output array holds SOME contents. The standard-deviation region is
  entered with its input array (the gathered rows) and its output array at contents that do not depend on what the
  first region left: the gathered rows are a function of the embedding table and the index array alone.
-/
import proofs.«163166_j5368709120527_1_alg».proof.Proof.KRunHost
import proofs.«163166_j5368709120527_1_alg».proof.Proof.KRegion1
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo (after_cons after_nil)

variable (m : (ℓ : Loc nD τ sig) → Buf (Elt F) ℓ)

/-! ## What the second region finds does not depend on what the first left -/

set_option maxHeartbeats 4000000 in
/-- The gathered rows are computed from the embedding table and the index array only. -/
theorem V2_v14 (o o' : Outs (F := F)) (c : Dev nD) : V2 m o c main_v14 = V2 m o' c main_v14 := by
  dsimp only [V2]
  generalize hW : V1 m o c = W
  generalize hW' : V1 m o' c = W'
  have h7 : W main_arg7 = W' main_arg7 := by rw [← hW, ← hW', V1_of m o c main_arg7 (by decide), V1_of m o' c main_arg7 (by decide)]
  have h2 : W main_arg2 = W' main_arg2 := by rw [← hW, ← hW', V1_of m o c main_arg2 (by decide), V1_of m o' c main_arg2 (by decide)]
  simp only [hostOps1]
  after_results_simp
  rw [h7, h2]

/-- The second region's output array is untouched before it. -/
theorem V2_v15 (o o' : Outs (F := F)) (c : Dev nD) : V2 m o c main_v15 = V2 m o' c main_v15 := by
  rw [V2_of m o c main_v15 (by decide), V2_of m o' c main_v15 (by decide), V1_of m o c main_v15 (by decide), V1_of m o' c main_v15 (by decide)]

/-! ## Overriding one entry of a choice of output contents -/

/-- The choice `o` with the contents of `r` after item `n` on core `c` set to `a`. -/
def setOut (c : Dev nD) (o : Outs (F := F)) (n : ℕ) (r : Ref sig .tc) (a : Buf (Elt F) ((c : Thread nD τ).loc r)) : Outs (F := F) :=
  fun n' r' c' => by
    classical
    exact if h : n' = n ∧ r' = r ∧ c' = c then h.2.1.symm ▸ h.2.2.symm ▸ a else o n' r' c'

theorem setOut_self (c : Dev nD) (o : Outs (F := F)) (n : ℕ) (r : Ref sig .tc) (a : Buf (Elt F) ((c : Thread nD τ).loc r)) :
    setOut c o n r a n r c = a := by
  unfold setOut; rw [dif_pos ⟨rfl, rfl, rfl⟩]

theorem setOut_of_ne (c : Dev nD) (o : Outs (F := F)) (n : ℕ) (r : Ref sig .tc) (a : Buf (Elt F) ((c : Thread nD τ).loc r))
    (n' : ℕ) (r' : Ref sig .tc) (c' : Dev nD) (h : n' ≠ n) : setOut c o n r a n' r' c' = o n' r' c' := by
  unfold setOut; rw [dif_neg (fun h' => h h'.1)]

/-- A fixed choice, at which the second region's proof data is stated: the launch contents. -/
def o₀ : Outs (F := F) := fun _ r c => m ((c : Thread nD τ).loc r)

/-- What the first region finds, and what the second finds, read at a TensorCore reference. -/
abbrev Ve0 (c : Dev nD) (b : Ref sig .tc) : Buf (Elt F) ((c : Thread nD τ).loc b) := V0 m c b
abbrev Ve1 (c : Dev nD) (b : Ref sig .tc) : Buf (Elt F) ((c : Thread nD τ).loc b) := V2 m (o₀ m) c b

end Cert.Kernel.Hand

end
-- ==== Proof.KRunReg0.lean ====
/-
  The run of the word-level program, third part: the proof data read relationally, and the row-mean region as a segment.
  @main is six items: the row-mean region, a stretch of host operations, the standard-deviation region, and three
  more stretches. Between two items every unscoped buffer is held at the item-by-item valuation for some choice of
  what the two regions left in their output arrays. A region's record splits its two arrays out of the unscoped
  buffers at the entry and puts them back at the exit: the input array as it was (an input array is never written),
  the output array at whatever the write-backs left. No item writes an argument, so at the end every argument array
  holds its launch contents whatever that choice was.
-/
import proofs.«163166_j5368709120527_1_alg».proof.Proof.KRegion0
import proofs.«163166_j5368709120527_1_alg».proof.Proof.KRunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The exact proof data of the two pipelines, each at contents fixed before the run. -/
def pdatsD : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- The same read relationally, the row-mean region's output window forgotten. -/
def rdats : (p : Fin 2) → (c : Dev nD) → RDat τ (Elt F) Unit ℕ (UR sig nD τ) ℕ (cfgs p) c
  | ⟨0, _⟩ => fun c => (dat0 (Ve0 m) c).toRForget fgt0
  | ⟨1, _⟩ => fun c => (dat1 (Ve1 m) c).toR

/-- Changing what the second region left does not change what it found. -/
theorem V2_setOut (c : Dev nD) (o : Outs (F := F)) (r : Ref sig .tc) (a : Buf (Elt F) ((c : Thread nD τ).loc r)) :
    V2 m (setOut c o 3 r a) c = V2 m o c := by
  show StableHlo.after hostOps1 (Function.update (V0 m c) main_v0 (setOut c o 3 r a 1 main_v0 c)) = _
  rw [setOut_of_ne c o 3 r a 1 main_v0 c (by decide)]

/-! ## The regions as segments -/

set_option backward.isDefEq.respectTransparency.types false in
/-- The row-mean region: entered from the launch memory, left with its output array at some contents. -/
def reg0 : RDat.RegionSeg (pcfgs (F := F)) adm (rdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0_fgt (Ve0 m) c).toRForget
  hwaits := RDat.hwaits_of_owed_zero _ _ _ _ L0 lv0 0 fun _ _ => rfl
  pre c := iprop(StableHlo.held (c : Thread nD τ) (Pipeline.ucRefs τ sig) (V0 m c) ∗ Rr c)
  post c := TEx (V1 m) c
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := RDat.arrays_of_unscopedBufs (p := 0) (pcfgs (F := F)) adm (rdats m) launch0.win launch0.arr_whole c
      ((pdatsD m 0 c).share_full fun _ => rfl) (Ve0 m c) fun w => A_eq0 (Ve0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    unfold Pipeline.RDat.arraysAt
    rw [bigSep_W0]
    iintro ⟨⟨⟨%F0, %h0, HA0⟩, ⟨%F1, %h1, HA1⟩⟩, HO, HY, Hrest⟩
    have e0 : F0 = V0 m c main_arg8 := by
      have h := congrFun ((rdats m 0 c).ArrAt_in 0 rfl cfg0.N) F0
      exact (h.mp h0).trans (A_eq0 (Ve0 m) c 0)
    subst e0
    have hjoin := Pipeline.unscopedBufs_of_arrays (p := 0) (pcfgs (F := F)) adm (Ix := Unit) (Name := ℕ) (U := UR sig nD τ) (Lvl := ℕ)
      launch0.win launch0.arr_whole c (pdatsD m) ((pdatsD m 0 c).share_full fun _ => rfl)
      (Ve0 m c) (fun b => V1 m (setOut c (o₀ m) 1 main_v0 F1) c b) (fun w => V1 m (setOut c (o₀ m) 1 main_v0 F1) c (Pipeline.arrRef spec0 w)) (fun _ => rfl)
      (fun b hb => V1_of m _ c b fun h => hb (Finset.mem_image.mpr ⟨1, Finset.mem_univ _, (List.mem_singleton.mp h).symm⟩))
    rw [Pipeline.unscopedBufs_held] at hjoin
    imodintro
    iexists (setOut c (o₀ m) 1 main_v0 F1)
    isplitl [HA0 HA1 Hrest]
    · iapply hjoin
      isplitl [HA0 HA1]
      · unfold Pipeline.Dat.arrays; rw [bigSep_W0]; beta_reduce
        isplitl [HA0]
        · rw [show V1 m (setOut c (o₀ m) 1 main_v0 F1) c (Pipeline.arrRef spec0 0) = V0 m c main_arg8 from V1_of m _ c main_arg8 (by decide)]
          iexact HA0
        rw [show V1 m (setOut c (o₀ m) 1 main_v0 F1) c (Pipeline.arrRef spec0 1) = F1 from by
          show Function.update (V0 m c) main_v0 (setOut c (o₀ m) 1 main_v0 F1 1 main_v0 c) main_v0 = _
          rw [Function.update_self]; exact setOut_self ..]
        iexact HA1
      iexact Hrest
    isplitl [HY]; · iexact HY
    unfold Pipeline.RDat.owesAt Pipeline.owesWithin
    icases HO with ⟨%W, -, HO⟩; iexists W; iexact HO

end Cert.Kernel.Hand

end
-- ==== Proof.KRunFrame.lean ====
/-
  The run of the word-level program, last part: the launch.
  @main is six items: the row-mean region, a stretch of host operations, the standard-deviation region, and three
  more stretches. The thread states between them chain: each item is entered from the state the one before leaves.
  At the end every unscoped buffer is held at the last valuation for some choice of the regions' outputs; no item
  writes an argument, so each argument array is read back at its launch contents whatever the choice.
-/
import proofs.«163166_j5368709120527_1_alg».proof.Proof.KRunReg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R1 : RDat.RegionSeg (pcfgs (F := F)) adm (rdats m) () defs₀ Variants.none L0 lv0 1)

/-! ## @main as its six items, and the launch -/

/-- The items of @main on a core. -/
abbrev items (c : Dev nD) : List (RDat.Seg (pcfgs (F := F)) adm (rdats m) () defs₀ Variants.none L0 lv0) :=
  [.region (reg0 m), .host (hostSegEx hostOps1 hostOps1_sub hostOps1_fresh (V1 m)), .region R1,
   .host (hostSegEx hostOps2 hostOps2_sub hostOps2_fresh (V3 m)), .host (hostSegEx hostOps2_1 hostOps2_1_sub hostOps2_1_fresh (V4 m)),
   .host (hostSegEx hostOps2_2 hostOps2_2_sub hostOps2_2_fresh (V5 m))]

/-- The last thread state, with the dues split off: what the launch reads at the end. -/
theorem last_step (c : Dev nD) : TEx (V6 m) c ⊢ (iprop((∃ o : Outs (F := F), iprop(StableHlo.held (c : Thread nD τ) (Pipeline.ucRefs τ sig) (V6 m o c) ∗ ∃ r, prngReg c r)) ∗ ∃ W, owes (c : Thread nD τ) (0 : CellTallies nD τ sig Unit) W) : sProp 𝕄) := by
  iintro HT
  icases HT with ⟨%o, Hh, Hp, HO⟩
  isplitl [Hh Hp]
  · iexists o
    isplitl [Hh]; · iexact Hh
    iexact Hp
  iexact HO

/-- An unscoped reference is among those a core holds between two items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in
set_option backward.isDefEq.respectTransparency.types false in
/-- The frame of the word-level program, given the second region's record: from any memory with zero counters every weakly fair execution of @main
    terminates, nothing faulting, and every argument array ends as launched. -/
theorem frame_of (hpre1 : ∀ c, TEx (V2 m) c ⊢ R1.pre c) (hpost1 : ∀ c, R1.post c ⊢ TEx (V3 m) c) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine RDat.θ_run_regions_kit_dev (pcfgs (F := F)) adm (rdats m) () cellOf_inj emb₁ defs₀ Variants.none L0 lv0 m ρ main
    (items m R1)
    (fun c Q => by
      rewrite [main_chain c, RDat.Seg.run_eq_chain,
        show (items m R1 c).map RDat.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(∃ o : Outs (F := F), iprop(StableHlo.held (c : Thread nD τ) (Pipeline.ucRefs τ sig) (V6 m o c) ∗ ∃ r, prngReg c r)))
    (hch := fun c => ⟨.rfl, .rfl, hpre1 c, hpost1 c, .rfl, .rfl, last_step m c⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10))
    (hfin := fun c s' => by
      iintro ⟨HT, HSI⟩
      icases HT with ⟨%o, Hh, -⟩
      unfold StableHlo.held
      ihave Hr := (pointsTo_read_all (Pipeline.ucRefs τ sig) (fun b => ((c : Thread nD τ).1, b)) (V6 m o c) s') $$ [Hh HSI]
      · isplitl [Hh] <;> iassumption
      icases Hr with ⟨%h, HSI⟩
      imodintro
      isplitr
      · ipureintro
        exact ⟨(h _ (mem_uc main_arg0 (by decide))).trans (V6_main_arg0 m o c),
          (h _ (mem_uc main_arg1 (by decide))).trans (V6_main_arg1 m o c),
          (h _ (mem_uc main_arg2 (by decide))).trans (V6_main_arg2 m o c),
          (h _ (mem_uc main_arg3 (by decide))).trans (V6_main_arg3 m o c),
          (h _ (mem_uc main_arg4 (by decide))).trans (V6_main_arg4 m o c),
          (h _ (mem_uc main_arg5 (by decide))).trans (V6_main_arg5 m o c),
          (h _ (mem_uc main_arg6 (by decide))).trans (V6_main_arg6 m o c),
          (h _ (mem_uc main_arg7 (by decide))).trans (V6_main_arg7 m o c),
          (h _ (mem_uc main_arg8 (by decide))).trans (V6_main_arg8 m o c),
          (h _ (mem_uc main_arg9 (by decide))).trans (V6_main_arg9 m o c),
          (h _ (mem_uc main_arg10 (by decide))).trans (V6_main_arg10 m o c)⟩
      · iexact HSI)
    (hQ := fun _ h => h)

end Cert.Kernel.Hand

end
-- ==== Proof.KRunReg1.lean ====
/-
  The run of the word-level program, fourth part: the standard-deviation region as a segment. It is entered after the
  gathers with every unscoped buffer at the item-by-item contents for some choice of what the row-mean region left, and
  is left with its output array at some contents. Its two arrays do not depend on that choice: the gathered rows are a
  function of the embedding table and the index array, and its output array is untouched before it. The splitting of
  the arrays out of the unscoped buffers and their joining back are stated over arbitrary contents, so that the long
  host stretch before the region is never unfolded.
-/
import proofs.«163166_j5368709120527_1_alg».proof.Proof.KRunReg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The standard-deviation region's arrays, over any contents of the unscoped buffers -/

/-- ENTRY: the unscoped buffers at contents `W` that show the region's proof data its arrays are those arrays and the
    unscoped rest. -/
theorem split1 (c : Dev nD) (W : Valuation τ sig (Elt F))
    (hA : ∀ w : Fin cfg1.W, (rdats m 1 c).A w = W (Pipeline.arrRef spec1 w)) :
    (StableHlo.held (c : Thread nD τ) (Pipeline.ucRefs τ sig) W : sProp 𝕄)
      ⊢ iprop((rdats m 1 c).arrays (rdats m 1 c).A
          ∗ Pipeline.unscopedRest (Ix := Unit) (Name := ℕ) (U := UR sig nD τ) (Lvl := ℕ) spec1 c (fun b => W b)) := by
  have hsplit := RDat.arrays_of_unscopedBufs (p := 1) (pcfgs (F := F)) adm (rdats m) launch1.win launch1.arr_whole c
    ((pdatsD m 1 c).share_full fun _ => rfl) (fun b => W b) hA
  rw [Pipeline.unscopedBufs_held] at hsplit
  exact hsplit

/-- EXIT: the region's arrays at contents `Fs` and the unscoped rest at `W` are the unscoped buffers at any contents
    `W'` that have the arrays at `Fs` and agree with `W` off them. -/
theorem join1 (c : Dev nD) (W W' : Valuation τ sig (Elt F))
    (Fs : (w : Fin cfg1.W) → Buf (Elt F) ((spec1 w).arr.view.loc (c : Thread nD τ)))
    (hF : ∀ w, Fs w = W' (Pipeline.arrRef spec1 w))
    (hrest : ∀ b : Ref sig .tc, b ∉ Finset.univ.image (Pipeline.arrRef spec1) → W' b = W b) :
    iprop((pdatsD m 1 c).arrays Fs
        ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  have hjoin := Pipeline.unscopedBufs_of_arrays (p := 1) (pcfgs (F := F)) adm (Ix := Unit) (Name := ℕ) (U := UR sig nD τ) (Lvl := ℕ)
    launch1.win launch1.arr_whole c (pdatsD m) ((pdatsD m 1 c).share_full fun _ => rfl)
    (fun b => W b) (fun b => W' b) Fs hF hrest
  rw [Pipeline.unscopedBufs_held] at hjoin
  exact hjoin

/-! ## What the region finds and what it leaves, at the item-by-item valuation -/

/-- Whatever the first region left, the second region's proof data has its arrays at what the unscoped buffers hold
    when it is entered. -/
theorem hA1 (o : Outs (F := F)) (c : Dev nD) :
    ∀ w : Fin cfg1.W, (rdats m 1 c).A w = V2 m o c (Pipeline.arrRef spec1 w) := fun w =>
  match w with
  | ⟨0, _⟩ => (A_eq1 (Ve1 m) c 0).trans (V2_v14 m (o₀ m) o c)
  | ⟨1, _⟩ => (A_eq1 (Ve1 m) c 1).trans (V2_v15 m (o₀ m) o c)

/-- After the region, with its output array at contents `a`: the input array is as it was found, -/
theorem V3_in (o : Outs (F := F)) (c : Dev nD) (a : Buf (Elt F) ((c : Thread nD τ).loc main_v15)) :
    V3 m (setOut c o 3 main_v15 a) c main_v14 = V2 m o c main_v14 :=
  (V3_of m _ c main_v14 (by decide)).trans (congrFun (V2_setOut m c o main_v15 a) _)

/-- the output array holds `a`, -/
theorem V3_out (o : Outs (F := F)) (c : Dev nD) (a : Buf (Elt F) ((c : Thread nD τ).loc main_v15)) :
    V3 m (setOut c o 3 main_v15 a) c main_v15 = a := by
  show Function.update (V2 m (setOut c o 3 main_v15 a) c) main_v15 (setOut c o 3 main_v15 a 3 main_v15 c) main_v15 = _
  rw [Function.update_self]; exact setOut_self ..

/-- and every other buffer is as it was found. -/
theorem V3_rest (o : Outs (F := F)) (c : Dev nD) (a : Buf (Elt F) ((c : Thread nD τ).loc main_v15)) (b : Ref sig .tc)
    (hb : b ∉ Finset.univ.image (Pipeline.arrRef spec1)) :
    V3 m (setOut c o 3 main_v15 a) c b = V2 m o c b :=
  (V3_of m _ c b fun h => hb (Finset.mem_image.mpr ⟨1, Finset.mem_univ _, (List.mem_singleton.mp h).symm⟩)).trans
    (congrFun (V2_setOut m c o main_v15 a) _)

/-- The second region's relational proof data is the exact data read relationally. -/
theorem rdats_one (c : Dev nD) : rdats m 1 c = (dat1 (Ve1 m) c).toR := rfl

/-- For any relational reading of the exact data: after the last point the invariant gives the class invariant back. -/
theorem hout1_gen (V : (c : Dev nD) → (b : Ref sig .tc) → Buf (Elt F) ((c : Thread nD τ).loc b)) (c : Dev nD)
    (d : RDat τ (Elt F) Unit ℕ (UR sig nD τ) ℕ cfg1 c) (hd : d = (dat1 V c).toR) :
    d.Φ (Fin.last cfg1.N) ⊢ (Pipeline.ΦA spec1 c : sProp 𝕄) := by
  subst hd; exact hout1A V c

theorem hout1R (c : Dev nD) :
    (rdats m 1 c).Φ (Fin.last (Pipeline.pin (pcfgs (F := F)) adm 1).N) ⊢ (Pipeline.ΦA spec1 c : sProp 𝕄) :=
  hout1_gen (Ve1 m) c (rdats m 1 c) (rdats_one m c)

/-- Likewise the class invariant is the invariant before the first point. -/
theorem hin1_gen (V : (c : Dev nD) → (b : Ref sig .tc) → Buf (Elt F) ((c : Thread nD τ).loc b)) (c : Dev nD)
    (d : RDat τ (Elt F) Unit ℕ (UR sig nD τ) ℕ cfg1 c) (hd : d = (dat1 V c).toR) :
    (Pipeline.ΦA spec1 c : sProp 𝕄) ⊢ d.Φ 0 := by
  subst hd; exact hin1A V c

theorem hin1R (c : Dev nD) : (Pipeline.ΦA spec1 c : sProp 𝕄) ⊢ (rdats m 1 c).Φ 0 :=
  hin1_gen (Ve1 m) c (rdats m 1 c) (rdats_one m c)

/-- The input array the region leaves is the one it found. -/
theorem arr1_in_R (o : Outs (F := F)) (c : Dev nD) (F0 : Buf (Elt F) ((spec1 0).arr.view.loc (c : Thread nD τ)))
    (h0 : (rdats m 1 c).ArrAt 0 cfg1.N F0) : F0 = V2 m o c main_v14 := by
  have h := congrFun ((rdats m 1 c).ArrAt_in 0 rfl cfg1.N) F0
  exact (h.mp h0).trans (hA1 m o c 0)

/-! ## The region as a segment -/

set_option backward.isDefEq.respectTransparency.types false in
/-- The standard-deviation region: entered after the gathers, left with its output array at some contents. What it
    finds in its two arrays is the same for every choice of what the first region left. -/
def reg1 : RDat.RegionSeg (pcfgs (F := F)) adm (rdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).toR
  hwaits := RDat.hwaits_of_owed_zero _ _ _ _ L0 lv0 1 fun _ _ => rfl
  pre c := TEx (V2 m) c
  post c := TEx (V3 m) c
  X c := iprop(∃ r, prngReg c r)
  Y c := iprop(∃ r, prngReg c r)
  Z c := iprop(∃ o : Outs (F := F), Pipeline.unscopedRest (Ix := Unit) (Name := ℕ) (U := UR sig nD τ) (Lvl := ℕ) spec1 c (fun b => V2 m o c b))
  hentry c := by
    rw [Pipeline.ownSems0_none]
    iintro ⟨⟨%o, Hub, Hp, HO⟩, -, -⟩
    ihave H := (split1 m c (V2 m o c) (hA1 m o c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; iexact Hrest
  hin c := by
    refine .trans ?_ (hin1R m c)
    unfold Pipeline.ΦA
    iintro ⟨Hp, -, Hr⟩
    isplitl [Hr]; · iexact Hr
    iexact Hp
  hout c := by
    refine .trans (hout1R m c) ?_
    rw [Pipeline.ownSems0_none]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%F0, %h0, HA0⟩, ⟨%F1, %h1, HA1⟩⟩, HO, HY, ⟨%o, Hrest⟩⟩
    have e0 : F0 = V2 m o c main_v14 := arr1_in_R m o c F0 h0
    subst e0
    imodintro
    iexists (setOut c o 3 main_v15 F1)
    isplitl [HA0 HA1 Hrest]
    · iapply (join1 m c (V2 m o c) (V3 m (setOut c o 3 main_v15 F1) c)
        (fun w => V3 m (setOut c o 3 main_v15 F1) c (Pipeline.arrRef spec1 w)) (fun _ => rfl) (V3_rest m o c F1))
      isplitl [HA0 HA1]
      · unfold Pipeline.Dat.arrays; rw [bigSep_W1]; beta_reduce
        isplitl [HA0]
        · rw [show V3 m (setOut c o 3 main_v15 F1) c (Pipeline.arrRef spec1 0) = V2 m o c main_v14 from V3_in m o c F1]
          iexact HA0
        rw [show V3 m (setOut c o 3 main_v15 F1) c (Pipeline.arrRef spec1 1) = F1 from V3_out m o c F1]
        iexact HA1
      iexact Hrest
    isplitl [HY]; · iexact HY
    unfold Pipeline.RDat.owesAt Pipeline.owesWithin
    icases HO with ⟨%W, -, HO⟩; iexists W; iexact HO

end Cert.Kernel.Hand

end
-- ==== Proof.KRun.lean ====
/-
  The frame of the word-level program: the launch over the two regions' records and the four host stretches.
-/
import proofs.«163166_j5368709120527_1_alg».proof.Proof.KRunFrame
import proofs.«163166_j5368709120527_1_alg».proof.Proof.KRunReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters every weakly fair execution of the word-level @main terminates, nothing
    faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (reg1 m) (fun _ => .rfl) (fun _ => .rfl)

end Cert.Kernel.Hand

end
-- ==== Proof.KIRegion0.lean ====
/-
  Region 0 of the idealized kernel: the row-mean call. The input array is read in 57 blocks of 256 rows, the last
  of which overhangs the array by 51 rows; the body sums each row of its block, divides by the number of columns and
  stores the 256 quotients. At the extended reals a row's sum reads that row only, so the rows of a block that lie
  inside the array determine the quotients the write-back moves, whatever fills the overhanging rows.
-/
import proofs.«163166_j5368709120527_1_alg».proof.Proof.Gen.KernelIdeal.Launch
import proofs.«163166_j5368709120527_1_alg».proof.Proof.Gen.KernelIdeal.Skeleton
import proofs.«163166_j5368709120527_1_alg».proof.Proof.Gen.KernelIdeal.Points
import proofs.«163166_j5368709120527_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: its part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_in : Rect S256x14541 := Rect.unit (s := S256x14541) ![0, 0] S256x14541.size inb_S256x14541_S256x14541_0_0
abbrev r0_out : Rect S256 := Rect.unit (s := S256) ![0] S256.size inb_S256_S256_0

/-- The output staging buffer after the body, from the input staging buffer's contents: the one store. -/
def out0_1 (x0 : Vec F S256x14541 .f32) : Vec F S256 .f32 :=
  View.canon [⟨r0_out, k0_pay1 (View.ld x0 r0_in)⟩]

/-- The store covers the buffer. -/
theorem cover0_1 (p0 : Vec F S256 .f32) (y : S256.Idx) :
    ∃ pc ∈ ([⟨r0_out, p0⟩] : List (View.Piece (Elt F) S256 .f32)), y ∈ pc.1.set :=
  View.cover_of_tiled [⟨r0_out, p0⟩] S256.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S256x14541 .f32) (harg1 : arg1.IsWhole)
    (arg2 : Memref sig .tc .vmem S256 .f32) (harg2 : arg2.IsWhole)
    (x0 : Vec F S256x14541 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__simi_mean_kernel i arg1 harg1 arg2 harg2) K := by
  simp only [cc0__simi_mean_kernel_eq_skeleton]; unfold cc0__simi_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The word that fills out a block past the array's end in the proof data (nothing reads it). -/
abbrev zfill : S256x14541.Idx → Elt F .f32 := fun _ => Scalar.ofBits .f32 0#32

/-- The input block at point `t`, filled out to the staging buffer's shape. -/
def xblk0 (c : Dev nD) (t : Fin cfg0.N) : S256x14541.Idx → Elt F .f32 :=
  win0_0.fill (grid0.coords t) zfill (iblk0 V c 0 t)

/-- The proof data of pipeline 0 on core `c`: the arrays as the region finds them; after the body the input's buffer
    at its block (filled out) and the output's at the body's store over that; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => xblk0 V c t
    | ⟨1, _⟩ => out0_1 (xblk0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xblk0 V c t := by dsimp only [dat0]
theorem after0_1 (c : Dev nD) (t : Fin cfg0.N) : (dat0 V c).after 1 t = out0_1 (xblk0 V c t) := by dsimp only [dat0]

/-- The input's buffer as the body finds it: just fetched, the block on the rows inside the array and anything past
    them. -/
theorem before0_0 (c : Dev nD) (t : Fin cfg0.N) (d) :
    (dat0 V c).before 0 t d = win0_0.fill (grid0.coords t) d (iblk0 V c 0 t) := by
  rw [(dat0 V c).before_fetched 0 t (fetch0_0 t) d]
  unfold Dat.fetched Dat.blockOf iblk0; rw [A_eq0]

/-- The output window is never fetched. -/
theorem fetch0_1 (t : Fin cfg0.N) : (cfg0.win 1).fetch t = false := rfl

/-- The output's buffer as the body finds it: at contents nothing names. -/
theorem before0_1 (c : Dev nD) (t : Fin cfg0.N) (d) : (dat0 V c).before 1 t d = d := by
  unfold Dat.before
  rw [if_neg (by rw [fetch0_1 t]; exact Bool.false_ne_true)]
  split
  · rfl
  · rw [if_pos (flush0_1 _)]

/-- The arrays after the region: the input as it was. -/
theorem arr0_in (c : Dev nD) : (dat0 V c).arrAt 0 cfg0.N = V c main_arg8 :=
  ((dat0 V c).arrAt_in 0 rfl _).trans (A_eq0 V c 0)

/-! ## The body obligation -/

/-- ROW LOCALITY of the body: the quotients the write-back moves (the output block's rows inside the array) are
    determined by the rows of the input block the fetch moved. At the extended reals it holds (a row's sum reads the
    row: `rowLocal_ideal`). -/
def RowLocal (F : FTy → Type) [FloatOps F] : Prop :=
  ∀ (i : grid0.Coords) (X Y : S256x14541.Idx → Elt F .f32),
    win0_0.cut i X = win0_0.cut i Y → win0_1.cut i (out0_1 X) = win0_1.cut i (out0_1 Y)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: each buffer stated on the rows inside the array. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t)))))

/-- The body at any point: the input's buffer holds its block filled out with anything, the body stores the quotients
    of that, and on the rows inside the array those are the quotients of the block (row locality). -/
theorem sound_body0 (hloc : RowLocal F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  rw [before0_0 V c t d0, before0_1 V c t d1]
  iapply (sound_kernel0 c Set.univ _ _ _ _ _ (win0_0.fill (grid0.coords t) d0 (iblk0 V c 0 t)) _)
  isplitl [H0]; · iexact H0
  isplitl [H1]; · iexists _; iexact H1
  iintro ⟨H0, H1⟩
  isplitl [HΦ]; · iexact HΦ
  isplitl [Ho]; · iexact Ho
  have hx : win0_0.cut (grid0.coords t) (xblk0 V c t) = iblk0 V c 0 t := win0_0.cut_fill _ _ _
  have hc : win0_1.cut (grid0.coords t) (out0_1 (win0_0.fill (grid0.coords t) d0 (iblk0 V c 0 t)))
      = win0_1.cut (grid0.coords t) (out0_1 (xblk0 V c t)) :=
    hloc _ _ _ ((win0_0.cut_fill _ _ _).trans hx.symm)
  isplitl [H0]
  · iexists d0; rw [hx]; iexact H0
  · iexists out0_1 (win0_0.fill (grid0.coords t) d0 (iblk0 V c 0 t))
    rw [win0_1.fill_congr_cut (grid0.coords t) hc]; iexact H1

/-- The library's body obligation, at every point, from row locality. -/
theorem body_obligation0_of (hloc : RowLocal F) (c : Dev nD) :
    BodyObligationLoose (dat0 (F := F) V c) (defs₀ (F := F)) Variants.none () Set.univ := fun t => by
  rw [bigSep_W0, bigSep_W0]
  exact sound_body0 V hloc c t

end Cert.KernelIdeal.Hand

/-! # At the extended reals: row locality, and the exact body obligation -/

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The two windows cut their blocks at the same row (one block index, one block height, one array height), -/
theorem xsize_rows (i : grid0.Coords) : win0_1.xsize i 0 = win0_0.xsize i 0 := rfl
/-- and the input's blocks span the columns. -/
theorem xsize_cols (i : grid0.Coords) : win0_0.xsize i 1 = 14541 := rfl

/-- At the extended reals the body's store holds, at row `y`, the sum of the input buffer's row `y` divided by the
    value of the divisor's word. -/
theorem out0_1_apply (X : S256x14541.Idx → Elt Ideal .f32) (y : S256.Idx) :
    out0_1 (F := Ideal) X y
      = Ideal.div (∑ k : Fin 14541, X (ix2 (n0 := 256) (n1 := 14541) (y 0) k)) (Ideal.ofBits .f32 0x46633400#32) := by
  unfold out0_1
  rw [View.canon_unit_zero (S := S256) (funext fun a => by fin_cases a; rfl) inb_S256_S256_0,
    View.ld_unit_zero (S := S256x14541) (funext fun a => by fin_cases a <;> rfl) inb_S256x14541_S256x14541_0_0 X]
  refine congrArg (fun s => Ideal.div s (Ideal.ofBits .f32 0x46633400#32)) ?_
  refine (Ideal.multiReduction_add_single (φ := .f32) X 0x00000000#32 reduces_S256x14541_S256 (.inl rfl) rfl y).trans ?_
  refine Finset.sum_congr rfl fun k _ => congrArg X (funext fun a => ?_)
  match a with
  | ⟨0, _⟩ => rfl
  | ⟨1, _⟩ => rfl

/-- Contents that agree on the part a transfer moves agree at every index it moves. -/
theorem eq_of_cut_eq {α : Type} {G : Pipeline.Grid} (w : Window sig G) (i : G.Coords) {X Y : w.block.Idx → α}
    (h : w.cut i X = w.cut i Y) {j : w.block.Idx} (hm : w.moved i j = true) : X j = Y j := by
  have hX := congrFun (w.fill_cut i X) j
  have hY := congrFun (w.fill_cut i Y) j
  unfold Window.fill at hX hY
  rw [dif_pos hm] at hX hY
  rw [← hX, ← hY, h]

/-- The input rows the fetch moves are the rows the write-back moves, whole. -/
theorem moved_row (i : grid0.Coords) (j : (win0_1.xblock i).Idx) (k : Fin 14541) :
    win0_0.moved i (ix2 (n0 := 256) (n1 := 14541) (win0_1.xinj i j 0) k) = true := by
  refine (win0_0.moved_iff i _).mpr fun a => ?_
  match a with
  | ⟨0, _⟩ => exact (xsize_rows i) ▸ (j 0).isLt
  | ⟨1, _⟩ => exact (xsize_cols i).symm ▸ k.isLt

/-- So the quotients on the rows inside the array read only the input rows inside the array: the two windows cut
    their blocks at the same row, and the input's rows are whole. -/
theorem rowLocal_ideal : RowLocal Ideal := fun i X Y h => by
  funext j
  show out0_1 (F := Ideal) X (win0_1.xinj i j) = out0_1 (F := Ideal) Y (win0_1.xinj i j)
  rw [out0_1_apply, out0_1_apply]
  exact congrArg (fun s => Ideal.div s _) (Finset.sum_congr rfl fun k _ => eq_of_cut_eq win0_0 i h (moved_row i j k))

/-- The body obligation of region 0 at the extended reals. -/
theorem body_obligation0 (V : (c : Dev nD) → (b : Ref sig .tc) → Buf (Elt Ideal) ((c : Thread nD τ).loc b)) (c : Dev nD) :
    BodyObligationLoose (dat0 (F := Ideal) V c) (defs₀ (F := Ideal)) Variants.none () Set.univ :=
  body_obligation0_of V rowLocal_ideal c

end Cert.KernelIdeal.Hand

end
-- ==== Proof.KIRegion1Runs.lean ====
/-
  The standard-deviation kernel's region, first part: what the run of its body at a grid point depends on.
  The grid is 2 x 25: the first coordinate picks 64 of the 128 batch rows, the second one of the 25 blocks of 40
  gathered rows. The body zeroes its two accumulators when the second coordinate is 0, adds the block's sum and its
  sum of squares at every point, and stores the output block only when the second coordinate is 24. Here: the two
  conditions in closed form over the linear point number (point t has second coordinate t mod 25), the points at
  which the output window is idle, the two accumulators as memrefs and views, the class invariant with the
  accumulators named, and the input window's block at a point.
-/
import proofs.«163166_j5368709120527_1_alg».proof.Proof.Gen.KernelIdeal.Launch
import proofs.«163166_j5368709120527_1_alg».proof.Proof.Gen.KernelIdeal.Skeleton
import proofs.«163166_j5368709120527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "The second grid coordinate is 0": the accumulators are zeroed. -/
abbrev cond1_0 (i : grid1.Coords) : Prop := (Scalar.cmpi .ne (Scalar.extui (Scalar.cmpi .eq (BitVec.ofNat 32 (i 1).val) 0#32)) 0#32) = 1#1
/-- It holds at the points that are 0 modulo 25. -/
theorem hcond1_0 : ∀ t : Fin cfg1.N, cond1_0 (grid1.coords t) ↔ t.val % 25 = 0 :=
  (by decide +kernel : ∀ t : Fin grid1.N, cond1_0 (grid1.coords t) ↔ t.val % 25 = 0)

/-- "The second grid coordinate is 24": the output block is stored. -/
abbrev cond1_1 (i : grid1.Coords) : Prop := k1_cond2 i = 1#1
/-- It holds at the points that are 24 modulo 25. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The input window is never idle. -/
theorem liveAt1_0 : ∀ t : Fin cfg1.N, cfg1.idle 0 (grid1.coords t) = false := by decide +kernel
/-- Away from the last block of a row group the output window is idle: nothing is stored into it, -/
theorem idleAt1_1 : ∀ t : Fin cfg1.N, ¬cond1_1 (grid1.coords t) → cfg1.idle 1 (grid1.coords t) = true := by decide +kernel
/-- and it is not written back there. -/
theorem noFlush1_1 : ∀ t : Fin cfg1.N, ¬cond1_1 (grid1.coords t) → (cfg1.win 1).flush t = false := by decide +kernel
/-- At the last block it is live. -/
theorem liveAt1_1 : ∀ t : Fin cfg1.N, cond1_1 (grid1.coords t) → cfg1.idle 1 (grid1.coords t) = false := by decide +kernel

/-! ## The memrefs the body is called with -/

/-- One staging buffer of the output window, through which its contents are stated. -/
abbrev VO1_1 : View sig .tc .vmem S64x768 .f32 := (Memref.whole cc1_stg1_0 : Memref sig .tc .vmem S64x768 .f32).view
abbrev ms1_0 (t : Fin cfg1.N) : Memref sig .tc .vmem S64x40x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x768 .f32 := win1_1.stage (cfg1.slots t 1)
abbrev hs1_1 (t : Fin cfg1.N) : (ms1_1 t).IsWhole := hstage1_1 ((cfg1.slots t 1).cast nbuf1_1)
/-- The running sum and the running sum of squares: whole scoped buffers of the kernel's own. -/
abbrev scM1_0 : Memref sig .tc .vmem S64x768 .f32 := Memref.whole cc1_scratch0
abbrev scM1_1 : Memref sig .tc .vmem S64x768 .f32 := Memref.whole cc1_scratch1
abbrev VS1_0 : View sig .tc .vmem S64x768 .f32 := scM1_0.view
abbrev VS1_1 : View sig .tc .vmem S64x768 .f32 := scM1_1.view

/-- The other region's four staging buffers, as whole memrefs: scoped buffers this region never touches. -/
abbrev oM0 : Memref sig .tc .vmem S256x14541 .f32 := Memref.whole cc0_stg0_0
abbrev oM1 : Memref sig .tc .vmem S256x14541 .f32 := Memref.whole cc0_stg0_1
abbrev oM2 : Memref sig .tc .vmem S256 .f32 := Memref.whole cc0_stg1_0
abbrev oM3 : Memref sig .tc .vmem S256 .f32 := Memref.whole cc0_stg1_1

/-- The class invariant spelled out: the other region's staging buffers and the two accumulators, each owned whole at
    some contents, and the generator register at some state. -/
theorem PhiA1_eq (c : Dev nD) :
    (Pipeline.ΦA spec1 c : sProp 𝕄)
      = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [oM0, oM1, oM2, oM3, scM1_0, scM1_1, owns_whole]; try rfl

/-! ## The input window's block -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KIRegion1RunA.lean ====
/-
  The body of the standard-deviation kernel at a point whose second coordinate is 0: the two accumulators are zeroed and then receive the first block's sum and sum of squares; the output block is not stored.
-/
import proofs.«163166_j5368709120527_1_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_A (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) :
    Σ' (L1 : List (View.Piece (Elt F) S64x768 .f32)), Σ' (LS0 : List (View.Piece (Elt F) S64x768 .f32)), { LS1 : List (View.Piece (Elt F) S64x768 .f32) //
      ∀ (xi1 : Vec F S64x768 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨[], ?_, ?_, fun xi1 E K => ?run⟩
  case run =>
    simp only [cc1__emb_std_kernel_eq_skeleton]; unfold cc1__emb_std_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KIRegion1RunB.lean ====
/-
  The body of the standard-deviation kernel at a point whose second coordinate is neither 0 nor 24: each accumulator receives its previous contents plus the block's sum, respectively sum of squares; the output block is not stored.
-/
import proofs.«163166_j5368709120527_1_alg».proof.Proof.KIRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_B (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) :
    Σ' (L1 : List (View.Piece (Elt F) S64x768 .f32)), Σ' (LS0 : List (View.Piece (Elt F) S64x768 .f32)), { LS1 : List (View.Piece (Elt F) S64x768 .f32) //
      ∀ (xi1 : Vec F S64x768 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨[], ?_, ?_, fun xi1 E K => ?run⟩
  case run =>
    simp only [cc1__emb_std_kernel_eq_skeleton]; unfold cc1__emb_std_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KIRegion1RunC.lean ====
/-
  The body of the standard-deviation kernel at a point whose second coordinate is 24: the accumulators receive the last block, and the output block is stored from them.
-/
import proofs.«163166_j5368709120527_1_alg».proof.Proof.KIRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave, last first, in the output's staging memref, in the running sum and in the
    running sum of squares, with the proof that from whole memrefs at the stated contents the body runs to a
    continuation holding the input as it was and each stored buffer with its pieces written. The two conditionals are
    decided by the case's hypotheses; the pieces are what the symbolic run of the body finds. -/
noncomputable def kernelRun1_C (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) :
    Σ' (L1 : List (View.Piece (Elt F) S64x768 .f32)), Σ' (LS0 : List (View.Piece (Elt F) S64x768 .f32)), { LS1 : List (View.Piece (Elt F) S64x768 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__emb_std_kernel i arg2 harg2 arg3 harg3 arg4 harg4 arg5 harg5) K } := by
  refine ⟨?_, ?_, ?_, fun E K => ?run⟩
  case run =>
    simp only [cc1__emb_std_kernel_eq_skeleton]; unfold cc1__emb_std_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]; · iexists _; iexact HS0
    iexists _; iexact HS1

end Cert.KernelIdeal.Hand

end
-- ==== Proof.KIRegion1.lean ====
/-
  The standard-deviation kernel's region, second part: what its buffers hold point by point, and the proof data.
  After the body at point t the running sum holds the sum over the blocks met so far in the current group of 25
  points, the running sum of squares likewise, and at the group's last point the output block holds the standard
  deviation computed from the two. The contents are stated by recursion on the point number: a point that is 0
  modulo 25 starts afresh, any other continues from what the point before left in the two accumulators. The
  region's invariant carries the two accumulators at these contents; the obligation of the body at a point is
  met by the run of the matching case.
-/
import proofs.«163166_j5368709120527_1_alg».proof.Proof.KIRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What case A leaves in the output's staging buffer: its pieces read back (none: a placeholder nothing consults, the window being idle there). -/
def out1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VO1_1.read (Elt F) (VO1_1.writes (Elt F) VO1_1.junk (kernelRun1_A c i arg2 harg2 arg3 harg3 arg4 harg4 arg5 harg5 hc0 hc1 x0).1)

/-- Case A's pieces for the running sum cover it. -/
theorem scover1_A_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) (y : S64x768.Idx) :
    ∃ pc ∈ (kernelRun1_A c i arg2 harg2 arg3 harg3 arg4 harg4 arg5 harg5 hc0 hc1 x0).2.1, y ∈ pc.1.set :=
  View.cover_of_tiledL (kernelRun1_A c i arg2 harg2 arg3 harg3 arg4 harg4 arg5 harg5 hc0 hc1 x0).2.1 S64x768.size (by sl_kernel_rfl) y

/-- What case A leaves in the running sum. -/
def sout1_A_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VS1_0.read (Elt F) (VS1_0.writes (Elt F) VS1_0.junk (kernelRun1_A c i arg2 harg2 arg3 harg3 arg4 harg4 arg5 harg5 hc0 hc1 x0).2.1)

/-- Case A's pieces for the running sum of squares cover it. -/
theorem scover1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) (y : S64x768.Idx) :
    ∃ pc ∈ (kernelRun1_A c i arg2 harg2 arg3 harg3 arg4 harg4 arg5 harg5 hc0 hc1 x0).2.2.1, y ∈ pc.1.set :=
  View.cover_of_tiledL (kernelRun1_A c i arg2 harg2 arg3 harg3 arg4 harg4 arg5 harg5 hc0 hc1 x0).2.2.1 S64x768.size (by sl_kernel_rfl) y

/-- What case A leaves in the running sum of squares. -/
def sout1_A_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i)
    (x0 : Vec F S64x40x768 .f32) : Vec F S64x768 .f32 :=
  VS1_1.read (Elt F) (VS1_1.writes (Elt F) VS1_1.junk (kernelRun1_A c i arg2 harg2 arg3 harg3 arg4 harg4 arg5 harg5 hc0 hc1 x0).2.2.1)

/-- What case B leaves in the output's staging buffer: its pieces read back (none: a placeholder nothing consults, the window being idle there). -/
def out1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VO1_1.read (Elt F) (VO1_1.writes (Elt F) VO1_1.junk (kernelRun1_B c i arg2 harg2 arg3 harg3 arg4 harg4 arg5 harg5 hc0 hc1 x0 xs0 xs1).1)

/-- Case B's pieces for the running sum cover it. -/
theorem scover1_B_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) (y : S64x768.Idx) :
    ∃ pc ∈ (kernelRun1_B c i arg2 harg2 arg3 harg3 arg4 harg4 arg5 harg5 hc0 hc1 x0 xs0 xs1).2.1, y ∈ pc.1.set :=
  View.cover_of_tiledL (kernelRun1_B c i arg2 harg2 arg3 harg3 arg4 harg4 arg5 harg5 hc0 hc1 x0 xs0 xs1).2.1 S64x768.size (by sl_kernel_rfl) y

/-- What case B leaves in the running sum. -/
def sout1_B_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VS1_0.read (Elt F) (VS1_0.writes (Elt F) VS1_0.junk (kernelRun1_B c i arg2 harg2 arg3 harg3 arg4 harg4 arg5 harg5 hc0 hc1 x0 xs0 xs1).2.1)

/-- Case B's pieces for the running sum of squares cover it. -/
theorem scover1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) (y : S64x768.Idx) :
    ∃ pc ∈ (kernelRun1_B c i arg2 harg2 arg3 harg3 arg4 harg4 arg5 harg5 hc0 hc1 x0 xs0 xs1).2.2.1, y ∈ pc.1.set :=
  View.cover_of_tiledL (kernelRun1_B c i arg2 harg2 arg3 harg3 arg4 harg4 arg5 harg5 hc0 hc1 x0 xs0 xs1).2.2.1 S64x768.size (by sl_kernel_rfl) y

/-- What case B leaves in the running sum of squares. -/
def sout1_B_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i)
    (x0 : Vec F S64x40x768 .f32) (xs0 : Vec F S64x768 .f32) (xs1 : Vec F S64x768 .f32) : Vec F S64x768 .f32 :=
  VS1_1.read (Elt F) (VS1_1.writes (Elt F) VS1_1.junk (kernelRun1_B c i arg2 harg2 arg3 harg3 arg4 harg4 arg5 harg5 hc0 hc1 x0 xs0 xs1).2.2.1)

/-- At a last block the output's pieces tile its block, so they cover it. -/
theorem cover1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).1, y ∈ pc.1.set :=
  View.cover_of_tiledL (kernelRun1_C c i arg2 harg2 arg3 harg3 arg4 harg4 arg5 harg5 hc0 hc1 x0 xs0 xs1).1 S64x768.size (by sl_kernel_rfl) y

/-- What case C leaves in the output's staging buffer: its pieces read back. -/
def out1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VO1_1.read (Elt F) (VO1_1.writes (Elt F) VO1_1.junk (kernelRun1_C c i arg2 harg2 arg3 harg3 arg4 harg4 arg5 harg5 hc0 hc1 x0 xs0 xs1).1)

/-- Case C's pieces for the running sum cover it. -/
theorem scover1_C_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).2.1, y ∈ pc.1.set :=
  View.cover_of_tiledL (kernelRun1_C c i arg2 harg2 arg3 harg3 arg4 harg4 arg5 harg5 hc0 hc1 x0 xs0 xs1).2.1 S64x768.size (by sl_kernel_rfl) y

/-- What case C leaves in the running sum. -/
def sout1_C_0 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VS1_0.read (Elt F) (VS1_0.writes (Elt F) VS1_0.junk (kernelRun1_C c i arg2 harg2 arg3 harg3 arg4 harg4 arg5 harg5 hc0 hc1 x0 xs0 xs1).2.1)

/-- Case C's pieces for the running sum of squares cover it. -/
theorem scover1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) (y : S64x768.Idx) :
    ∃ pc ∈ (kernelRun1_C c i arg2 harg2 arg3 harg3 arg4 harg4 arg5 harg5 hc0 hc1 x0 xs0 xs1).2.2.1, y ∈ pc.1.set :=
  View.cover_of_tiledL (kernelRun1_C c i arg2 harg2 arg3 harg3 arg4 harg4 arg5 harg5 hc0 hc1 x0 xs0 xs1).2.2.1 S64x768.size (by sl_kernel_rfl) y

/-- What case C leaves in the running sum of squares. -/
def sout1_C_1 (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i)
    (x0 : Vec F S64x40x768 .f32) (xs0 : Vec F S64x768 .f32) (xs1 : Vec F S64x768 .f32) : Vec F S64x768 .f32 :=
  VS1_1.read (Elt F) (VS1_1.writes (Elt F) VS1_1.junk (kernelRun1_C c i arg2 harg2 arg3 harg3 arg4 harg4 arg5 harg5 hc0 hc1 x0 xs0 xs1).2.2.1)

/-! ## What the buffers hold after each point -/

/-- After the body at position n: the output's staging buffer, the running sum, the running sum of squares. -/
def outsAt1 (c : Dev nD) : (n : ℕ) → n < cfg1.N → Vec F S64x768 .f32 × Vec F S64x768 .f32 × Vec F S64x768 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 25 = 0 then
      if h1 : (n + 1) % 25 = 24 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 25 = 24 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.1 (outsAt1 c n (Nat.lt_of_succ_lt hn)).2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

/-- At a point that starts a group: case A's contents. -/
theorem outsAt1_A (c : Dev nD) (t : Fin cfg1.N) (h0 : t.val % 25 = 0) (h1 : ¬t.val % 25 = 24) :
    outsAt1 V c t.val t.isLt = (out1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- At a middle point: case B's contents over what the point before left. -/
theorem outsAt1_B (c : Dev nD) (t : Fin cfg1.N) (h0 : ¬t.val % 25 = 0) (h1 : ¬t.val % 25 = 24) :
    outsAt1 V c t.val t.isLt = (out1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point that ends a group: case C's contents over what the point before left. -/
theorem outsAt1_C (c : Dev nD) (t : Fin cfg1.N) (h0 : ¬t.val % 25 = 0) (h1 : t.val % 25 = 24) :
    outsAt1 V c t.val t.isLt = (out1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the start the class invariant (every scoped buffer at anything); afterwards the other
    region's staging buffers at anything, the two accumulators at what the point before left, and the generator
    register at some state. -/
def PhiS (c : Dev nD) : (n : ℕ) → n ≤ cfg1.N → sProp 𝕄
  | 0, _ => Pipeline.ΦA spec1 c
  | n + 1, hn => iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c n hn).2.1 ∗ owns (c : Thread nD τ) scM1_1 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c n hn).2.1 ∗ owns (c : Thread nD τ) scM1_1 fullShare (outsAt1 V c n hn).2.2) ∗ (∃ r, prngReg c r)) := rfl

theorem PhiS_pos (c : Dev nD) (n : ℕ) (h : n ≤ cfg1.N) (hz : n ≠ 0) :
    PhiS V c n h = iprop(iprop((∃ d, owns (c : Thread nD τ) oM0 fullShare d) ∗ (∃ d, owns (c : Thread nD τ) oM1 fullShare d)
          ∗ (∃ d, owns (c : Thread nD τ) oM2 fullShare d) ∗ (∃ d, owns (c : Thread nD τ) oM3 fullShare d)
          ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The proof data -/

/-- The region's proof data on core c: the arrays as the region finds them; after the body at point t the input's
    buffer at its block and the output's at the recursion's first component; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's memref holds its block; the point number modulo 25 says which case applies;
    the invariant hands the body the two accumulators at what the point before left (at anything where a group
    starts) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 50 := lt_of_lt_of_eq t.isLt (show cfg1.N = 50 from N_1)
  by_cases h0 : t.val % 25 = 0
  · by_cases h1 : t.val % 25 = 24
    · exfalso; omega
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨⟨HO0, HO1, HO2, HO3, HS0, HS1⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_A_0 c _ _ _ _ _ _ _ _ _ _ _ _)
            unfold owns; iexists _; isplitr
            swap; · iexact HS1
            ipureintro; exact View.read_writes_of_cover _ _ _ _ _ (scover1_A_1 c _ _ _ _ _ _ _ _ _ _ _ _)
          iexact Hg
        isplitl [Ho]; · iexact Ho
        isplitl [H0]; · iexact H0
        iexists _; iexact H1
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_A c (grid1.coords t) _ _ _ _ _ _ _ _ ((hcond1_0 t).mpr h0) (fun h => h1 ((hcond1_1 t).mp h)) (iblk1 V c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_A_0 c _ _ _ _ _ _ _ _ _ _ _ _)
            unfold owns; iexists _; isplitr
            swap; · iexact HS1
            ipureintro; exact View.read_writes_of_cover _ _ _ _ _ (scover1_A_1 c _ _ _ _ _ _ _ _ _ _ _ _)
          iexact Hg
        isplitl [Ho]; · iexact Ho
        isplitl [H0]; · iexact H0
        iexists _; iexact H1
  · by_cases h1 : t.val % 25 = 24
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0 sout1_C_1; (try dsimp only)
      have hz : t.val ≠ 0 := fun h => h0 (by rw [h])
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_C c (grid1.coords t) _ _ _ _ _ _ _ _ (fun h => h0 ((hcond1_0 t).mp h)) ((hcond1_1 t).mpr h1) (iblk1 V c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_C_0 c _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0 sout1_B_1; (try dsimp only)
      have hz : t.val ≠ 0 := fun h => h0 (by rw [h])
      · rw [PhiS_castSucc V c t, PhiS_pos V c _ _ hz]
        iintro ⟨⟨⟨HO0, HO1, HO2, HO3, HS0, HS1⟩, Hg⟩, Ho, ⟨%d0, H0⟩, ⟨%d1, H1⟩⟩
        iapply ((kernelRun1_B c (grid1.coords t) _ _ _ _ _ _ _ _ (fun h => h0 ((hcond1_0 t).mp h)) (fun h => h1 ((hcond1_1 t).mp h)) (iblk1 V c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HO0 HO1 HO2 HO3 HS0 HS1 Hg]
        · isplitl [HO0 HO1 HO2 HO3 HS0 HS1]
          · isplitl [HO0]; · iexact HO0
            isplitl [HO1]; · iexact HO1
            isplitl [HO2]; · iexact HO2
            isplitl [HO3]; · iexact HO3
            isplitl [HS0]
            · unfold owns; iexists _; isplitr
              swap; · iexact HS0
              ipureintro; exact View.read_writes_of_cover _ _ _ _ _ (scover1_B_0 c _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _)
          iexact Hg
        isplitl [Ho]; · iexact Ho
        isplitl [H0]; · iexact H0
        iexists _; iexact H1

/-- The body obligation at every point. -/
theorem body_obligation1_strict (c : Dev nD) : BodyObligation (dat1 (F := F) V c) (defs₀ (F := F)) Variants.none () Set.univ := fun t => by
  rw [bigSep_W1, bigSep_W1]
  exact sound_body1 V c t

/-- In the form a region record takes. -/
theorem body_obligation1 (c : Dev nD) : Pipeline.BodyObligationLoose (dat1 (F := F) V c) (defs₀ (F := F)) Variants.none () Set.univ :=
  (body_obligation1_strict (F := F) V c).loose

/-! ## Entering and leaving the region -/

/-- The class invariant is the invariant before the first point. -/
theorem hin1A (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HO0, HO1, HO2, HO3, HS0, HS1⟩, Hg⟩
  isplitl [HO0 HO1 HO2 HO3 HS0 HS1]
  · isplitl [HO0]; · iexact HO0
    isplitl [HO1]; · iexact HO1
    isplitl [HO2]; · iexact HO2
    isplitl [HO3]; · iexact HO3
    isplitl [HS0]; · iexists _; iexact HS0
    iexists _; iexact HS1
  iexact Hg

theorem hout1A (c : Dev nD) : (dat1 V c).Φ (Fin.last cfg1.N) ⊢ Pipeline.ΦA spec1 c :=
  Phi_out1 V c _ (by rw [Fin.val_last]; have : cfg1.N = 50 := N_1; omega)

/-- The input window's array is never written: it ends as the region found it. -/
theorem arr1_in (c : Dev nD) : (dat1 V c).arrAt 0 cfg1.N = V c main_v14 :=
  ((dat1 V c).arrAt_in 0 rfl _).trans (A_eq1 V c 0)

end Cert.KernelIdeal.Hand

end
-- ==== Proof.KIRun.lean ====
/-
  The run of the idealized kernel program from the launch to the return, with the contents of every unscoped
  buffer at the end.

  @main is six items in a row: the row-mean kernel (region 0), a stretch of host operations (the wrapped
  indices and the two gathers), the spread kernel (region 1), and three more stretches of host operations (the
  loss). Between two items a core holds every unscoped buffer whole, at contents that are a fold through the
  items: the launch memory; then region 0's result array placed at its output buffer; then each host stretch
  applied; then region 1's result array placed at its output buffer. A region changes nothing but its output
  array: its input array is read back as it was entered, and every other buffer bypasses the region.

  Each region is a record around its pipeline's proof data: the arrays are split out of the unscoped buffers
  at the entry and put back at the exit contents, the random-generator register goes into the region's invariant
  and comes back, nothing is owed to another core. The launch then gives: every weakly fair execution
  terminates, and the final memory holds every unscoped buffer at the last contents of the fold. The frame
  claim (the arguments end as launched) is read off it, since no item writes an argument.
-/
import proofs.«163166_j5368709120527_1_alg».proof.Proof.KIRegion0
import proofs.«163166_j5368709120527_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg cellOf)

local notation "𝕄" => MT nD τ sig Unit (Elt Ideal) ℕ (UR sig nD τ) ℕ

variable (m : (ℓ : Loc nD τ sig) → Buf (Elt Ideal) ℓ) (ρ : Dev nD → PrngReg)

/-! ## The buffers' contents between the items -/

/-- Region 0 is entered from the launch memory. -/
abbrev entry0 : (c : Dev nD) → (b : Ref sig .tc) → Buf (Elt Ideal) ((c : Thread nD τ).loc b) := fun c b => V0 m c b

/-- What region 0 leaves in its output array: the write-backs of all its points folded. -/
def rowMeans (c : Dev nD) : Buf (Elt Ideal) ((c : Thread nD τ).loc main_v0) := (dat0 (entry0 m) c).arrAt 1 cfg0.N

/-- After region 0: the launch memory with the row means at the region's output buffer. -/
abbrev after0 (c : Dev nD) : Valuation τ sig (Elt Ideal) := Function.update (V0 m c) main_v0 (rowMeans m c)

/-- After the first host stretch (the wrapped indices and the two gathers): what region 1 is entered from. -/
abbrev before1 (c : Dev nD) : Valuation τ sig (Elt Ideal) := StableHlo.after hostOps1 (after0 m c)

abbrev entry1 : (c : Dev nD) → (b : Ref sig .tc) → Buf (Elt Ideal) ((c : Thread nD τ).loc b) := fun c b => before1 m c b

/-- What region 1 leaves in its output array. -/
def spread (c : Dev nD) : Buf (Elt Ideal) ((c : Thread nD τ).loc main_v15) := (dat1 (entry1 m) c).arrAt 1 cfg1.N

/-- After region 1. -/
abbrev after1 (c : Dev nD) : Valuation τ sig (Elt Ideal) := Function.update (before1 m c) main_v15 (spread m c)

/-- What the regions leave, in the form the fold through the items reads it: after item 0 the contents `after0`, later the
    contents `after1`, each read at the buffer asked for. -/
def outs : Outs (F := Ideal) := fun n r c =>
  match n with
  | 1 => after0 m c r
  | _ => after1 m c r

theorem outs_one (c : Dev nD) : outs m 1 main_v0 c = rowMeans m c := by
  show Function.update (V0 m c) main_v0 (rowMeans m c) main_v0 = _
  exact Function.update_self ..
theorem outs_three (c : Dev nD) : outs m 3 main_v15 c = spread m c := by
  show Function.update (before1 m c) main_v15 (spread m c) main_v15 = _
  exact Function.update_self ..

theorem V1_eq (c : Dev nD) : V1 m (outs m) c = after0 m c := by
  show Function.update (V0 m c) main_v0 (outs m 1 main_v0 c) = _
  rw [outs_one]
theorem V2_eq (c : Dev nD) : V2 m (outs m) c = before1 m c := by
  show StableHlo.after hostOps1 (V1 m (outs m) c) = _
  rw [V1_eq]
theorem V3_eq (c : Dev nD) : V3 m (outs m) c = after1 m c := by
  show Function.update (V2 m (outs m) c) main_v15 (outs m 3 main_v15 c) = _
  rw [V2_eq, outs_three]

/-! ## The proof data family -/

/-- Each pipeline's proof data at its region's entry contents. -/
def pdats : (p : Fin 2) → (c : Dev nD) → Dat τ (Elt Ideal) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## What each region leaves: its arrays at the exit contents, the rest as entered -/

theorem hF0 (c : Dev nD) : ∀ w : Fin cfg0.W, (dat0 (entry0 m) c).arrAt w cfg0.N = V1 m (outs m) c (Pipeline.arrRef spec0 w)
  | ⟨0, _⟩ => (arr0_in (entry0 m) c).trans (V1_of m (outs m) c main_arg8 (by decide)).symm
  | ⟨1, _⟩ => by
    show rowMeans m c = Function.update (V0 m c) main_v0 (outs m 1 main_v0 c) main_v0
    rw [Function.update_self, outs_one]
theorem hrest0 (c : Dev nD) : ∀ b, b ∉ Finset.univ.image (Pipeline.arrRef spec0) → V1 m (outs m) c b = V0 m c b :=
  fun b hb => V1_of m (outs m) c b fun h => hb (Finset.mem_image.mpr ⟨1, Finset.mem_univ _, (List.mem_singleton.mp h).symm⟩)

theorem hF1 (c : Dev nD) : ∀ w : Fin cfg1.W, (dat1 (entry1 m) c).arrAt w cfg1.N = V3 m (outs m) c (Pipeline.arrRef spec1 w)
  | ⟨0, _⟩ => (arr1_in (entry1 m) c).trans (((V3_of m (outs m) c main_v14 (by decide)).trans (congrFun (V2_eq m c) _)).symm)
  | ⟨1, _⟩ => by
    show spread m c = Function.update (V2 m (outs m) c) main_v15 (outs m 3 main_v15 c) main_v15
    rw [Function.update_self, outs_three]
theorem hrest1 (c : Dev nD) : ∀ b, b ∉ Finset.univ.image (Pipeline.arrRef spec1) → V3 m (outs m) c b = before1 m c b :=
  fun b hb => (V3_of m (outs m) c b fun h => hb (Finset.mem_image.mpr ⟨1, Finset.mem_univ _, (List.mem_singleton.mp h).symm⟩)).trans
    (congrFun (V2_eq m c) _)

/-! ## The regions as segments -/

/-- An unscoped reference is among those a core holds between two items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 (the row means): entered from every unscoped buffer at the launch memory, left with the row means at
    its output buffer. Its two arrays are split out of the unscoped buffers and put back at the exit contents; the
    generator register goes into the invariant and comes back; nothing is owed; the kernel has no semaphore of its own. -/
def reg0 : RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (entry0 m) c
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (entry0 m c) fun w => A_eq0 (entry0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (entry0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the spread over the middle axis): entered from every unscoped buffer after the gathers, left with the
    spread at its output buffer. As region 0, but for the invariant: the two accumulators live in it, and it is entered
    from and left at the scoped buffers untouched. -/
def reg1 : RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (entry1 m) c
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V2_eq]
    have hsplit := Pipeline.arrays_of_unscopedBufs (p := 1) (pcfgs (F := Ideal)) adm (pdats m) launch1.win launch1.arr_whole c
      ((pdats m 1 c).share_full fun _ => rfl) (entry1 m c) fun w => A_eq1 (entry1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1A (entry1 m) c)
    unfold Pipeline.ΦA
    iintro ⟨Hp, -, Hr⟩
    isplitl [Hr]; · iexact Hr
    iexact Hp
  hout c := by
    refine .trans (hout1A (entry1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (entry1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the six items, and the launch -/

/-- The items of @main: the two regions' records and the four host stretches, each entered from the contents of the fold. -/
abbrev items : Dev nD → List (Seg (pcfgs (F := Ideal)) adm (pdats m) () defs₀ 𝒱₀ L lv) :=
  segs m (outs m) 𝒱₀ L lv (fun _ c => R c) () (pdats m) (reg0 m) (reg1 m)

set_option backward.isDefEq.respectTransparency.types false in
/-- THE RUN: from any memory with zero counters every weakly fair execution of @main terminates, nothing faulting, and
    the final memory holds every unscoped buffer of every core at the last contents of the fold. -/
theorem run_values : θ_run defs (onTc (τ := τ) (main (F := Ideal))) ⟨m, fun _ => 0, ρ⟩
    (fun r => ∀ c : Dev nD, ∀ b ∈ Pipeline.ucRefs τ sig, r.2.mem ((c : Thread nD τ).1, b) = V6 m (outs m) c b) := by
  refine Pipeline.θ_run_regions_kit_dev (pcfgs (F := Ideal)) adm (pdats m) () cellOf_inj emb₁ defs₀ 𝒱₀ L lv m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := fun c => ⟨.rfl, .rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V6 m (outs m) c b)
    (hfin := fun c s' => by
      iintro ⟨Hh, HSI⟩
      unfold StableHlo.held
      imodintro
      iapply (pointsTo_read_all (Pipeline.ucRefs τ sig) (fun b => ((c : Thread nD τ).1, b)) (V6 m (outs m) c) s')
      isplitl [Hh] <;> iassumption)
    (hQ := fun _ h => h)

/-- No item writes an argument: a final memory that holds every unscoped buffer at the last contents of the fold holds
    each argument as launched. -/
theorem args_of_values (c : Dev nD) (s : MemSt nD τ sig (Elt Ideal))
    (h : ∀ b ∈ Pipeline.ucRefs τ sig, s.mem ((c : Thread nD τ).1, b) = V6 m (outs m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) :=
  ⟨(h _ (mem_uc main_arg0 (by decide))).trans (V6_main_arg0 m (outs m) c),
   (h _ (mem_uc main_arg1 (by decide))).trans (V6_main_arg1 m (outs m) c),
   (h _ (mem_uc main_arg2 (by decide))).trans (V6_main_arg2 m (outs m) c),
   (h _ (mem_uc main_arg3 (by decide))).trans (V6_main_arg3 m (outs m) c),
   (h _ (mem_uc main_arg4 (by decide))).trans (V6_main_arg4 m (outs m) c),
   (h _ (mem_uc main_arg5 (by decide))).trans (V6_main_arg5 m (outs m) c),
   (h _ (mem_uc main_arg6 (by decide))).trans (V6_main_arg6 m (outs m) c),
   (h _ (mem_uc main_arg7 (by decide))).trans (V6_main_arg7 m (outs m) c),
   (h _ (mem_uc main_arg8 (by decide))).trans (V6_main_arg8 m (outs m) c),
   (h _ (mem_uc main_arg9 (by decide))).trans (V6_main_arg9 m (outs m) c),
   (h _ (mem_uc main_arg10 (by decide))).trans (V6_main_arg10 m (outs m) c)⟩

/-- THE FRAME: @main runs to the end, faults nowhere, and every argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_of_values m c r.2 (h c)) (run_values m ρ)

end Cert.KernelIdeal.Hand
-- ==== Proof.SpecTail.lean ====
/-
  The part of the computation that the kernel program and the reference share, written once as functions
  on the extended reals: the wrap of the entity indices into [0, 14541), the two gathers through the
  wrapped indices, and the scalar loss.

  With s = the per-row spread of the gathered embeddings (f32[128, 768]) and r = the gathered row means
  (f32[128, 1000]), the loss is

      z    = [ s | r | |a6 - a5| | a5 + a6 | a5 | a6 ] · a9ᵀ + a10          (a row of 5768 features per sample)
      g    = 1 / (1 + exp (-z))                                            (the gate, one per sample)
      pos  = g * a0 + (1 - g) * a1
      neg  = g * a3 + (1 - g) * a4                                         (five per sample)
      loss = (∑ max (1/2 - pos + neg, 0)) / 640 .

  Every operation is the host operation of the printed programs at the ideal instance, in the programs'
  order, so that each side's result term is this function of its own spread and row-mean arrays; nothing
  below is ever evaluated: the two sides are compared by congruence on `loss`.
-/
import Idealize.ShloMosaic.PureOps
import Idealize.ShloMosaic.PureOps.Ideal

noncomputable section

namespace Cert.Spec

open Idealize.ShloMosaic

namespace Tail

/-! ## Shapes -/

abbrev T_ : Shape := ⟨0, ![]⟩
abbrev T1 : Shape := ⟨1, ![1]⟩
abbrev T1x1 : Shape := ⟨2, ![1, 1]⟩
abbrev T128 : Shape := ⟨1, ![128]⟩
abbrev T128x1 : Shape := ⟨2, ![128, 1]⟩
abbrev T128x5 : Shape := ⟨2, ![128, 5]⟩
abbrev T128x768 : Shape := ⟨2, ![128, 768]⟩
abbrev T128x1000 : Shape := ⟨2, ![128, 1000]⟩
abbrev T128x1000x1 : Shape := ⟨3, ![128, 1000, 1]⟩
abbrev T128x1000x768 : Shape := ⟨3, ![128, 1000, 768]⟩
abbrev T128x5768 : Shape := ⟨2, ![128, 5768]⟩
abbrev T1x5768 : Shape := ⟨2, ![1, 5768]⟩
abbrev T5768x1 : Shape := ⟨2, ![5768, 1]⟩
abbrev T14541 : Shape := ⟨1, ![14541]⟩
abbrev T14541x768 : Shape := ⟨2, ![14541, 768]⟩

/-! ## The shape relations the operations ask for -/

theorem bcast_0_128x1000 : T_.BroadcastsInDim T128x1000 (![] : Fin 0 → Fin T128x1000.rank) := by decide
theorem bcast_128x1000_128x1000x1 : T128x1000.BroadcastsInDim T128x1000x1 (![0, 1] : Fin 2 → Fin T128x1000x1.rank) := by decide
theorem concat_feat : Shape.Concatenates [T128x768, T128x1000, T128x1000, T128x1000, T128x1000, T128x1000] T128x5768 1 := by decide
theorem transp_w : T1x5768.Transposes [1, 0] T5768x1 := by decide
theorem bcast_1_1x1 : T1.BroadcastsInDim T1x1 (![1] : Fin 1 → Fin T1x1.rank) := by decide
theorem bcast_1x1_128x1 : T1x1.BroadcastsInDim T128x1 (![0, 1] : Fin 2 → Fin T128x1.rank) := by decide
theorem bcast_0_128x1 : T_.BroadcastsInDim T128x1 (![] : Fin 0 → Fin T128x1.rank) := by decide
theorem cast_128x1_128 : T128x1.ShapeCasts T128 := by decide
theorem bcast_0_128 : T_.BroadcastsInDim T128 (![] : Fin 0 → Fin T128.rank) := by decide
theorem bcast_128_128x1 : T128.BroadcastsInDim T128x1 (![0] : Fin 1 → Fin T128x1.rank) := by decide
theorem bcast_128x1_128x5 : T128x1.BroadcastsInDim T128x5 (![0, 1] : Fin 2 → Fin T128x5.rank) := by decide
theorem bcast_0_128x5 : T_.BroadcastsInDim T128x5 (![] : Fin 0 → Fin T128x5.rank) := by decide
theorem red_128x5 : T128x5.ReducesTo [0, 1] T_ := by decide
theorem pos_0 : 0 < T_.numel := by decide

/-- The gather of single entries of a vector of 14541 through an index array [128, 1000, 1]. -/
def gatherVec : GatherDims T14541 T128x1000x1 T128x1000 where
  offsetDims := []
  collapsedSliceDims := [0]
  operandBatchingDims := []
  startIndicesBatchingDims := []
  startIndexMap := [0]
  indexVectorDim := 2
  sliceSizes := ![1]
  wf := by decide

/-- The gather of whole rows (768 entries) of a [14541, 768] matrix through an index array [128, 1000, 1]. -/
def gatherRows : GatherDims T14541x768 T128x1000x1 T128x1000x768 where
  offsetDims := [2]
  collapsedSliceDims := [0]
  operandBatchingDims := []
  startIndicesBatchingDims := []
  startIndexMap := [0]
  indexVectorDim := 2
  sliceSizes := ![1, 768]
  wf := by decide

/-- The product of the [128, 5768] feature matrix with the [5768, 1] weight column. -/
def dotFeat : DotDims T128x5768 T5768x1 T128x1 where
  lhsContracting := [1]
  rhsContracting := [0]
  lhsNonContracting := [0]
  rhsNonContracting := [1]
  lhsBatch := []
  rhsBatch := []
  wf := by decide

end Tail

open Tail

/-! ## The wrapped indices and the two gathers -/

/-- The entity indices with the negative ones wrapped around: `idx + 14541` where `idx < 0` (signed),
    `idx` elsewhere, with a trailing unit axis (the index vector of a gather). -/
def wrapIdx (a2 : IVec T128x1000 32) : IVec T128x1000x1 32 :=
  broadcastInDim T128x1000x1 ![0, 1] bcast_128x1000_128x1000x1
    (select (cmpi .slt a2 (broadcastInDim T128x1000 ![] bcast_0_128x1000 (constantI T_ 32 0#32)))
      (addi a2 (broadcastInDim T128x1000 ![] bcast_0_128x1000 (constantI T_ 32 14541#32))) a2)

/-- The gathered embeddings: entry (b, k, d) is entry (wrapped index of (b, k), d) of the embedding table. -/
def emb (a7 : FVec Ideal T14541x768 .f32) (a2 : IVec T128x1000 32) : FVec Ideal T128x1000x768 .f32 :=
  Host.gather gatherRows a7 (wrapIdx a2)

/-- The gathered row means: entry (b, k) is the row mean at the wrapped index of (b, k). -/
def simi (rm : FVec Ideal T14541 .f32) (a2 : IVec T128x1000 32) : FVec Ideal T128x1000 .f32 :=
  Host.gather gatherVec rm (wrapIdx a2)

/-! ## The loss -/

/-- The gate g = 1 / (1 + exp (-z)), one per sample, z the affine score of the sample's 5768 features. -/
def gate (std : FVec Ideal T128x768 .f32) (sim : FVec Ideal T128x1000 .f32)
    (a5 a6 : FVec Ideal T128x1000 .f32) (a9 : FVec Ideal T1x5768 .f32) (a10 : FVec Ideal T1 .f32) :
    FVec Ideal T128 .f32 :=
  shapeCast T128
    (Host.divf (broadcastInDim T128x1 ![] bcast_0_128x1 (constant (F := Ideal) T_ .f32 0x3F800000#32))
      (addf (broadcastInDim T128x1 ![] bcast_0_128x1 (constant (F := Ideal) T_ .f32 0x3F800000#32))
        (Host.exp (Host.negf
          (addf
            (Host.dotGeneral dotFeat none
              (concatenate T128x5768 1
                [⟨T128x768, std⟩, ⟨T128x1000, sim⟩, ⟨T128x1000, Host.absf (subf a6 a5)⟩, ⟨T128x1000, addf a5 a6⟩,
                  ⟨T128x1000, a5⟩, ⟨T128x1000, a6⟩] concat_feat)
              (transpose T5768x1 [1, 0] a9 transp_w))
            (broadcastInDim T128x1 ![0, 1] bcast_1x1_128x1 (broadcastInDim T1x1 ![1] bcast_1_1x1 a10)))))))
    cast_128x1_128

/-- pos = g * a0 + (1 - g) * a1, one per sample. -/
def mixPos (g a0 a1 : FVec Ideal T128 .f32) : FVec Ideal T128 .f32 :=
  addf (mulf g a0)
    (mulf (subf (broadcastInDim T128 ![] bcast_0_128 (constant (F := Ideal) T_ .f32 0x3F800000#32)) g) a1)

/-- neg = g * a3 + (1 - g) * a4, five per sample (g along the row). -/
def mixNeg (g : FVec Ideal T128 .f32) (a3 a4 : FVec Ideal T128x5 .f32) : FVec Ideal T128x5 .f32 :=
  addf
    (mulf (broadcastInDim T128x5 ![0, 1] bcast_128x1_128x5 (broadcastInDim T128x1 ![0] bcast_128_128x1 g)) a3)
    (mulf (broadcastInDim T128x5 ![0, 1] bcast_128x1_128x5 (broadcastInDim T128x1 ![0] bcast_128_128x1
      (subf (broadcastInDim T128 ![] bcast_0_128 (constant (F := Ideal) T_ .f32 0x3F800000#32)) g))) a4)

/-- The hinge term max (1/2 - pos + neg, 0) at every (sample, negative). -/
def hinge (pos : FVec Ideal T128 .f32) (neg : FVec Ideal T128x5 .f32) : FVec Ideal T128x5 .f32 :=
  maximumf
    (addf
      (broadcastInDim T128x5 ![0, 1] bcast_128x1_128x5
        (subf (broadcastInDim T128x1 ![] bcast_0_128x1 (constant (F := Ideal) T_ .f32 0x3F000000#32))
          (broadcastInDim T128x1 ![0] bcast_128_128x1 pos)))
      neg)
    (broadcastInDim T128x5 ![] bcast_0_128x5 (constant (F := Ideal) T_ .f32 0x00000000#32))

/-- The scalar loss: the sum of the 640 hinge terms divided by 640, as a function of the spread array `std`,
    the gathered row means `sim` and the eight arguments the tail reads directly. -/
def loss (std : FVec Ideal T128x768 .f32) (sim : FVec Ideal T128x1000 .f32)
    (a0 a1 : FVec Ideal T128 .f32) (a3 a4 : FVec Ideal T128x5 .f32) (a5 a6 : FVec Ideal T128x1000 .f32)
    (a9 : FVec Ideal T1x5768 .f32) (a10 : FVec Ideal T1 .f32) : FVec Ideal T_ .f32 :=
  Host.divf
    (Host.reduceAdd
      (hinge (mixPos (gate std sim a5 a6 a9 a10) a0 a1) (mixNeg (gate std sim a5 a6 a9 a10) a3 a4))
      (constant (F := Ideal) T_ .f32 0x00000000#32) red_128x5 pos_0)
    (constant (F := Ideal) T_ .f32 0x44200000#32)

end Cert.Spec
-- ==== Proof.LibNary.lean ====
/-
  A host operation of six operands read at its own result: the contents it writes are its function applied to the
  six operands' contents, each read at its own reference. Stated for any references, so that the contents of each
  operand can go on being read off the operations before it.
-/
import Idealize.ShloMosaic.Lib.StableHlo.Run

namespace Cert.LibNary

open Idealize.ShloMosaic Idealize.ShloMosaic.StableHlo

variable {τ : Topo} {sig : RefSig} {Val : EltTy → Type}
variable {x0 x1 x2 x3 x4 x5 y : Ref sig .tc}

/-- The result of an operation over a literal family of six references: its function at the six operands' contents,
    each at its own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same statement, in the form that applies wherever the operation's result is read at that reference. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

end Cert.LibNary
-- ==== Proof.KIValue.lean ====
/-
  What the idealized kernel program returns, as the shared loss function of what its two kernels leave.

  The last contents of the fold through @main's items, read at the result buffer, is the host part of the program
  applied to the two regions' output arrays: the three last host stretches compose to the loss of the spread array
  (region 1's output) and of the row means (region 0's output) gathered through the wrapped indices; the first host
  stretch composes to the two gathers. Each statement is first made over an arbitrary assignment of contents to the
  buffers, where it is the operations' results read off one after the other; the fold's contents are then put in.
-/
import proofs.«163166_j5368709120527_1_alg».proof.Proof.KIRun
import proofs.«163166_j5368709120527_1_alg».proof.Proof.SpecTail
import proofs.«163166_j5368709120527_1_alg».proof.Proof.LibNary

set_option maxRecDepth 16384

noncomputable section

namespace Cert.KernelIdeal.Hand

open Cert.KernelIdeal Cert.KernelIdeal.Gen
open Idealize.ShloMosaic Idealize.ShloMosaic.TcCoe Idealize.ShloMosaic.StableHlo

/-! ## The host stretches over an arbitrary assignment of contents -/

set_option maxHeartbeats 4000000 in
/-- The three last stretches: the result buffer ends at the loss of the contents of the spread buffer, of the gathered
    row means and of the eight arguments the tail reads. -/
theorem tail_eq (W : Valuation τ sig (Elt Ideal)) :
    StableHlo.after hostOps2_2 (StableHlo.after hostOps2_1 (StableHlo.after hostOps2 W)) (Proc.devRef .tc main_v53)
      = Cert.Spec.loss (W main_v15) (W main_v7) (W main_arg0) (W main_arg1) (W main_arg3) (W main_arg4)
          (W main_arg5) (W main_arg6) (W main_arg9) (W main_arg10) := by
  simp only [hostOps2_2, hostOps2_1, hostOps2]
  simp (disch := decide) only [after_cons, after_nil,
    nullary_result', unary_result', binary_result', ternary_result', reshape_result', Cert.LibNary.nary6_result',
    nullary_result_ne', unary_result_ne', binary_result_ne', ternary_result_ne', reshape_result_ne', nary_result_ne']
  rfl

/-- The first stretch at the gathered row means: the gather of the row-mean buffer through the wrapped indices. -/
theorem simi_eq (W : Valuation τ sig (Elt Ideal)) :
    StableHlo.after hostOps1 W (Proc.devRef .tc main_v7) = Cert.Spec.simi (W main_v0) (W main_arg2) := by
  simp only [hostOps1]
  simp (disch := decide) only [after_cons, after_nil,
    nullary_result', unary_result', binary_result', ternary_result',
    nullary_result_ne', unary_result_ne', binary_result_ne', ternary_result_ne']
  rfl

/-- The first stretch at the gathered embeddings: the gather of the embedding table's rows through the wrapped indices. -/
theorem emb_eq_of (W : Valuation τ sig (Elt Ideal)) :
    StableHlo.after hostOps1 W (Proc.devRef .tc main_v14) = Cert.Spec.emb (W main_arg7) (W main_arg2) := by
  simp only [hostOps1]
  simp (disch := decide) only [after_cons, after_nil,
    nullary_result', unary_result', binary_result', ternary_result',
    nullary_result_ne', unary_result_ne', binary_result_ne', ternary_result_ne']
  rfl

/-! ## At the fold's contents -/

variable (m : (ℓ : Loc nD τ sig) → Buf (Elt Ideal) ℓ) (c : Dev nD)

/-- An argument is as launched when region 1 is entered: neither region 0 nor the first stretch writes it. -/
theorem before1_arg (r : Ref sig .tc) (h1 : r ∉ hostOps1_W) (h0 : r ∉ ([main_v0] : List (Ref sig .tc))) :
    before1 m c r = m ((c.tc : Thread nD τ).loc r) :=
  ((congrFun (V2_eq m c) _).symm.trans (V2_of m (outs m) c r h1)).trans ((V1_of m (outs m) c r h0).trans rfl)

/-- An argument is as launched after region 1. -/
theorem V3_arg (r : Ref sig .tc) (h3 : r ∉ ([main_v15] : List (Ref sig .tc))) (h1 : r ∉ hostOps1_W) (h0 : r ∉ ([main_v0] : List (Ref sig .tc))) :
    V3 m (outs m) c r = m ((c.tc : Thread nD τ).loc r) :=
  (V3_of m (outs m) c r h3).trans ((congrFun (V2_eq m c) _).trans (before1_arg m c r h1 h0))

/-- The embeddings region 1 is entered with: the rows of the table at the wrapped indices. -/
theorem emb_eq : before1 m c main_v14
    = Cert.Spec.emb (m ((c.tc : Thread nD τ).loc main_arg7)) (m ((c.tc : Thread nD τ).loc main_arg2)) := by
  refine (emb_eq_of (after0 m c)).trans ?_
  rw [show after0 m c main_arg7 = m ((c.tc : Thread nD τ).loc main_arg7) from
        (congrFun (V1_eq m c) _).symm.trans ((V1_of m (outs m) c main_arg7 (by decide)).trans rfl),
      show after0 m c main_arg2 = m ((c.tc : Thread nD τ).loc main_arg2) from
        (congrFun (V1_eq m c) _).symm.trans ((V1_of m (outs m) c main_arg2 (by decide)).trans rfl)]

/-- THE RESULT: the loss of the spread array region 1 leaves and of the row means region 0 leaves, gathered. -/
theorem result_eq : V6 m (outs m) c main_v53
    = Cert.Spec.loss (spread m c) (Cert.Spec.simi (rowMeans m c) (m ((c.tc : Thread nD τ).loc main_arg2)))
        (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg9)) (m ((c.tc : Thread nD τ).loc main_arg10)) := by
  have e15 : V3 m (outs m) c main_v15 = spread m c := (congrFun (V3_eq m c) _).trans (Function.update_self ..)
  have e7 : V3 m (outs m) c main_v7
      = Cert.Spec.simi (rowMeans m c) (m ((c.tc : Thread nD τ).loc main_arg2)) := by
    refine (V3_of m (outs m) c main_v7 (by decide)).trans ((congrFun (V2_eq m c) _).trans ((simi_eq (after0 m c)).trans ?_))
    rw [show after0 m c main_v0 = rowMeans m c from Function.update_self ..,
      show after0 m c main_arg2 = m ((c.tc : Thread nD τ).loc main_arg2) from
        (congrFun (V1_eq m c) _).symm.trans ((V1_of m (outs m) c main_arg2 (by decide)).trans rfl)]
  refine (tail_eq (V3 m (outs m) c)).trans ?_
  rw [e15, e7, V3_arg m c main_arg0 (by decide) (by decide) (by decide), V3_arg m c main_arg1 (by decide) (by decide) (by decide),
    V3_arg m c main_arg3 (by decide) (by decide) (by decide), V3_arg m c main_arg4 (by decide) (by decide) (by decide),
    V3_arg m c main_arg5 (by decide) (by decide) (by decide), V3_arg m c main_arg6 (by decide) (by decide) (by decide),
    V3_arg m c main_arg9 (by decide) (by decide) (by decide), V3_arg m c main_arg10 (by decide) (by decide) (by decide)]

end Cert.KernelIdeal.Hand
-- ==== Proof.SpecRowMean.lean ====
/-
  The row mean of a square array of extended reals, as a function of the array: at row `i` the quotient of the sum
  of the row's 14541 entries by the value of the single-precision word `0x46633400` (the number 14541), with the
  extended reals' conventions for the sum and the quotient. The divisor is kept as the word's value and is never
  evaluated.
-/
import Idealize.ShloMosaic.PureOps.Ideal
import Idealize.ShloMosaic.Lib.ValueIdx

noncomputable section

open scoped BigOperators

namespace Cert.Spec

open Idealize.ShloMosaic Idealize.ShloMosaic.ValueIdx

/-- The mean of each row: `(∑ k, a (i, k)) / 14541`, the divisor as the value of its single-precision word. -/
def rowMean (a : (⟨2, ![14541, 14541]⟩ : Shape).Idx → EReal) : (⟨1, ![14541]⟩ : Shape).Idx → EReal :=
  fun i => Ideal.div (∑ k : Fin 14541, a (ix2 (i 0) k)) (Ideal.ofBits .f32 0x46633400#32)

/-- The row mean read at an index. -/
theorem rowMean_apply (a : (⟨2, ![14541, 14541]⟩ : Shape).Idx → EReal) (i : (⟨1, ![14541]⟩ : Shape).Idx) :
    rowMean a i = Ideal.div (∑ k : Fin 14541, a (ix2 (i 0) k)) (Ideal.ofBits .f32 0x46633400#32) := rfl

end Cert.Spec
-- ==== Proof.KIRegion0Value.lean ====
/-
  The output array of region 0 at the extended reals: after the region the array holds the row means of the input
  array. Each point writes back the quotients of its block's rows inside the array; row `r` is written by point
  `r / 256`, and the 57 blocks — the last cut to 205 rows — cover the 14541 rows.
-/
import proofs.«163166_j5368709120527_1_alg».proof.Proof.KIRegion0
import proofs.«163166_j5368709120527_1_alg».proof.Proof.SpecRowMean

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The output array after the region -/

variable (V : (c : Dev nD) → (b : Ref sig .tc) → Buf (Elt Ideal) ((c : Thread nD τ).loc b))

/-- The printed index maps, decided over the grid: both windows' block index on the row axis is the point, the
    input's on the column axis is 0; and the rows of a block inside the array are 256, or 205 at the last point. -/
theorem idx_facts0 : ∀ t : Fin cfg0.N, win0_0.index t (0 : Fin 2) = t.val ∧ win0_0.index t (1 : Fin 2) = 0
    ∧ win0_1.index t (0 : Fin 1) = t.val
    ∧ win0_1.xsize (grid0.coords t) (0 : Fin 1) = (if t.val = 56 then 205 else 256) :=
  (by decide +kernel : ∀ t : Fin grid0.N, _)

/-- WHAT POINT `t` WRITES BACK is block `t` of the row means of the input array as the region finds it. -/
theorem flushed0_1_eq (c : Dev nD) (t : Fin cfg0.N) :
    (dat0 (F := Ideal) V c).flushed 1 t
      = ((cfg0.win 1).blk t).view.read (Elt Ideal) (Cert.Spec.rowMean (V c main_arg8)) := by
  show (cfg0.win 1).cut (grid0.coords t) ((dat0 V c).after 1 t) = _
  rw [after0_1]
  funext j
  show out0_1 (F := Ideal) (xblk0 V c t) (win0_1.xinj (grid0.coords t) j)
    = Cert.Spec.rowMean (V c main_arg8) (((cfg0.win 1).blk t).view.emb j)
  rw [out0_1_apply, Cert.Spec.rowMean_apply]
  refine congrArg (fun s => Ideal.div s _) (Finset.sum_congr rfl fun k _ => ?_)
  have hm := moved_row (grid0.coords t) j k
  have e1 : xblk0 V c t (ix2 (n0 := 256) (n1 := 14541) (win0_1.xinj (grid0.coords t) j 0) k)
      = iblk0 V c 0 t (fun a => ⟨(ix2 (n0 := 256) (n1 := 14541) (win0_1.xinj (grid0.coords t) j 0) k a).val,
          (win0_0.moved_iff _ _).mp hm a⟩) := by
    unfold xblk0 Window.fill; rw [dif_pos hm]
  rw [e1]
  show V c main_arg8 (((cfg0.win 0).blk t).view.emb _) = V c main_arg8 (ix2 ((((cfg0.win 1).blk t).view.emb j) 0) k)
  refine congrArg _ (funext fun a => Fin.ext ?_)
  obtain ⟨e0, e1', e2, -⟩ := idx_facts0 t
  match a with
  | ⟨0, _⟩ =>
    show win0_0.index t (0 : Fin 2) * 256 + 1 * (j 0).val = win0_1.index t (0 : Fin 1) * 256 + 1 * (j 0).val
    omega
  | ⟨1, _⟩ =>
    show win0_0.index t (1 : Fin 2) * 14541 + 1 * k.val = k.val
    omega

/-- An index of the output array is in point `t`'s block iff its row is among the block's rows inside the array. -/
theorem mem_blk0_1 (t : Fin cfg0.N) (i : S14541.Idx) :
    i ∈ ((cfg0.win 1).blk t).view.set ↔ ∀ a : Fin 1, win0_1.index t a * S256.size a ≤ (i a).val
      ∧ (i a).val < win0_1.index t a * S256.size a + win0_1.xsize (grid0.coords t) a := by
  show i ∈ ((View.whole main_v0).slice (win0_1.rect t)).set ↔ _
  rw [View.set_slice_whole, Rect.mem_set_unit]
  exact Iff.rfl

/-- Row `r` is written back by point `r / 256`: the 57 blocks, the last cut to 205 rows, cover the 14541 rows. -/
theorem cover0_rows (i : S14541.Idx) :
    ∃ t : Fin cfg0.N, (cfg0.win 1).flush t = true ∧ i ∈ ((cfg0.win 1).blk t).view.set := by
  have hi : (i 0).val < 14541 := (i 0).isLt
  have ht : (i 0).val / 256 < grid0.N := by rw [N_0]; omega
  refine ⟨⟨(i 0).val / 256, ht⟩, flush0_1 _, ?_⟩
  rw [mem_blk0_1]
  intro a
  obtain ⟨-, -, e2, e3⟩ := idx_facts0 ⟨(i 0).val / 256, ht⟩
  match a with
  | ⟨0, _⟩ =>
    show win0_1.index ⟨(i 0).val / 256, ht⟩ (0 : Fin 1) * 256 ≤ (i 0).val
      ∧ (i 0).val < win0_1.index ⟨(i 0).val / 256, ht⟩ (0 : Fin 1) * 256 + win0_1.xsize (grid0.coords ⟨(i 0).val / 256, ht⟩) (0 : Fin 1)
    rw [e2, e3]
    show (i 0).val / 256 * 256 ≤ (i 0).val ∧ (i 0).val < (i 0).val / 256 * 256 + (if (i 0).val / 256 = 56 then 205 else 256)
    split <;> omega

/-- THE OUTPUT ARRAY after the region: the row means of the input array as the region finds it. -/
theorem arr0_out (c : Dev nD) : (dat0 (F := Ideal) V c).arrAt 1 cfg0.N = Cert.Spec.rowMean (V c main_arg8) :=
  (dat0 V c).arrAt_eq_of_cover 1 _ (fun t _ => flushed0_1_eq V c t) cover0_rows

end Cert.KernelIdeal.Hand

end
-- ==== Proof.LibBlockSum.lean ====
/-
  Sums taken block by block.

  A sum over n = a · b consecutive entries can be taken in a blocks of b entries each:

      Σ_{t < a} Σ_{y < b} f (b·t + y)  =  Σ_{k < a·b} f k .

  A running total that starts from z and adds one block's sum per step holds, after step j, z plus the sum of the
  first j + 1 blocks.  A function on the numbers below n is extended to all natural numbers by a default value so
  that block positions b·t + y can be written without carrying the bound.
-/
import Mathlib

open scoped BigOperators

namespace Cert.Lib.BlockSum

variable {M : Type*} [AddCommMonoid M]

/-- A function on the numbers below n, extended to every natural number by a default value. -/
def ext {n : ℕ} (F : Fin n → M) (z : M) (k : ℕ) : M := if h : k < n then F ⟨k, h⟩ else z

/-- Below n the extension is the function. -/
theorem ext_of_lt {n : ℕ} (F : Fin n → M) (z : M) {k : ℕ} (h : k < n) : ext F z k = F ⟨k, h⟩ := dif_pos h

/-- The sum of the first a · b entries, taken in a blocks of b. -/
theorem sum_range_blocks (f : ℕ → M) (a b : ℕ) :
    ∑ t ∈ Finset.range a, ∑ y : Fin b, f (b * t + y) = ∑ k ∈ Finset.range (a * b), f k := by
  induction a with
  | zero => simp
  | succ a ih =>
    rw [Finset.sum_range_succ, ih, Nat.succ_mul, Finset.sum_range_add, Fin.sum_univ_eq_sum_range (fun y => f (b * a + y)) b,
      Nat.mul_comm a b]

/-- The sum of a function on the numbers below n = a · b, taken in a blocks of b through its extension. -/
theorem sum_blocks_ext {n : ℕ} (a b : ℕ) (h : a * b = n) (F : Fin n → M) (z : M) :
    ∑ t ∈ Finset.range a, ∑ y : Fin b, ext F z (b * t + y) = ∑ k : Fin n, F k := by
  subst h
  rw [sum_range_blocks, ← Fin.sum_univ_eq_sum_range]
  exact Finset.sum_congr rfl fun k _ => ext_of_lt F z k.isLt

/-- A running total before any step but the first: z plus the first block. -/
theorem running_first (z : M) (g : ℕ → M) : z + g 0 = z + ∑ t ∈ Finset.range 1, g t := by
  rw [Finset.sum_range_one]

/-- One step of a running total: adding block j + 1 to z plus the first j + 1 blocks gives z plus the first j + 2. -/
theorem running_step (z : M) (g : ℕ → M) (j : ℕ) :
    (z + ∑ t ∈ Finset.range (j + 1), g t) + g (j + 1) = z + ∑ t ∈ Finset.range (j + 1 + 1), g t := by
  rw [Finset.sum_range_succ g (j + 1), add_assoc]

end Cert.Lib.BlockSum
-- ==== Proof.SpecStd.lean ====
/-
  The two spellings of the unbiased standard deviation over the middle axis of a [128, 1000, 768] array of extended
  reals, index by index. At output index (b, d) the column is x k = e (b, k, d), k < 1000.
  The kernel keeps a running sum S1 and a running sum of squares S2, both started from the zero word, and ends with
    sqrt (max ((S2 - S1 * (S1 / 1000)) / 999) 0).
  The reference centres first: with mean = (0 + sum x) / 1000 and normaliser 1000 - 1 (the integer 1 converted),
    sqrt (if normaliser > 0 then (0 + sum (x - mean) * (x - mean)) / normaliser else the NaN word).
  Float literals are kept as their words and never evaluated here.
-/
import Idealize.ShloMosaic.PureOps.Ideal
import Idealize.ShloMosaic.Lib.ValueIdx

noncomputable section

namespace Cert.Spec

open Idealize.ShloMosaic Idealize.ShloMosaic.ValueIdx

/-- The words of 0.0, 1000.0, 999.0 and the quiet NaN, read at the extended reals. -/
def zW : EReal := Ideal.ofBits .f32 0x00000000#32
def c1000 : EReal := Ideal.ofBits .f32 0x447A0000#32
def c999 : EReal := Ideal.ofBits .f32 0x4479C000#32
def nanW : EReal := Ideal.ofBits .f32 0x7FC00000#32
/-- The 32-bit integer 1 converted to a float: its value as a real. -/
def one32 : EReal := (((1#32 : BitVec 32).toInt : ℝ) : EReal)

/-- Column (b, d) of the array: entry k is e (b, k, d). -/
def col (e : (⟨3, ![128, 1000, 768]⟩ : Shape).Idx → EReal) (j : (⟨2, ![128, 768]⟩ : Shape).Idx) (k : Fin 1000) : EReal :=
  e (ix3 (j 0) k (j 1))

/-- The kernel's form: from the running sum and the running sum of squares. -/
def stdK (e : (⟨3, ![128, 1000, 768]⟩ : Shape).Idx → EReal) : (⟨2, ![128, 768]⟩ : Shape).Idx → EReal := fun j =>
  Ideal.sqrt (max (Ideal.div ((zW + ∑ k : Fin 1000, col e j k * col e j k)
      - (zW + ∑ k : Fin 1000, col e j k) * Ideal.div (zW + ∑ k : Fin 1000, col e j k) c1000) c999) zW)

/-- The reference's form: centred, divided by 1000 - 1 where that is positive. -/
def stdR (e : (⟨3, ![128, 1000, 768]⟩ : Shape).Idx → EReal) : (⟨2, ![128, 768]⟩ : Shape).Idx → EReal := fun j =>
  Ideal.sqrt (if Ideal.cmp .ogt (c1000 - one32) zW = 1#1 then
      Ideal.div (zW + ∑ k : Fin 1000, (col e j k - Ideal.div (zW + ∑ k : Fin 1000, col e j k) c1000)
        * (col e j k - Ideal.div (zW + ∑ k : Fin 1000, col e j k) c1000)) (c1000 - one32)
    else nanW)

end Cert.Spec

end
-- ==== Proof.KIRegion1Value.lean ====
/-
  The standard-deviation kernel's region, the value it leaves: its output array is the kernel's form of the unbiased
  standard deviation of the gathered embeddings, index by index.

  The grid is 2 x 25. Point t works on row group g = t / 25 (rows 64 g .. 64 g + 63 of the 128) and on block
  j = t mod 25 of the 1000 gathered rows (rows 40 j .. 40 j + 39), all 768 lanes. At (r, d) of the group:

    * the running sum after point t is the zero word plus the sum of the first j + 1 blocks of 40 entries of column
      (64 g + r, d): it starts from the zero block where j = 0 and gains one block's sum per point;
    * the running sum of squares likewise;
    * at j = 24 the 25 blocks of 40 are the whole column of 1000, and the output block is
      sqrt (max ((S2 - S1 * (S1 / 1000)) / 999) 0) of the two totals S1, S2: the kernel's form at (64 g + r, d).

  Only the points with j = 24 write their block back, the block of row group g; the two groups cover the 128 rows,
  so the output array ends holding that function of the region's input array.

  First, generically in the float instance: what each of the body's three cases leaves in the two totals and in the
  output block, as the payloads of its stores, and the recursion these give point by point; the input block at an
  index. Then, on the extended reals: the payloads at an index, the two totals in closed form by induction on the
  point, the regrouping of 25 blocks of 40 into the column, and the array.
-/
import proofs.«163166_j5368709120527_1_alg».proof.Proof.KIRegion1
import proofs.«163166_j5368709120527_1_alg».proof.Proof.LibBlockSum
import proofs.«163166_j5368709120527_1_alg».proof.Proof.SpecStd
import Idealize.ShloMosaic.Lib.Pipeline.Value
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace R1V

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as payloads -/

/-- Where a group starts the running sum ends at the zero block plus the block's lane sums. -/
theorem sout1_A_0_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i) (x0 : Vec F S64x40x768 .f32) :
    sout1_A_0 c i arg2 harg2 arg3 harg3 arg4 harg4 arg5 harg5 hc0 hc1 x0 = k1_pay4 x0 k1_pay1 := by
  unfold sout1_A_0
  rw [View.read_writes_eq_canon _ _ _ (scover1_A_0 c i arg2 harg2 arg3 harg3 arg4 harg4 arg5 harg5 hc0 hc1 x0)]
  unfold kernelRun1_A
  dsimp only
  sl_unfold_words
  rw [View.canon_cons_unit_zero (S := S64x768) hz2]
  simp only [View.readCov_unit_zero (S := S64x768) _ hz2, View.readAt_eq_ld, harg2.read_unread, harg4.read_unread, harg5.read_unread, View.ld_unit_zero (S := S64x768) hz2, View.ld_unit_zero (S := S64x40x768) hz3]

/-- Where a group starts the running sum of squares ends at the zero block plus the block's lane sums of squares. -/
theorem sout1_A_1_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : cond1_0 i) (hc1 : ¬cond1_1 i) (x0 : Vec F S64x40x768 .f32) :
    sout1_A_1 c i arg2 harg2 arg3 harg3 arg4 harg4 arg5 harg5 hc0 hc1 x0 = k1_pay5 x0 k1_pay2 := by
  unfold sout1_A_1
  rw [View.read_writes_eq_canon _ _ _ (scover1_A_1 c i arg2 harg2 arg3 harg3 arg4 harg4 arg5 harg5 hc0 hc1 x0)]
  unfold kernelRun1_A
  dsimp only
  sl_unfold_words
  rw [View.canon_cons_unit_zero (S := S64x768) hz2]
  simp only [View.readCov_unit_zero (S := S64x768) _ hz2, View.readAt_eq_ld, harg2.read_unread, harg4.read_unread, harg5.read_unread, View.ld_unit_zero (S := S64x768) hz2, View.ld_unit_zero (S := S64x40x768) hz3]

/-- At a middle point the running sum gains the block's lane sums. -/
theorem sout1_B_0_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i) (x0 : Vec F S64x40x768 .f32) (xs0 xs1 : Vec F S64x768 .f32) :
    sout1_B_0 c i arg2 harg2 arg3 harg3 arg4 harg4 arg5 harg5 hc0 hc1 x0 xs0 xs1 = k1_pay4 x0 xs0 := by
  unfold sout1_B_0
  rw [View.read_writes_eq_canon _ _ _ (scover1_B_0 c i arg2 harg2 arg3 harg3 arg4 harg4 arg5 harg5 hc0 hc1 x0 xs0 xs1)]
  unfold kernelRun1_B
  dsimp only
  sl_unfold_words
  rw [View.canon_unit_zero hz2]
  simp only [View.readCov_unit_zero (S := S64x768) _ hz2, View.readAt_eq_ld, harg2.read_unread, harg4.read_unread, harg5.read_unread, View.ld_unit_zero (S := S64x768) hz2, View.ld_unit_zero (S := S64x40x768) hz3]

/-- At a middle point the running sum of squares gains the block's lane sums of squares. -/
theorem sout1_B_1_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : ¬cond1_1 i) (x0 : Vec F S64x40x768 .f32) (xs0 xs1 : Vec F S64x768 .f32) :
    sout1_B_1 c i arg2 harg2 arg3 harg3 arg4 harg4 arg5 harg5 hc0 hc1 x0 xs0 xs1 = k1_pay5 x0 xs1 := by
  unfold sout1_B_1
  rw [View.read_writes_eq_canon _ _ _ (scover1_B_1 c i arg2 harg2 arg3 harg3 arg4 harg4 arg5 harg5 hc0 hc1 x0 xs0 xs1)]
  unfold kernelRun1_B
  dsimp only
  sl_unfold_words
  rw [View.canon_unit_zero hz2]
  simp only [View.readCov_unit_zero (S := S64x768) _ hz2, View.readAt_eq_ld, harg2.read_unread, harg4.read_unread, harg5.read_unread, View.ld_unit_zero (S := S64x768) hz2, View.ld_unit_zero (S := S64x40x768) hz3]

/-- At a group's last point likewise, -/
theorem sout1_C_0_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i) (x0 : Vec F S64x40x768 .f32) (xs0 xs1 : Vec F S64x768 .f32) :
    sout1_C_0 c i arg2 harg2 arg3 harg3 arg4 harg4 arg5 harg5 hc0 hc1 x0 xs0 xs1 = k1_pay4 x0 xs0 := by
  unfold sout1_C_0
  rw [View.read_writes_eq_canon _ _ _ (scover1_C_0 c i arg2 harg2 arg3 harg3 arg4 harg4 arg5 harg5 hc0 hc1 x0 xs0 xs1)]
  unfold kernelRun1_C
  dsimp only
  sl_unfold_words
  rw [View.canon_unit_zero hz2]
  simp only [View.readCov_unit_zero (S := S64x768) _ hz2, View.readAt_eq_ld, harg2.read_unread, harg4.read_unread, harg5.read_unread, View.ld_unit_zero (S := S64x768) hz2, View.ld_unit_zero (S := S64x40x768) hz3]

/-- and likewise the squares, -/
theorem sout1_C_1_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i) (x0 : Vec F S64x40x768 .f32) (xs0 xs1 : Vec F S64x768 .f32) :
    sout1_C_1 c i arg2 harg2 arg3 harg3 arg4 harg4 arg5 harg5 hc0 hc1 x0 xs0 xs1 = k1_pay5 x0 xs1 := by
  unfold sout1_C_1
  rw [View.read_writes_eq_canon _ _ _ (scover1_C_1 c i arg2 harg2 arg3 harg3 arg4 harg4 arg5 harg5 hc0 hc1 x0 xs0 xs1)]
  unfold kernelRun1_C
  dsimp only
  sl_unfold_words
  rw [View.canon_unit_zero hz2]
  simp only [View.readCov_unit_zero (S := S64x768) _ hz2, View.readAt_eq_ld, harg2.read_unread, harg4.read_unread, harg5.read_unread, View.ld_unit_zero (S := S64x768) hz2, View.ld_unit_zero (S := S64x40x768) hz3]

/-- and the output block is computed from the two totals just stored. -/
theorem out1_C_1_eq (c : Dev nD) (i : grid1.Coords) (arg2 : Memref sig .tc .vmem S64x40x768 .f32) (harg2 : arg2.IsWhole) (arg3 : Memref sig .tc .vmem S64x768 .f32) (harg3 : arg3.IsWhole) (arg4 : Memref sig .tc .vmem S64x768 .f32) (harg4 : arg4.IsWhole) (arg5 : Memref sig .tc .vmem S64x768 .f32) (harg5 : arg5.IsWhole) (hc0 : ¬cond1_0 i) (hc1 : cond1_1 i) (x0 : Vec F S64x40x768 .f32) (xs0 xs1 : Vec F S64x768 .f32) :
    out1_C_1 c i arg2 harg2 arg3 harg3 arg4 harg4 arg5 harg5 hc0 hc1 x0 xs0 xs1 = k1_pay6 (k1_pay4 x0 xs0) (k1_pay5 x0 xs1) (k1_pay4 x0 xs0) := by
  unfold out1_C_1
  rw [View.read_writes_eq_canon _ _ _ (cover1_C_1 c i arg2 harg2 arg3 harg3 arg4 harg4 arg5 harg5 hc0 hc1 x0 xs0 xs1)]
  unfold kernelRun1_C
  dsimp only
  sl_unfold_words
  rw [View.canon_unit_zero hz2]
  simp only [View.readCov_unit_zero (S := S64x768) _ hz2, View.readAt_eq_ld, harg2.read_unread, harg4.read_unread, harg5.read_unread, View.ld_unit_zero (S := S64x768) hz2, View.ld_unit_zero (S := S64x40x768) hz3]

variable (V : (c : Dev nD) → (b : Ref sig .tc) → Buf (Elt F) ((c : Thread nD τ).loc b))

/-! ## The recursion of the two totals, over payloads -/

/-- At a point that starts a group the two totals are the zero blocks plus the point's block. -/
theorem totals_first (c : Dev nD) (t : Fin cfg1.N) (h0 : t.val % 25 = 0) :
    (outsAt1 V c t.val t.isLt).2.1 = k1_pay4 (iblk1 V c 0 t) k1_pay1
      ∧ (outsAt1 V c t.val t.isLt).2.2 = k1_pay5 (iblk1 V c 0 t) k1_pay2 := by
  have h1 : ¬t.val % 25 = 24 := fun h => by rw [h0] at h; exact absurd h (by decide)
  have e := outsAt1_A V c t h0 h1
  exact ⟨(by
      refine (congrArg (fun p => p.2.1) e).trans ?_
      dsimp only
      exact sout1_A_0_eq c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t)),
    (by
      refine (congrArg (fun p => p.2.2) e).trans ?_
      dsimp only
      exact sout1_A_1_eq c (grid1.coords t) (ms1_0 t) (hs1_0 t) (ms1_1 t) (hs1_1 t) scM1_0 (Memref.isWhole_whole _) scM1_1 (Memref.isWhole_whole _) ((hcond1_0 t).mpr h0) (fun h => h1 ((hcond1_1 t).mp h)) (iblk1 V c 0 t))⟩

/-- At any other point the two totals are those of the point before plus the point's block. -/
theorem totals_next (c : Dev nD) (t : Fin cfg1.N) (h0 : ¬t.val % 25 = 0) :
    (outsAt1 V c t.val t.isLt).2.1 = k1_pay4 (iblk1 V c 0 t) (outsAt1 V c (t.val - 1) (Nat.lt_of_le_of_lt (Nat.sub_le _ _) t.isLt)).2.1
      ∧ (outsAt1 V c t.val t.isLt).2.2 = k1_pay5 (iblk1 V c 0 t) (outsAt1 V c (t.val - 1) (Nat.lt_of_le_of_lt (Nat.sub_le _ _) t.isLt)).2.2 := by
  by_cases h1 : t.val % 25 = 24
  · have e := outsAt1_C V c t h0 h1
    exact ⟨(by
      refine (congrArg (fun p => p.2.1) e).trans ?_
      dsimp only
      exact sout1_C_0_eq c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2),
      (by
      refine (congrArg (fun p => p.2.2) e).trans ?_
      dsimp only
      exact sout1_C_1_eq c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)⟩
  · have e := outsAt1_B V c t h0 h1
    exact ⟨(by
      refine (congrArg (fun p => p.2.1) e).trans ?_
      dsimp only
      exact sout1_B_0_eq c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2),
      (by
      refine (congrArg (fun p => p.2.2) e).trans ?_
      dsimp only
      exact sout1_B_1_eq c (grid1.coords t) (ms1_0 t) (hs1_0 t) (ms1_1 t) (hs1_1 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)⟩

/-- At a group's last point the output block is computed from the two totals of the point before plus the point's
    block. -/
theorem out_last (c : Dev nD) (t : Fin cfg1.N) (h1 : t.val % 25 = 24) :
    (outsAt1 V c t.val t.isLt).1
      = k1_pay6 (k1_pay4 (iblk1 V c 0 t) (outsAt1 V c (t.val - 1) (Nat.lt_of_le_of_lt (Nat.sub_le _ _) t.isLt)).2.1) (k1_pay5 (iblk1 V c 0 t) (outsAt1 V c (t.val - 1) (Nat.lt_of_le_of_lt (Nat.sub_le _ _) t.isLt)).2.2)
          (k1_pay4 (iblk1 V c 0 t) (outsAt1 V c (t.val - 1) (Nat.lt_of_le_of_lt (Nat.sub_le _ _) t.isLt)).2.1) := by
  have h0 : ¬t.val % 25 = 0 := fun h => by rw [h1] at h; exact absurd h (by decide)
  have e := outsAt1_C V c t h0 h1
  exact (by
      refine (congrArg (fun p => p.1) e).trans ?_
      dsimp only
      exact out1_C_1_eq c (grid1.coords t) (ms1_0 t) (hs1_0 t) (ms1_1 t) (hs1_1 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2)

/-! ## The input block at an index -/

/-- The input window's block index at point t: row group t / 25, block t mod 25 of the gathered rows, all lanes. -/
theorem index1_0 : ∀ t : Fin cfg1.N, win1_0.index t 0 = t.val / 25 ∧ win1_0.index t 1 = t.val % 25 ∧ win1_0.index t 2 = 0 :=
  (by decide +kernel : ∀ t : Fin grid1.N, win1_0.index t 0 = t.val / 25 ∧ win1_0.index t 1 = t.val % 25 ∧ win1_0.index t 2 = 0)

/-- The input window's block at point t holds, at (r, y, d), entry (64 (t / 25) + r, 40 (t mod 25) + y, d) of the
    array. -/
theorem iblk1_apply (c : Dev nD) (t : Fin cfg1.N) (r : Fin 64) (y : Fin 40) (d : Fin 768)
    (h64 : 64 * (t.val / 25) + r.val < 128) (h40 : 40 * (t.val % 25) + y.val < 1000) :
    (iblk1 V c 0 t : Vec F S64x40x768 .f32) (ValueIdx.ix3 r y d)
      = V c main_v14 (ValueIdx.ix3 ⟨64 * (t.val / 25) + r.val, h64⟩ ⟨40 * (t.val % 25) + y.val, h40⟩ d) := by
  have hi := index1_0 t
  unfold iblk1
  rw [View.read_apply]
  show V c main_v14 _ = V c main_v14 _
  congr 1
  funext a
  apply Fin.ext
  match a with
  | ⟨0, _⟩ => show win1_0.index t 0 * 64 + 1 * r.val = 64 * (t.val / 25) + r.val; rw [hi.1]; omega
  | ⟨1, _⟩ => show win1_0.index t 1 * 40 + 1 * y.val = 40 * (t.val % 25) + y.val; rw [hi.2.1]; omega
  | ⟨2, _⟩ => show win1_0.index t 2 * 768 + 1 * d.val = d.val; rw [hi.2.2]; omega

/-! ## The payloads at an index, on the extended reals -/

section IdealPayloads

open Idealize.ShloMosaic.ValueIdx

/-- Over output index (r, d) of a block, the index with k inserted on the reduced axis is (r, k, d). -/
theorem lift_ix (r : Fin 64) (d : Fin 768) (k : Fin 40) :
    reduces_S64x40x768_S64x768.lift (ix2 r d) k = ix3 r k d := by
  funext a
  apply Fin.ext
  fin_cases a <;> rfl

/-- The zero block is the zero word everywhere. -/
theorem pay1_apply (j : S64x768.Idx) : k1_pay1 (F := Ideal) j = Ideal.ofBits .f32 0x00000000#32 := by
  unfold k1_pay1
  simp only [shapeCast_self]
  rfl

theorem pay2_apply (j : S64x768.Idx) : k1_pay2 (F := Ideal) j = Ideal.ofBits .f32 0x00000000#32 := by
  unfold k1_pay2
  simp only [shapeCast_self]
  rfl

/-- The new running sum at (r, d): the old one plus the block's sum over its 40 rows. -/
theorem pay4_apply (x0 : Vec Ideal S64x40x768 .f32) (xs : Vec Ideal S64x768 .f32) (r : Fin 64) (d : Fin 768) :
    k1_pay4 (F := Ideal) x0 xs (ix2 r d) = xs (ix2 r d) + ∑ y : Fin 40, x0 (ix3 r y d) := by
  unfold k1_pay4 k1_pay3
  simp only [shapeCast_self]
  refine congrArg (fun z => xs (ix2 r d) + z) ?_
  refine (Ideal.multiReduction_add_single x0 _ reduces_S64x40x768_S64x768 (.inl rfl) rfl (ix2 r d)).trans ?_
  exact Finset.sum_congr rfl fun y _ => congrArg x0 (lift_ix r d y)

/-- The new running sum of squares at (r, d): the old one plus the block's sum of squares over its 40 rows. -/
theorem pay5_apply (x0 : Vec Ideal S64x40x768 .f32) (xs : Vec Ideal S64x768 .f32) (r : Fin 64) (d : Fin 768) :
    k1_pay5 (F := Ideal) x0 xs (ix2 r d) = xs (ix2 r d) + ∑ y : Fin 40, x0 (ix3 r y d) * x0 (ix3 r y d) := by
  unfold k1_pay5 k1_pay3
  simp only [shapeCast_self]
  refine congrArg (fun z => xs (ix2 r d) + z) ?_
  refine (Ideal.multiReduction_add_single (mulf x0 x0) _ reduces_S64x40x768_S64x768 (.inl rfl) rfl (ix2 r d)).trans ?_
  exact Finset.sum_congr rfl fun y _ => congrArg (fun i => x0 i * x0 i) (lift_ix r d y)

/-- The output at an index, from the sum a, the sum of squares b and the sum again. -/
theorem pay6_apply (a b a' : Vec Ideal S64x768 .f32) (j : S64x768.Idx) :
    k1_pay6 (F := Ideal) a b a' j
      = Ideal.sqrt (max (Ideal.div (b j - a' j * Ideal.div (a j) (Ideal.ofBits .f32 0x447A0000#32))
          (Ideal.ofBits .f32 0x4479C000#32)) (Ideal.ofBits .f32 0x00000000#32)) := rfl

end IdealPayloads

/-! ## The two totals in closed form, on the extended reals -/

section Totals

open Idealize.ShloMosaic.ValueIdx Cert.Lib.BlockSum

variable (W : (c : Dev nD) → (b : Ref sig .tc) → Buf (Elt Ideal) ((c : Thread nD τ).loc b))

/-- Entry (row, k, d) of a [128, 1000, 768] array over natural-number positions, 0 outside the array. -/
def entN (e : S128x1000x768.Idx → EReal) (d : Fin 768) (row k : ℕ) : EReal :=
  if h : row < 128 ∧ k < 1000 then e (ix3 ⟨row, h.1⟩ ⟨k, h.2⟩ d) else 0

/-- The zero word at the extended reals. -/
abbrev zW : EReal := Ideal.ofBits .f32 0x00000000#32

/-- The input block at point t, at (r, y, d), over natural-number positions. -/
theorem iblk1_entN (c : Dev nD) (t : Fin cfg1.N) (r : Fin 64) (y : Fin 40) (d : Fin 768) :
    (iblk1 W c 0 t : Vec Ideal S64x40x768 .f32) (ix3 r y d)
      = entN (W c main_v14) d (64 * (t.val / 25) + r.val) (40 * (t.val % 25) + y.val) := by
  have hN : t.val < 50 := lt_of_lt_of_eq t.isLt N_1
  have h64 : 64 * (t.val / 25) + r.val < 128 := by omega
  have h40 : 40 * (t.val % 25) + y.val < 1000 := by omega
  refine (iblk1_apply W c t r y d h64 h40).trans ?_
  unfold entN
  rw [dif_pos (⟨h64, h40⟩ : 64 * (t.val / 25) + r.val < 128 ∧ 40 * (t.val % 25) + y.val < 1000)]

/-- A block's row sums, entry by entry. -/
theorem sum_block_congr (x0 : Vec Ideal S64x40x768 .f32) (g : Fin 40 → EReal) (r : Fin 64) (d : Fin 768)
    (hx : ∀ y : Fin 40, x0 (ix3 r y d) = g y) :
    (∑ y : Fin 40, x0 (ix3 r y d)) = ∑ y : Fin 40, g y ∧
      (∑ y : Fin 40, x0 (ix3 r y d) * x0 (ix3 r y d)) = ∑ y : Fin 40, g y * g y :=
  ⟨Finset.sum_congr rfl fun y _ => hx y, Finset.sum_congr rfl fun y _ => by rw [hx y]⟩

/-- The new running sum at point t, at (r, d): the old one plus 40 entries of column (64 (t / 25) + r, d). -/
theorem pay4_block (c : Dev nD) (t : Fin cfg1.N) (xs : Vec Ideal S64x768 .f32) (r : Fin 64) (d : Fin 768) :
    k1_pay4 (F := Ideal) (iblk1 W c 0 t) xs (ix2 r d)
      = xs (ix2 r d) + ∑ y : Fin 40, entN (W c main_v14) d (64 * (t.val / 25) + r.val) (40 * (t.val % 25) + y.val) :=
  (pay4_apply (iblk1 W c 0 t) xs r d).trans (congrArg (fun z => xs (ix2 r d) + z)
    (sum_block_congr (iblk1 W c 0 t) _ r d fun y => iblk1_entN W c t r y d).1)

/-- The new running sum of squares at point t, at (r, d). -/
theorem pay5_block (c : Dev nD) (t : Fin cfg1.N) (xs : Vec Ideal S64x768 .f32) (r : Fin 64) (d : Fin 768) :
    k1_pay5 (F := Ideal) (iblk1 W c 0 t) xs (ix2 r d)
      = xs (ix2 r d) + ∑ y : Fin 40, entN (W c main_v14) d (64 * (t.val / 25) + r.val) (40 * (t.val % 25) + y.val)
          * entN (W c main_v14) d (64 * (t.val / 25) + r.val) (40 * (t.val % 25) + y.val) :=
  (pay5_apply (iblk1 W c 0 t) xs r d).trans (congrArg (fun z => xs (ix2 r d) + z)
    (sum_block_congr (iblk1 W c 0 t) _ r d fun y => iblk1_entN W c t r y d).2)

/-- After position n the running sum at (r, d) is the zero word plus the sum of the first (n mod 25) + 1 blocks of
    40 entries of column (64 (n / 25) + r, d). -/
theorem sum_inv (c : Dev nD) : ∀ (n : ℕ) (hn : n < cfg1.N) (r : Fin 64) (d : Fin 768),
    (outsAt1 W c n hn).2.1 (ix2 r d)
      = zW + ∑ t' ∈ Finset.range (n % 25 + 1), ∑ y : Fin 40,
          entN (W c main_v14) d (64 * (n / 25) + r.val) (40 * t' + y.val) := by
  intro n
  induction n with
  | zero =>
    intro hn r d
    refine (congrFun (totals_first W c ⟨0, hn⟩ rfl).1 (ix2 r d)).trans ?_
    refine (pay4_block W c ⟨0, hn⟩ (k1_pay1 (F := Ideal)) r d).trans ?_
    rw [pay1_apply]
    exact running_first zW fun t' => ∑ y : Fin 40, entN (W c main_v14) d (64 * (0 / 25) + r.val) (40 * t' + y.val)
  | succ m ih =>
    intro hn r d
    by_cases h0 : (m + 1) % 25 = 0
    · refine (congrFun (totals_first W c ⟨m + 1, hn⟩ h0).1 (ix2 r d)).trans ?_
      refine (pay4_block W c ⟨m + 1, hn⟩ (k1_pay1 (F := Ideal)) r d).trans ?_
      rw [pay1_apply]
      dsimp only
      rw [h0]
      exact running_first zW fun t' => ∑ y : Fin 40, entN (W c main_v14) d (64 * ((m + 1) / 25) + r.val) (40 * t' + y.val)
    · have hd : (m + 1) / 25 = m / 25 := by omega
      have hm : (m + 1) % 25 = m % 25 + 1 := by omega
      refine (congrFun (totals_next W c ⟨m + 1, hn⟩ h0).1 (ix2 r d)).trans ?_
      refine (pay4_block W c ⟨m + 1, hn⟩ (outsAt1 W c m (Nat.lt_of_succ_lt hn)).2.1 r d).trans ?_
      rw [ih (Nat.lt_of_succ_lt hn) r d]
      dsimp only
      rw [hd, hm]
      exact running_step zW (fun t' => ∑ y : Fin 40, entN (W c main_v14) d (64 * (m / 25) + r.val) (40 * t' + y.val)) (m % 25)

/-- After position n the running sum of squares at (r, d), likewise. -/
theorem sq_inv (c : Dev nD) : ∀ (n : ℕ) (hn : n < cfg1.N) (r : Fin 64) (d : Fin 768),
    (outsAt1 W c n hn).2.2 (ix2 r d)
      = zW + ∑ t' ∈ Finset.range (n % 25 + 1), ∑ y : Fin 40,
          entN (W c main_v14) d (64 * (n / 25) + r.val) (40 * t' + y.val)
            * entN (W c main_v14) d (64 * (n / 25) + r.val) (40 * t' + y.val) := by
  intro n
  induction n with
  | zero =>
    intro hn r d
    refine (congrFun (totals_first W c ⟨0, hn⟩ rfl).2 (ix2 r d)).trans ?_
    refine (pay5_block W c ⟨0, hn⟩ (k1_pay2 (F := Ideal)) r d).trans ?_
    rw [pay2_apply]
    exact running_first zW fun t' => ∑ y : Fin 40, entN (W c main_v14) d (64 * (0 / 25) + r.val) (40 * t' + y.val)
      * entN (W c main_v14) d (64 * (0 / 25) + r.val) (40 * t' + y.val)
  | succ m ih =>
    intro hn r d
    by_cases h0 : (m + 1) % 25 = 0
    · refine (congrFun (totals_first W c ⟨m + 1, hn⟩ h0).2 (ix2 r d)).trans ?_
      refine (pay5_block W c ⟨m + 1, hn⟩ (k1_pay2 (F := Ideal)) r d).trans ?_
      rw [pay2_apply]
      dsimp only
      rw [h0]
      exact running_first zW fun t' => ∑ y : Fin 40, entN (W c main_v14) d (64 * ((m + 1) / 25) + r.val) (40 * t' + y.val)
        * entN (W c main_v14) d (64 * ((m + 1) / 25) + r.val) (40 * t' + y.val)
    · have hd : (m + 1) / 25 = m / 25 := by omega
      have hm : (m + 1) % 25 = m % 25 + 1 := by omega
      refine (congrFun (totals_next W c ⟨m + 1, hn⟩ h0).2 (ix2 r d)).trans ?_
      refine (pay5_block W c ⟨m + 1, hn⟩ (outsAt1 W c m (Nat.lt_of_succ_lt hn)).2.2 r d).trans ?_
      rw [ih (Nat.lt_of_succ_lt hn) r d]
      dsimp only
      rw [hd, hm]
      exact running_step zW (fun t' => ∑ y : Fin 40, entN (W c main_v14) d (64 * (m / 25) + r.val) (40 * t' + y.val)
        * entN (W c main_v14) d (64 * (m / 25) + r.val) (40 * t' + y.val)) (m % 25)

end Totals

/-! ## The output array -/

section Output

open Idealize.ShloMosaic.ValueIdx Cert.Lib.BlockSum

variable (W : (c : Dev nD) → (b : Ref sig .tc) → Buf (Elt Ideal) ((c : Thread nD τ).loc b))

/-- At a group's last point the output block is computed from the two totals the point leaves. -/
theorem out_last_totals {F : FTy → Type} [FloatOps F] (V : (c : Dev nD) → (b : Ref sig .tc) → Buf (Elt F) ((c : Thread nD τ).loc b))
    (c : Dev nD) (t : Fin cfg1.N) (h1 : t.val % 25 = 24) :
    (outsAt1 V c t.val t.isLt).1
      = k1_pay6 (outsAt1 V c t.val t.isLt).2.1 (outsAt1 V c t.val t.isLt).2.2 (outsAt1 V c t.val t.isLt).2.1 := by
  have h0 : ¬t.val % 25 = 0 := fun h => by rw [h1] at h; exact absurd h (by decide)
  rw [(totals_next V c t h0).1, (totals_next V c t h0).2]
  exact out_last V c t h1

/-- Column (b, d) over natural-number positions is the column extended by 0. -/
theorem entN_eq_ext (e : S128x1000x768.Idx → EReal) (d : Fin 768) (b : Fin 128) :
    entN e d b.val = ext (fun k : Fin 1000 => e (ix3 b k d)) 0 := by
  funext k
  unfold entN ext
  by_cases hk : k < 1000
  · rw [dif_pos (⟨b.isLt, hk⟩ : b.val < 128 ∧ k < 1000), dif_pos hk]
  · rw [dif_neg (fun h : b.val < 128 ∧ k < 1000 => hk h.2), dif_neg hk]

/-- Its square likewise. -/
theorem entN_sq_eq_ext (e : S128x1000x768.Idx → EReal) (d : Fin 768) (b : Fin 128) :
    (fun k => entN e d b.val k * entN e d b.val k) = ext (fun k : Fin 1000 => e (ix3 b k d) * e (ix3 b k d)) 0 := by
  funext k
  unfold entN ext
  by_cases hk : k < 1000
  · rw [dif_pos (⟨b.isLt, hk⟩ : b.val < 128 ∧ k < 1000), dif_pos hk]
  · rw [dif_neg (fun h : b.val < 128 ∧ k < 1000 => hk h.2), dif_neg hk, mul_zero]

/-- 25 blocks of 40 entries of column (b, d) are the whole column. -/
theorem col_sum (e : S128x1000x768.Idx → EReal) (d : Fin 768) (b : Fin 128) :
    (∑ t' ∈ Finset.range 25, ∑ y : Fin 40, entN e d b.val (40 * t' + y.val)) = ∑ k : Fin 1000, Cert.Spec.col e (ix2 b d) k := by
  rw [entN_eq_ext e d b]
  exact sum_blocks_ext 25 40 rfl (fun k : Fin 1000 => e (ix3 b k d)) 0

theorem col_sq_sum (e : S128x1000x768.Idx → EReal) (d : Fin 768) (b : Fin 128) :
    (∑ t' ∈ Finset.range 25, ∑ y : Fin 40, entN e d b.val (40 * t' + y.val) * entN e d b.val (40 * t' + y.val))
      = ∑ k : Fin 1000, Cert.Spec.col e (ix2 b d) k * Cert.Spec.col e (ix2 b d) k := by
  have h := entN_sq_eq_ext e d b
  have h' : ∀ n, entN e d b.val n * entN e d b.val n = ext (fun k : Fin 1000 => e (ix3 b k d) * e (ix3 b k d)) 0 n :=
    fun n => congrFun h n
  simp only [h']
  exact sum_blocks_ext 25 40 rfl (fun k : Fin 1000 => e (ix3 b k d) * e (ix3 b k d)) 0

/-- At a group's last point the output block holds, at (r, d), the kernel's standard deviation of column
    (64 (t / 25) + r, d). -/
theorem out_value (c : Dev nD) (t : Fin cfg1.N) (h24 : t.val % 25 = 24) (r : Fin 64) (d : Fin 768)
    (hb : 64 * (t.val / 25) + r.val < 128) :
    (outsAt1 W c t.val t.isLt).1 (ix2 r d)
      = Cert.Spec.stdK (W c main_v14) (ix2 ⟨64 * (t.val / 25) + r.val, hb⟩ d) := by
  refine (congrFun (out_last_totals W c t h24) (ix2 r d)).trans ?_
  refine (pay6_apply (outsAt1 W c t.val t.isLt).2.1 (outsAt1 W c t.val t.isLt).2.2 (outsAt1 W c t.val t.isLt).2.1 (ix2 r d)).trans ?_
  rw [sum_inv W c t.val t.isLt r d, sq_inv W c t.val t.isLt r d, h24]
  have h1 := col_sum (W c main_v14) d ⟨64 * (t.val / 25) + r.val, hb⟩
  have h2 := col_sq_sum (W c main_v14) d ⟨64 * (t.val / 25) + r.val, hb⟩
  dsimp only at h1 h2
  rw [h1, h2]
  rfl

/-- The output window's block index at point t: row group t / 25, all lanes. -/
theorem index1_1 : ∀ t : Fin cfg1.N, win1_1.index t 0 = t.val / 25 ∧ win1_1.index t 1 = 0 :=
  (by decide +kernel : ∀ t : Fin grid1.N, win1_1.index t 0 = t.val / 25 ∧ win1_1.index t 1 = 0)

/-- What a group's last point writes back is its block of the standard deviation of the whole array. -/
theorem flushed1_eq (c : Dev nD) (t : Fin cfg1.N) (hf : (cfg1.win 1).flush t = true) :
    (dat1 W c).flushed 1 t = ((cfg1.win 1).blk t).view.read (Elt Ideal) (Cert.Spec.stdK (W c main_v14)) := by
  have h24 : t.val % 25 = 24 := (flush1_1 t).mp hf
  have hN : t.val < 50 := lt_of_lt_of_eq t.isLt N_1
  have hi := index1_1 t
  show (cfg1.win 1).cut (grid1.coords t) ((dat1 W c).after 1 t) = _
  rw [after1_1]
  funext j
  obtain ⟨r, d, rfl⟩ : ∃ (r : Fin 64) (d : Fin 768), j = ix2 r d := ⟨j 0, j 1, eq_ix2 j⟩
  have hb : 64 * (t.val / 25) + r.val < 128 := by omega
  show (outsAt1 W c t.val t.isLt).1 (ix2 r d) = Cert.Spec.stdK (W c main_v14) (((cfg1.win 1).blk t).view.emb (ix2 r d))
  refine (out_value W c t h24 r d hb).trans ?_
  refine congrArg (Cert.Spec.stdK (W c main_v14)) ?_
  funext a
  apply Fin.ext
  match a with
  | ⟨0, _⟩ => show 64 * (t.val / 25) + r.val = win1_1.index t 0 * 64 + 1 * r.val; rw [hi.1]; omega
  | ⟨1, _⟩ => show d.val = win1_1.index t 1 * 768 + 1 * d.val; rw [hi.2]; omega

/-- An index of the output array is in point t's block iff each coordinate is in the block's range. -/
theorem mem_blk1_1 (t : Fin cfg1.N) (i : S128x768.Idx) :
    i ∈ ((cfg1.win 1).blk t).view.set ↔ ∀ a : Fin 2, win1_1.index t a * S64x768.size a ≤ (i a).val ∧ (i a).val < win1_1.index t a * S64x768.size a + S64x768.size a := by
  show i ∈ ((View.whole main_v15).slice (win1_1.rect t)).set ↔ _
  rw [View.set_slice_whole, Rect.mem_set_unit]
  exact Iff.rfl

end Output

end R1V

open R1V Idealize.ShloMosaic.ValueIdx in
/-- The region leaves in its output array the kernel's standard deviation of the gathered embeddings: row b is
    written by the last point of group b / 64. -/
theorem arr1_out (W : (c : Dev nD) → (b : Ref sig .tc) → Buf (Elt Ideal) ((c : Thread nD τ).loc b)) (c : Dev nD) :
    (dat1 (F := Ideal) W c).arrAt 1 cfg1.N = Cert.Spec.stdK (W c main_v14) :=
  (dat1 W c).arrAt_eq_of_cover 1 _ (flushed1_eq W c) fun i => by
    have h0 : (i 0).val < 128 := (i 0).isLt
    have h1 : (i 1).val < 768 := (i 1).isLt
    have hN : 25 * ((i 0).val / 64) + 24 < cfg1.N := by rw [show cfg1.N = 50 from N_1]; omega
    refine ⟨⟨25 * ((i 0).val / 64) + 24, hN⟩, (flush1_1 _).mpr (by dsimp only; omega), ?_⟩
    rw [mem_blk1_1]
    have hi := index1_1 ⟨25 * ((i 0).val / 64) + 24, hN⟩
    dsimp only at hi
    intro a
    match a with
    | ⟨0, _⟩ =>
      show win1_1.index ⟨25 * ((i 0).val / 64) + 24, hN⟩ 0 * 64 ≤ (i 0).val ∧ (i 0).val < win1_1.index ⟨25 * ((i 0).val / 64) + 24, hN⟩ 0 * 64 + 64
      rw [hi.1]; omega
    | ⟨1, _⟩ =>
      show win1_1.index ⟨25 * ((i 0).val / 64) + 24, hN⟩ 1 * 768 ≤ (i 1).val ∧ (i 1).val < win1_1.index ⟨25 * ((i 0).val / 64) + 24, hN⟩ 1 * 768 + 768
      rw [hi.2]; omega

end Cert.KernelIdeal.Hand

end
-- ==== Proof.RefRun.lean ====
/-
  The reference program's @main as one straight line of host operations, each outlined function's operations
  written in place at its call over that call's buffers (the standard deviation through its three nested
  functions, the rectifier at the end), and what every weakly fair execution of it ends with: the result buffer
  at the operations' composed value over the launch contents, the eleven arguments unchanged.
-/
import proofs.«163166_j5368709120527_1_alg».proof.Defs
import proofs.«163166_j5368709120527_1_alg».proof.Proof.Gen.ReferenceIdeal
import proofs.«163166_j5368709120527_1_alg».proof.Proof.Gen.Pre_finite_inputs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 94 operations in order. The call of the standard deviation is twenty-three of them: the variance's
    nineteen (the sum over the middle axis from the zero word, the mean, the centred entries, their squares, the
    integer one converted and taken from 1000, the sum of the squares, the quotient, the comparison of the
    normaliser with zero, the NaN word), the selection's three (the NaN word converted to its own type, its
    broadcast, the select) and the square root; the rectifier is three (the zero word, its broadcast, the maximum). -/
abbrev ops : List (HloOp τ sig (Elt F)) :=
  [ nullary main_c (constantI S_ 32 0#32),
    unary main_c main_v0 (broadcastInDim S128x1000 ![] bcast_S_S128x1000 : (⟨S_, .i32⟩ : BufTy).Contents (Elt F) → (⟨S128x1000, .i32⟩ : BufTy).Contents (Elt F)),
    binary main_arg2 main_v0 main_v1 (cmpi .slt : (⟨S128x1000, .i32⟩ : BufTy).Contents (Elt F) → (⟨S128x1000, .i32⟩ : BufTy).Contents (Elt F) → (⟨S128x1000, .i1⟩ : BufTy).Contents (Elt F)),
    nullary main_c_0 (constantI S_ 32 14541#32),
    unary main_c_0 main_v2 (broadcastInDim S128x1000 ![] bcast_S_S128x1000 : (⟨S_, .i32⟩ : BufTy).Contents (Elt F) → (⟨S128x1000, .i32⟩ : BufTy).Contents (Elt F)),
    binary main_arg2 main_v2 main_v3 (addi : (⟨S128x1000, .i32⟩ : BufTy).Contents (Elt F) → (⟨S128x1000, .i32⟩ : BufTy).Contents (Elt F) → (⟨S128x1000, .i32⟩ : BufTy).Contents (Elt F)),
    ternary main_v1 main_v3 main_arg2 main_v4 (select : (⟨S128x1000, .i1⟩ : BufTy).Contents (Elt F) → (⟨S128x1000, .i32⟩ : BufTy).Contents (Elt F) → (⟨S128x1000, .i32⟩ : BufTy).Contents (Elt F) → (⟨S128x1000, .i32⟩ : BufTy).Contents (Elt F)),
    unary main_v4 main_v5 (broadcastInDim S128x1000x1 ![0, 1] bcast_S128x1000_S128x1000x1_0_1 : (⟨S128x1000, .i32⟩ : BufTy).Contents (Elt F) → (⟨S128x1000x1, .i32⟩ : BufTy).Contents (Elt F)),
    binary main_arg7 main_v5 main_v6 ((fun x i => Host.gather gather_S14541x768_S128x1000x1_S128x1000x768_2_0_n_n_0_2_1768 x i) : (⟨S14541x768, .f32⟩ : BufTy).Contents (Elt F) → (⟨S128x1000x1, .i32⟩ : BufTy).Contents (Elt F) → (⟨S128x1000x768, .f32⟩ : BufTy).Contents (Elt F)),
    nullary main_c_1 (constantI S_ 32 1#32),
    TRef.nullary main_call0.call0.cst (constant S_ .f32 0x00000000#32),
    TRef.binary (.of main_v6 : TRef sig ⟨S128x1000x768, .f32⟩) main_call0.call0.cst main_call0.call0.v0 (fun x v => Host.reduceAdd x v reducesTo_S128x1000x768_S128x768_d1 h_S_),
    TRef.unary main_call0.call0.v0 main_call0.call0.v1 (broadcastInDim S128x1x768 ![0, 2] bcast_S128x768_S128x1x768_0_2),
    TRef.nullary main_call0.call0.cst_0 (constant S_ .f32 0x447A0000#32),
    TRef.unary main_call0.call0.cst_0 main_call0.call0.v2 (broadcastInDim S128x1x768 ![] bcast_S_S128x1x768),
    TRef.binary main_call0.call0.v1 main_call0.call0.v2 main_call0.call0.v3 Host.divf,
    TRef.unary main_call0.call0.v3 main_call0.call0.v4 (broadcastInDim S128x1000x768 ![0, 1, 2] bcast_S128x1x768_S128x1000x768_0_1_2),
    TRef.binary (.of main_v6 : TRef sig ⟨S128x1000x768, .f32⟩) main_call0.call0.v4 main_call0.call0.v5 subf,
    TRef.binary main_call0.call0.v5 main_call0.call0.v5 main_call0.call0.v6 mulf,
    TRef.unary (.of main_c_1 : TRef sig ⟨S_, .i32⟩) main_call0.call0.v7 (sitofp .f32),
    TRef.nullary main_call0.call0.cst_1 (constant S_ .f32 0x447A0000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S128x1000x768_S128x768_d1 h_S_),
    TRef.unary main_call0.call0.v8 main_call0.call0.v10 (broadcastInDim S128x768 ![] bcast_S_S128x768),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S128x768 ![] bcast_S_S128x768),
    TRef.ternary main_call0.call0.v12 main_call0.call0.v11 main_call0.call0.call0.v1 main_call0.call0.call0.v2 (fun p a b => select (broadcastInDim S128x768 ![] bcast_S_S128x768 p) a b),
    TRef.unary main_call0.call0.call0.v2 main_call0.v1 Host.sqrt,
    nullary main_cst (constant S_ .f32 0x00000000#32),
    binary main_arg8 main_cst main_v8 ((fun x v => Host.reduceAdd x v reducesTo_S14541x14541_S14541_d1 h_S_) : (⟨S14541x14541, .f32⟩ : BufTy).Contents (Elt F) → (⟨S_, .f32⟩ : BufTy).Contents (Elt F) → (⟨S14541, .f32⟩ : BufTy).Contents (Elt F)),
    nullary main_cst_2 (constant S_ .f32 0x46633400#32),
    unary main_cst_2 main_v9 (broadcastInDim S14541 ![] bcast_S_S14541 : (⟨S_, .f32⟩ : BufTy).Contents (Elt F) → (⟨S14541, .f32⟩ : BufTy).Contents (Elt F)),
    binary main_v8 main_v9 main_v10 (Host.divf : (⟨S14541, .f32⟩ : BufTy).Contents (Elt F) → (⟨S14541, .f32⟩ : BufTy).Contents (Elt F) → (⟨S14541, .f32⟩ : BufTy).Contents (Elt F)),
    nullary main_c_3 (constantI S_ 32 0#32),
    unary main_c_3 main_v11 (broadcastInDim S128x1000 ![] bcast_S_S128x1000 : (⟨S_, .i32⟩ : BufTy).Contents (Elt F) → (⟨S128x1000, .i32⟩ : BufTy).Contents (Elt F)),
    binary main_arg2 main_v11 main_v12 (cmpi .slt : (⟨S128x1000, .i32⟩ : BufTy).Contents (Elt F) → (⟨S128x1000, .i32⟩ : BufTy).Contents (Elt F) → (⟨S128x1000, .i1⟩ : BufTy).Contents (Elt F)),
    nullary main_c_4 (constantI S_ 32 14541#32),
    unary main_c_4 main_v13 (broadcastInDim S128x1000 ![] bcast_S_S128x1000 : (⟨S_, .i32⟩ : BufTy).Contents (Elt F) → (⟨S128x1000, .i32⟩ : BufTy).Contents (Elt F)),
    binary main_arg2 main_v13 main_v14 (addi : (⟨S128x1000, .i32⟩ : BufTy).Contents (Elt F) → (⟨S128x1000, .i32⟩ : BufTy).Contents (Elt F) → (⟨S128x1000, .i32⟩ : BufTy).Contents (Elt F)),
    ternary main_v12 main_v14 main_arg2 main_v15 (select : (⟨S128x1000, .i1⟩ : BufTy).Contents (Elt F) → (⟨S128x1000, .i32⟩ : BufTy).Contents (Elt F) → (⟨S128x1000, .i32⟩ : BufTy).Contents (Elt F) → (⟨S128x1000, .i32⟩ : BufTy).Contents (Elt F)),
    unary main_v15 main_v16 (broadcastInDim S128x1000x1 ![0, 1] bcast_S128x1000_S128x1000x1_0_1 : (⟨S128x1000, .i32⟩ : BufTy).Contents (Elt F) → (⟨S128x1000x1, .i32⟩ : BufTy).Contents (Elt F)),
    binary main_v10 main_v16 main_v17 ((fun x i => Host.gather gather_S14541_S128x1000x1_S128x1000_n_0_n_n_0_2_1 x i) : (⟨S14541, .f32⟩ : BufTy).Contents (Elt F) → (⟨S128x1000x1, .i32⟩ : BufTy).Contents (Elt F) → (⟨S128x1000, .f32⟩ : BufTy).Contents (Elt F)),
    binary main_arg6 main_arg5 main_v18 (subf : (⟨S128x1000, .f32⟩ : BufTy).Contents (Elt F) → (⟨S128x1000, .f32⟩ : BufTy).Contents (Elt F) → (⟨S128x1000, .f32⟩ : BufTy).Contents (Elt F)),
    unary main_v18 main_v19 (Host.absf : (⟨S128x1000, .f32⟩ : BufTy).Contents (Elt F) → (⟨S128x1000, .f32⟩ : BufTy).Contents (Elt F)),
    binary main_arg5 main_arg6 main_v20 (addf : (⟨S128x1000, .f32⟩ : BufTy).Contents (Elt F) → (⟨S128x1000, .f32⟩ : BufTy).Contents (Elt F) → (⟨S128x1000, .f32⟩ : BufTy).Contents (Elt F)),
    nary ![main_v7, main_v17, main_v19, main_v20, main_arg5, main_arg6] main_v21 (fun u => concatenate S128x5768 1 [⟨S128x768, u 0⟩, ⟨S128x1000, u 1⟩, ⟨S128x1000, u 2⟩, ⟨S128x1000, u 3⟩, ⟨S128x1000, u 4⟩, ⟨S128x1000, u 5⟩] concatenates_S128x768_S128x1000_S128x1000_S128x1000_S128x1000_S128x1000_S128x5768_d1),
    unary main_arg9 main_v22 ((transpose S5768x1 [1, 0] · transposes_S1x5768_S5768x1_1_0) : (⟨S1x5768, .f32⟩ : BufTy).Contents (Elt F) → (⟨S5768x1, .f32⟩ : BufTy).Contents (Elt F)),
    binary main_v21 main_v22 main_v23 ((fun l r => Host.dotGeneral dot_S128x5768_S5768x1_S128x1_1_0_0_1_n_n none l r) : (⟨S128x5768, .f32⟩ : BufTy).Contents (Elt F) → (⟨S5768x1, .f32⟩ : BufTy).Contents (Elt F) → (⟨S128x1, .f32⟩ : BufTy).Contents (Elt F)),
    unary main_arg10 main_v24 (broadcastInDim S1x1 ![1] bcast_S1_S1x1_1 : (⟨S1, .f32⟩ : BufTy).Contents (Elt F) → (⟨S1x1, .f32⟩ : BufTy).Contents (Elt F)),
    unary main_v24 main_v25 (broadcastInDim S128x1 ![0, 1] bcast_S1x1_S128x1_0_1 : (⟨S1x1, .f32⟩ : BufTy).Contents (Elt F) → (⟨S128x1, .f32⟩ : BufTy).Contents (Elt F)),
    binary main_v23 main_v25 main_v26 (addf : (⟨S128x1, .f32⟩ : BufTy).Contents (Elt F) → (⟨S128x1, .f32⟩ : BufTy).Contents (Elt F) → (⟨S128x1, .f32⟩ : BufTy).Contents (Elt F)),
    unary main_v26 main_v27 (Host.negf : (⟨S128x1, .f32⟩ : BufTy).Contents (Elt F) → (⟨S128x1, .f32⟩ : BufTy).Contents (Elt F)),
    unary main_v27 main_v28 (Host.exp : (⟨S128x1, .f32⟩ : BufTy).Contents (Elt F) → (⟨S128x1, .f32⟩ : BufTy).Contents (Elt F)),
    nullary main_cst_5 (constant S_ .f32 0x3F800000#32),
    unary main_cst_5 main_v29 (broadcastInDim S128x1 ![] bcast_S_S128x1 : (⟨S_, .f32⟩ : BufTy).Contents (Elt F) → (⟨S128x1, .f32⟩ : BufTy).Contents (Elt F)),
    binary main_v29 main_v28 main_v30 (addf : (⟨S128x1, .f32⟩ : BufTy).Contents (Elt F) → (⟨S128x1, .f32⟩ : BufTy).Contents (Elt F) → (⟨S128x1, .f32⟩ : BufTy).Contents (Elt F)),
    nullary main_cst_6 (constant S_ .f32 0x3F800000#32),
    unary main_cst_6 main_v31 (broadcastInDim S128x1 ![] bcast_S_S128x1 : (⟨S_, .f32⟩ : BufTy).Contents (Elt F) → (⟨S128x1, .f32⟩ : BufTy).Contents (Elt F)),
    binary main_v31 main_v30 main_v32 (Host.divf : (⟨S128x1, .f32⟩ : BufTy).Contents (Elt F) → (⟨S128x1, .f32⟩ : BufTy).Contents (Elt F) → (⟨S128x1, .f32⟩ : BufTy).Contents (Elt F)),
    reshape main_v32 main_v33 rfl shapeCasts_S128x1_S128,
    binary main_v33 main_arg0 main_v34 (mulf : (⟨S128, .f32⟩ : BufTy).Contents (Elt F) → (⟨S128, .f32⟩ : BufTy).Contents (Elt F) → (⟨S128, .f32⟩ : BufTy).Contents (Elt F)),
    nullary main_cst_7 (constant S_ .f32 0x3F800000#32),
    unary main_cst_7 main_v35 (broadcastInDim S128 ![] bcast_S_S128 : (⟨S_, .f32⟩ : BufTy).Contents (Elt F) → (⟨S128, .f32⟩ : BufTy).Contents (Elt F)),
    binary main_v35 main_v33 main_v36 (subf : (⟨S128, .f32⟩ : BufTy).Contents (Elt F) → (⟨S128, .f32⟩ : BufTy).Contents (Elt F) → (⟨S128, .f32⟩ : BufTy).Contents (Elt F)),
    binary main_v36 main_arg1 main_v37 (mulf : (⟨S128, .f32⟩ : BufTy).Contents (Elt F) → (⟨S128, .f32⟩ : BufTy).Contents (Elt F) → (⟨S128, .f32⟩ : BufTy).Contents (Elt F)),
    binary main_v34 main_v37 main_v38 (addf : (⟨S128, .f32⟩ : BufTy).Contents (Elt F) → (⟨S128, .f32⟩ : BufTy).Contents (Elt F) → (⟨S128, .f32⟩ : BufTy).Contents (Elt F)),
    unary main_v33 main_v39 (broadcastInDim S128x1 ![0] bcast_S128_S128x1_0 : (⟨S128, .f32⟩ : BufTy).Contents (Elt F) → (⟨S128x1, .f32⟩ : BufTy).Contents (Elt F)),
    unary main_v39 main_v40 (broadcastInDim S128x5 ![0, 1] bcast_S128x1_S128x5_0_1 : (⟨S128x1, .f32⟩ : BufTy).Contents (Elt F) → (⟨S128x5, .f32⟩ : BufTy).Contents (Elt F)),
    binary main_v40 main_arg3 main_v41 (mulf : (⟨S128x5, .f32⟩ : BufTy).Contents (Elt F) → (⟨S128x5, .f32⟩ : BufTy).Contents (Elt F) → (⟨S128x5, .f32⟩ : BufTy).Contents (Elt F)),
    nullary main_cst_8 (constant S_ .f32 0x3F800000#32),
    unary main_cst_8 main_v42 (broadcastInDim S128 ![] bcast_S_S128 : (⟨S_, .f32⟩ : BufTy).Contents (Elt F) → (⟨S128, .f32⟩ : BufTy).Contents (Elt F)),
    binary main_v42 main_v33 main_v43 (subf : (⟨S128, .f32⟩ : BufTy).Contents (Elt F) → (⟨S128, .f32⟩ : BufTy).Contents (Elt F) → (⟨S128, .f32⟩ : BufTy).Contents (Elt F)),
    unary main_v43 main_v44 (broadcastInDim S128x1 ![0] bcast_S128_S128x1_0 : (⟨S128, .f32⟩ : BufTy).Contents (Elt F) → (⟨S128x1, .f32⟩ : BufTy).Contents (Elt F)),
    unary main_v44 main_v45 (broadcastInDim S128x5 ![0, 1] bcast_S128x1_S128x5_0_1 : (⟨S128x1, .f32⟩ : BufTy).Contents (Elt F) → (⟨S128x5, .f32⟩ : BufTy).Contents (Elt F)),
    binary main_v45 main_arg4 main_v46 (mulf : (⟨S128x5, .f32⟩ : BufTy).Contents (Elt F) → (⟨S128x5, .f32⟩ : BufTy).Contents (Elt F) → (⟨S128x5, .f32⟩ : BufTy).Contents (Elt F)),
    binary main_v41 main_v46 main_v47 (addf : (⟨S128x5, .f32⟩ : BufTy).Contents (Elt F) → (⟨S128x5, .f32⟩ : BufTy).Contents (Elt F) → (⟨S128x5, .f32⟩ : BufTy).Contents (Elt F)),
    unary main_v38 main_v48 (broadcastInDim S128x1 ![0] bcast_S128_S128x1_0 : (⟨S128, .f32⟩ : BufTy).Contents (Elt F) → (⟨S128x1, .f32⟩ : BufTy).Contents (Elt F)),
    nullary main_cst_9 (constant S_ .f32 0x3F000000#32),
    unary main_cst_9 main_v49 (broadcastInDim S128x1 ![] bcast_S_S128x1 : (⟨S_, .f32⟩ : BufTy).Contents (Elt F) → (⟨S128x1, .f32⟩ : BufTy).Contents (Elt F)),
    binary main_v49 main_v48 main_v50 (subf : (⟨S128x1, .f32⟩ : BufTy).Contents (Elt F) → (⟨S128x1, .f32⟩ : BufTy).Contents (Elt F) → (⟨S128x1, .f32⟩ : BufTy).Contents (Elt F)),
    unary main_v50 main_v51 (broadcastInDim S128x5 ![0, 1] bcast_S128x1_S128x5_0_1 : (⟨S128x1, .f32⟩ : BufTy).Contents (Elt F) → (⟨S128x5, .f32⟩ : BufTy).Contents (Elt F)),
    binary main_v51 main_v47 main_v52 (addf : (⟨S128x5, .f32⟩ : BufTy).Contents (Elt F) → (⟨S128x5, .f32⟩ : BufTy).Contents (Elt F) → (⟨S128x5, .f32⟩ : BufTy).Contents (Elt F)),
    TRef.nullary main_call1.cst (constant S_ .f32 0x00000000#32),
    TRef.unary main_call1.cst main_call1.v0 (broadcastInDim S128x5 ![] bcast_S_S128x5),
    TRef.binary (.of main_v52 : TRef sig ⟨S128x5, .f32⟩) main_call1.v0 main_call1.v1 maximumf,
    nullary main_cst_10 (constant S_ .f32 0x00000000#32),
    binary main_v53 main_cst_10 main_v54 ((fun x v => Host.reduceAdd x v reducesTo_S128x5_S_d0_1 h_S_) : (⟨S128x5, .f32⟩ : BufTy).Contents (Elt F) → (⟨S_, .f32⟩ : BufTy).Contents (Elt F) → (⟨S_, .f32⟩ : BufTy).Contents (Elt F)),
    nullary main_cst_11 (constant S_ .f32 0x44200000#32),
    binary main_v54 main_cst_11 main_v55 (Host.divf : (⟨S_, .f32⟩ : BufTy).Contents (Elt F) → (⟨S_, .f32⟩ : BufTy).Contents (Elt F) → (⟨S_, .f32⟩ : BufTy).Contents (Elt F)) ]

-- the chain has ninety-four steps
set_option maxRecDepth 8192 in
set_option maxHeartbeats 4000000 in
/-- @main is that straight line: its two windows and the functions' definitions unfolded at their calls, both sides
    are one chain of host steps once sequencing is re-associated. -/
theorem main_eq (c : Dev nD) : main (F := F) c = seq ops := by
  simp only [main, main_part0, main_part1, fn_std.body, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., nary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., reshape_bufs_sub .., binary_bufs_sub ..,
    nullary_bufs_sub .., unary_bufs_sub .., binary_bufs_sub .., binary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    nullary_bufs_sub .., binary_bufs_sub .., nullary_bufs_sub .., binary_bufs_sub ..⟩

/-- Every buffer after the run, on every device: the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

theorem main_arg0_eq (V : Valuation τ sig (Elt F)) : after (ops (F := F)) V (Proc.devRef .tc main_arg0) = V (Proc.devRef .tc main_arg0) := by
  after_results_simp
theorem main_arg1_eq (V : Valuation τ sig (Elt F)) : after (ops (F := F)) V (Proc.devRef .tc main_arg1) = V (Proc.devRef .tc main_arg1) := by
  after_results_simp
theorem main_arg2_eq (V : Valuation τ sig (Elt F)) : after (ops (F := F)) V (Proc.devRef .tc main_arg2) = V (Proc.devRef .tc main_arg2) := by
  after_results_simp
theorem main_arg3_eq (V : Valuation τ sig (Elt F)) : after (ops (F := F)) V (Proc.devRef .tc main_arg3) = V (Proc.devRef .tc main_arg3) := by
  after_results_simp
theorem main_arg4_eq (V : Valuation τ sig (Elt F)) : after (ops (F := F)) V (Proc.devRef .tc main_arg4) = V (Proc.devRef .tc main_arg4) := by
  after_results_simp
theorem main_arg5_eq (V : Valuation τ sig (Elt F)) : after (ops (F := F)) V (Proc.devRef .tc main_arg5) = V (Proc.devRef .tc main_arg5) := by
  after_results_simp
theorem main_arg6_eq (V : Valuation τ sig (Elt F)) : after (ops (F := F)) V (Proc.devRef .tc main_arg6) = V (Proc.devRef .tc main_arg6) := by
  after_results_simp
theorem main_arg7_eq (V : Valuation τ sig (Elt F)) : after (ops (F := F)) V (Proc.devRef .tc main_arg7) = V (Proc.devRef .tc main_arg7) := by
  after_results_simp
theorem main_arg8_eq (V : Valuation τ sig (Elt F)) : after (ops (F := F)) V (Proc.devRef .tc main_arg8) = V (Proc.devRef .tc main_arg8) := by
  after_results_simp
theorem main_arg9_eq (V : Valuation τ sig (Elt F)) : after (ops (F := F)) V (Proc.devRef .tc main_arg9) = V (Proc.devRef .tc main_arg9) := by
  after_results_simp
theorem main_arg10_eq (V : Valuation τ sig (Elt F)) : after (ops (F := F)) V (Proc.devRef .tc main_arg10) = V (Proc.devRef .tc main_arg10) := by
  after_results_simp

/-- On every device, for any float values, from any memory with zero counters: every weakly fair execution of @main
    terminates with the result at the operations' composed value of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = after ops (launchContents m c) (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v55,
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _)⟩)
    (run_all m ρ)

/-- The reference runs to the end, faulting nowhere, and leaves its eleven arguments as they were. -/
theorem frame_ri : Cert.frame_ReferenceIdeal := fun m g _ =>
  (θ_run defs _ _).mono (fun _ h c => (h c).2) (run (F := Ideal) m g)

end Cert.ReferenceIdeal.Hand

end
-- ==== Proof.RefSplit.lean ====
/-
  The reference's straight line cut in two: the first forty-seven operations end with the spread of the gathered
  embeddings and the gathered row means in their buffers; the last forty-seven read those two buffers and eight of
  the arguments and end with the scalar loss. The contents after the whole line are those after the second part
  from the contents after the first.
-/
import proofs.«163166_j5368709120527_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first forty-seven operations: the wrapped indices, the gathered embeddings, their unbiased standard deviation
    over the middle axis, the row means and their gather. -/
abbrev opsA : List (HloOp τ sig (Elt F)) :=
  [ nullary main_c (constantI S_ 32 0#32),
    unary main_c main_v0 (broadcastInDim S128x1000 ![] bcast_S_S128x1000 : (⟨S_, .i32⟩ : BufTy).Contents (Elt F) → (⟨S128x1000, .i32⟩ : BufTy).Contents (Elt F)),
    binary main_arg2 main_v0 main_v1 (cmpi .slt : (⟨S128x1000, .i32⟩ : BufTy).Contents (Elt F) → (⟨S128x1000, .i32⟩ : BufTy).Contents (Elt F) → (⟨S128x1000, .i1⟩ : BufTy).Contents (Elt F)),
    nullary main_c_0 (constantI S_ 32 14541#32),
    unary main_c_0 main_v2 (broadcastInDim S128x1000 ![] bcast_S_S128x1000 : (⟨S_, .i32⟩ : BufTy).Contents (Elt F) → (⟨S128x1000, .i32⟩ : BufTy).Contents (Elt F)),
    binary main_arg2 main_v2 main_v3 (addi : (⟨S128x1000, .i32⟩ : BufTy).Contents (Elt F) → (⟨S128x1000, .i32⟩ : BufTy).Contents (Elt F) → (⟨S128x1000, .i32⟩ : BufTy).Contents (Elt F)),
    ternary main_v1 main_v3 main_arg2 main_v4 (select : (⟨S128x1000, .i1⟩ : BufTy).Contents (Elt F) → (⟨S128x1000, .i32⟩ : BufTy).Contents (Elt F) → (⟨S128x1000, .i32⟩ : BufTy).Contents (Elt F) → (⟨S128x1000, .i32⟩ : BufTy).Contents (Elt F)),
    unary main_v4 main_v5 (broadcastInDim S128x1000x1 ![0, 1] bcast_S128x1000_S128x1000x1_0_1 : (⟨S128x1000, .i32⟩ : BufTy).Contents (Elt F) → (⟨S128x1000x1, .i32⟩ : BufTy).Contents (Elt F)),
    binary main_arg7 main_v5 main_v6 ((fun x i => Host.gather gather_S14541x768_S128x1000x1_S128x1000x768_2_0_n_n_0_2_1768 x i) : (⟨S14541x768, .f32⟩ : BufTy).Contents (Elt F) → (⟨S128x1000x1, .i32⟩ : BufTy).Contents (Elt F) → (⟨S128x1000x768, .f32⟩ : BufTy).Contents (Elt F)),
    nullary main_c_1 (constantI S_ 32 1#32),
    TRef.nullary main_call0.call0.cst (constant S_ .f32 0x00000000#32),
    TRef.binary (.of main_v6 : TRef sig ⟨S128x1000x768, .f32⟩) main_call0.call0.cst main_call0.call0.v0 (fun x v => Host.reduceAdd x v reducesTo_S128x1000x768_S128x768_d1 h_S_),
    TRef.unary main_call0.call0.v0 main_call0.call0.v1 (broadcastInDim S128x1x768 ![0, 2] bcast_S128x768_S128x1x768_0_2),
    TRef.nullary main_call0.call0.cst_0 (constant S_ .f32 0x447A0000#32),
    TRef.unary main_call0.call0.cst_0 main_call0.call0.v2 (broadcastInDim S128x1x768 ![] bcast_S_S128x1x768),
    TRef.binary main_call0.call0.v1 main_call0.call0.v2 main_call0.call0.v3 Host.divf,
    TRef.unary main_call0.call0.v3 main_call0.call0.v4 (broadcastInDim S128x1000x768 ![0, 1, 2] bcast_S128x1x768_S128x1000x768_0_1_2),
    TRef.binary (.of main_v6 : TRef sig ⟨S128x1000x768, .f32⟩) main_call0.call0.v4 main_call0.call0.v5 subf,
    TRef.binary main_call0.call0.v5 main_call0.call0.v5 main_call0.call0.v6 mulf,
    TRef.unary (.of main_c_1 : TRef sig ⟨S_, .i32⟩) main_call0.call0.v7 (sitofp .f32),
    TRef.nullary main_call0.call0.cst_1 (constant S_ .f32 0x447A0000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S128x1000x768_S128x768_d1 h_S_),
    TRef.unary main_call0.call0.v8 main_call0.call0.v10 (broadcastInDim S128x768 ![] bcast_S_S128x768),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S128x768 ![] bcast_S_S128x768),
    TRef.ternary main_call0.call0.v12 main_call0.call0.v11 main_call0.call0.call0.v1 main_call0.call0.call0.v2 (fun p a b => select (broadcastInDim S128x768 ![] bcast_S_S128x768 p) a b),
    TRef.unary main_call0.call0.call0.v2 main_call0.v1 Host.sqrt,
    nullary main_cst (constant S_ .f32 0x00000000#32),
    binary main_arg8 main_cst main_v8 ((fun x v => Host.reduceAdd x v reducesTo_S14541x14541_S14541_d1 h_S_) : (⟨S14541x14541, .f32⟩ : BufTy).Contents (Elt F) → (⟨S_, .f32⟩ : BufTy).Contents (Elt F) → (⟨S14541, .f32⟩ : BufTy).Contents (Elt F)),
    nullary main_cst_2 (constant S_ .f32 0x46633400#32),
    unary main_cst_2 main_v9 (broadcastInDim S14541 ![] bcast_S_S14541 : (⟨S_, .f32⟩ : BufTy).Contents (Elt F) → (⟨S14541, .f32⟩ : BufTy).Contents (Elt F)),
    binary main_v8 main_v9 main_v10 (Host.divf : (⟨S14541, .f32⟩ : BufTy).Contents (Elt F) → (⟨S14541, .f32⟩ : BufTy).Contents (Elt F) → (⟨S14541, .f32⟩ : BufTy).Contents (Elt F)),
    nullary main_c_3 (constantI S_ 32 0#32),
    unary main_c_3 main_v11 (broadcastInDim S128x1000 ![] bcast_S_S128x1000 : (⟨S_, .i32⟩ : BufTy).Contents (Elt F) → (⟨S128x1000, .i32⟩ : BufTy).Contents (Elt F)),
    binary main_arg2 main_v11 main_v12 (cmpi .slt : (⟨S128x1000, .i32⟩ : BufTy).Contents (Elt F) → (⟨S128x1000, .i32⟩ : BufTy).Contents (Elt F) → (⟨S128x1000, .i1⟩ : BufTy).Contents (Elt F)),
    nullary main_c_4 (constantI S_ 32 14541#32),
    unary main_c_4 main_v13 (broadcastInDim S128x1000 ![] bcast_S_S128x1000 : (⟨S_, .i32⟩ : BufTy).Contents (Elt F) → (⟨S128x1000, .i32⟩ : BufTy).Contents (Elt F)),
    binary main_arg2 main_v13 main_v14 (addi : (⟨S128x1000, .i32⟩ : BufTy).Contents (Elt F) → (⟨S128x1000, .i32⟩ : BufTy).Contents (Elt F) → (⟨S128x1000, .i32⟩ : BufTy).Contents (Elt F)),
    ternary main_v12 main_v14 main_arg2 main_v15 (select : (⟨S128x1000, .i1⟩ : BufTy).Contents (Elt F) → (⟨S128x1000, .i32⟩ : BufTy).Contents (Elt F) → (⟨S128x1000, .i32⟩ : BufTy).Contents (Elt F) → (⟨S128x1000, .i32⟩ : BufTy).Contents (Elt F)),
    unary main_v15 main_v16 (broadcastInDim S128x1000x1 ![0, 1] bcast_S128x1000_S128x1000x1_0_1 : (⟨S128x1000, .i32⟩ : BufTy).Contents (Elt F) → (⟨S128x1000x1, .i32⟩ : BufTy).Contents (Elt F)),
    binary main_v10 main_v16 main_v17 ((fun x i => Host.gather gather_S14541_S128x1000x1_S128x1000_n_0_n_n_0_2_1 x i) : (⟨S14541, .f32⟩ : BufTy).Contents (Elt F) → (⟨S128x1000x1, .i32⟩ : BufTy).Contents (Elt F) → (⟨S128x1000, .f32⟩ : BufTy).Contents (Elt F)) ]

/-- The last forty-seven operations: the features, the gate, the mixed scores, the hinge terms and their mean. -/
abbrev opsB : List (HloOp τ sig (Elt F)) :=
  [ binary main_arg6 main_arg5 main_v18 (subf : (⟨S128x1000, .f32⟩ : BufTy).Contents (Elt F) → (⟨S128x1000, .f32⟩ : BufTy).Contents (Elt F) → (⟨S128x1000, .f32⟩ : BufTy).Contents (Elt F)),
    unary main_v18 main_v19 (Host.absf : (⟨S128x1000, .f32⟩ : BufTy).Contents (Elt F) → (⟨S128x1000, .f32⟩ : BufTy).Contents (Elt F)),
    binary main_arg5 main_arg6 main_v20 (addf : (⟨S128x1000, .f32⟩ : BufTy).Contents (Elt F) → (⟨S128x1000, .f32⟩ : BufTy).Contents (Elt F) → (⟨S128x1000, .f32⟩ : BufTy).Contents (Elt F)),
    nary ![main_v7, main_v17, main_v19, main_v20, main_arg5, main_arg6] main_v21 (fun u => concatenate S128x5768 1 [⟨S128x768, u 0⟩, ⟨S128x1000, u 1⟩, ⟨S128x1000, u 2⟩, ⟨S128x1000, u 3⟩, ⟨S128x1000, u 4⟩, ⟨S128x1000, u 5⟩] concatenates_S128x768_S128x1000_S128x1000_S128x1000_S128x1000_S128x1000_S128x5768_d1),
    unary main_arg9 main_v22 ((transpose S5768x1 [1, 0] · transposes_S1x5768_S5768x1_1_0) : (⟨S1x5768, .f32⟩ : BufTy).Contents (Elt F) → (⟨S5768x1, .f32⟩ : BufTy).Contents (Elt F)),
    binary main_v21 main_v22 main_v23 ((fun l r => Host.dotGeneral dot_S128x5768_S5768x1_S128x1_1_0_0_1_n_n none l r) : (⟨S128x5768, .f32⟩ : BufTy).Contents (Elt F) → (⟨S5768x1, .f32⟩ : BufTy).Contents (Elt F) → (⟨S128x1, .f32⟩ : BufTy).Contents (Elt F)),
    unary main_arg10 main_v24 (broadcastInDim S1x1 ![1] bcast_S1_S1x1_1 : (⟨S1, .f32⟩ : BufTy).Contents (Elt F) → (⟨S1x1, .f32⟩ : BufTy).Contents (Elt F)),
    unary main_v24 main_v25 (broadcastInDim S128x1 ![0, 1] bcast_S1x1_S128x1_0_1 : (⟨S1x1, .f32⟩ : BufTy).Contents (Elt F) → (⟨S128x1, .f32⟩ : BufTy).Contents (Elt F)),
    binary main_v23 main_v25 main_v26 (addf : (⟨S128x1, .f32⟩ : BufTy).Contents (Elt F) → (⟨S128x1, .f32⟩ : BufTy).Contents (Elt F) → (⟨S128x1, .f32⟩ : BufTy).Contents (Elt F)),
    unary main_v26 main_v27 (Host.negf : (⟨S128x1, .f32⟩ : BufTy).Contents (Elt F) → (⟨S128x1, .f32⟩ : BufTy).Contents (Elt F)),
    unary main_v27 main_v28 (Host.exp : (⟨S128x1, .f32⟩ : BufTy).Contents (Elt F) → (⟨S128x1, .f32⟩ : BufTy).Contents (Elt F)),
    nullary main_cst_5 (constant S_ .f32 0x3F800000#32),
    unary main_cst_5 main_v29 (broadcastInDim S128x1 ![] bcast_S_S128x1 : (⟨S_, .f32⟩ : BufTy).Contents (Elt F) → (⟨S128x1, .f32⟩ : BufTy).Contents (Elt F)),
    binary main_v29 main_v28 main_v30 (addf : (⟨S128x1, .f32⟩ : BufTy).Contents (Elt F) → (⟨S128x1, .f32⟩ : BufTy).Contents (Elt F) → (⟨S128x1, .f32⟩ : BufTy).Contents (Elt F)),
    nullary main_cst_6 (constant S_ .f32 0x3F800000#32),
    unary main_cst_6 main_v31 (broadcastInDim S128x1 ![] bcast_S_S128x1 : (⟨S_, .f32⟩ : BufTy).Contents (Elt F) → (⟨S128x1, .f32⟩ : BufTy).Contents (Elt F)),
    binary main_v31 main_v30 main_v32 (Host.divf : (⟨S128x1, .f32⟩ : BufTy).Contents (Elt F) → (⟨S128x1, .f32⟩ : BufTy).Contents (Elt F) → (⟨S128x1, .f32⟩ : BufTy).Contents (Elt F)),
    reshape main_v32 main_v33 rfl shapeCasts_S128x1_S128,
    binary main_v33 main_arg0 main_v34 (mulf : (⟨S128, .f32⟩ : BufTy).Contents (Elt F) → (⟨S128, .f32⟩ : BufTy).Contents (Elt F) → (⟨S128, .f32⟩ : BufTy).Contents (Elt F)),
    nullary main_cst_7 (constant S_ .f32 0x3F800000#32),
    unary main_cst_7 main_v35 (broadcastInDim S128 ![] bcast_S_S128 : (⟨S_, .f32⟩ : BufTy).Contents (Elt F) → (⟨S128, .f32⟩ : BufTy).Contents (Elt F)),
    binary main_v35 main_v33 main_v36 (subf : (⟨S128, .f32⟩ : BufTy).Contents (Elt F) → (⟨S128, .f32⟩ : BufTy).Contents (Elt F) → (⟨S128, .f32⟩ : BufTy).Contents (Elt F)),
    binary main_v36 main_arg1 main_v37 (mulf : (⟨S128, .f32⟩ : BufTy).Contents (Elt F) → (⟨S128, .f32⟩ : BufTy).Contents (Elt F) → (⟨S128, .f32⟩ : BufTy).Contents (Elt F)),
    binary main_v34 main_v37 main_v38 (addf : (⟨S128, .f32⟩ : BufTy).Contents (Elt F) → (⟨S128, .f32⟩ : BufTy).Contents (Elt F) → (⟨S128, .f32⟩ : BufTy).Contents (Elt F)),
    unary main_v33 main_v39 (broadcastInDim S128x1 ![0] bcast_S128_S128x1_0 : (⟨S128, .f32⟩ : BufTy).Contents (Elt F) → (⟨S128x1, .f32⟩ : BufTy).Contents (Elt F)),
    unary main_v39 main_v40 (broadcastInDim S128x5 ![0, 1] bcast_S128x1_S128x5_0_1 : (⟨S128x1, .f32⟩ : BufTy).Contents (Elt F) → (⟨S128x5, .f32⟩ : BufTy).Contents (Elt F)),
    binary main_v40 main_arg3 main_v41 (mulf : (⟨S128x5, .f32⟩ : BufTy).Contents (Elt F) → (⟨S128x5, .f32⟩ : BufTy).Contents (Elt F) → (⟨S128x5, .f32⟩ : BufTy).Contents (Elt F)),
    nullary main_cst_8 (constant S_ .f32 0x3F800000#32),
    unary main_cst_8 main_v42 (broadcastInDim S128 ![] bcast_S_S128 : (⟨S_, .f32⟩ : BufTy).Contents (Elt F) → (⟨S128, .f32⟩ : BufTy).Contents (Elt F)),
    binary main_v42 main_v33 main_v43 (subf : (⟨S128, .f32⟩ : BufTy).Contents (Elt F) → (⟨S128, .f32⟩ : BufTy).Contents (Elt F) → (⟨S128, .f32⟩ : BufTy).Contents (Elt F)),
    unary main_v43 main_v44 (broadcastInDim S128x1 ![0] bcast_S128_S128x1_0 : (⟨S128, .f32⟩ : BufTy).Contents (Elt F) → (⟨S128x1, .f32⟩ : BufTy).Contents (Elt F)),
    unary main_v44 main_v45 (broadcastInDim S128x5 ![0, 1] bcast_S128x1_S128x5_0_1 : (⟨S128x1, .f32⟩ : BufTy).Contents (Elt F) → (⟨S128x5, .f32⟩ : BufTy).Contents (Elt F)),
    binary main_v45 main_arg4 main_v46 (mulf : (⟨S128x5, .f32⟩ : BufTy).Contents (Elt F) → (⟨S128x5, .f32⟩ : BufTy).Contents (Elt F) → (⟨S128x5, .f32⟩ : BufTy).Contents (Elt F)),
    binary main_v41 main_v46 main_v47 (addf : (⟨S128x5, .f32⟩ : BufTy).Contents (Elt F) → (⟨S128x5, .f32⟩ : BufTy).Contents (Elt F) → (⟨S128x5, .f32⟩ : BufTy).Contents (Elt F)),
    unary main_v38 main_v48 (broadcastInDim S128x1 ![0] bcast_S128_S128x1_0 : (⟨S128, .f32⟩ : BufTy).Contents (Elt F) → (⟨S128x1, .f32⟩ : BufTy).Contents (Elt F)),
    nullary main_cst_9 (constant S_ .f32 0x3F000000#32),
    unary main_cst_9 main_v49 (broadcastInDim S128x1 ![] bcast_S_S128x1 : (⟨S_, .f32⟩ : BufTy).Contents (Elt F) → (⟨S128x1, .f32⟩ : BufTy).Contents (Elt F)),
    binary main_v49 main_v48 main_v50 (subf : (⟨S128x1, .f32⟩ : BufTy).Contents (Elt F) → (⟨S128x1, .f32⟩ : BufTy).Contents (Elt F) → (⟨S128x1, .f32⟩ : BufTy).Contents (Elt F)),
    unary main_v50 main_v51 (broadcastInDim S128x5 ![0, 1] bcast_S128x1_S128x5_0_1 : (⟨S128x1, .f32⟩ : BufTy).Contents (Elt F) → (⟨S128x5, .f32⟩ : BufTy).Contents (Elt F)),
    binary main_v51 main_v47 main_v52 (addf : (⟨S128x5, .f32⟩ : BufTy).Contents (Elt F) → (⟨S128x5, .f32⟩ : BufTy).Contents (Elt F) → (⟨S128x5, .f32⟩ : BufTy).Contents (Elt F)),
    TRef.nullary main_call1.cst (constant S_ .f32 0x00000000#32),
    TRef.unary main_call1.cst main_call1.v0 (broadcastInDim S128x5 ![] bcast_S_S128x5),
    TRef.binary (.of main_v52 : TRef sig ⟨S128x5, .f32⟩) main_call1.v0 main_call1.v1 maximumf,
    nullary main_cst_10 (constant S_ .f32 0x00000000#32),
    binary main_v53 main_cst_10 main_v54 ((fun x v => Host.reduceAdd x v reducesTo_S128x5_S_d0_1 h_S_) : (⟨S128x5, .f32⟩ : BufTy).Contents (Elt F) → (⟨S_, .f32⟩ : BufTy).Contents (Elt F) → (⟨S_, .f32⟩ : BufTy).Contents (Elt F)),
    nullary main_cst_11 (constant S_ .f32 0x44200000#32),
    binary main_v54 main_cst_11 main_v55 (Host.divf : (⟨S_, .f32⟩ : BufTy).Contents (Elt F) → (⟨S_, .f32⟩ : BufTy).Contents (Elt F) → (⟨S_, .f32⟩ : BufTy).Contents (Elt F)) ]

/-- The line is its two parts one after the other. -/
theorem ops_eq : (ops : List (HloOp τ sig (Elt F))) = opsA ++ opsB := rfl

/-- The contents after the whole line: those after the second part, from those after the first. -/
theorem after_ops (V : Valuation τ sig (Elt F)) : after (ops (F := F)) V = after opsB (after opsA V) := rfl

end Cert.ReferenceIdeal.Hand

end
-- ==== Proof.RefStd.lean ====
/-
  The first part of the reference's line leaves, in the spread buffer, the unbiased standard deviation over the middle
  axis of the gathered embeddings, in the centred form: with mean = (0 + sum x) / 1000 over a column x of 1000 entries and
  normaliser 1000 - 1, the square root of (0 + sum (x - mean) * (x - mean)) / normaliser where the normaliser is positive.
  First the operations are collected as one function of the gathered array; then that function is read at an index:
  a sum over the middle axis is a sum over its 1000 coordinates, a broadcast along it reads the one mean of the column.
-/
import proofs.«163166_j5368709120527_1_alg».proof.Proof.RefSplit
import proofs.«163166_j5368709120527_1_alg».proof.Proof.SpecStd
import proofs.«163166_j5368709120527_1_alg».proof.Proof.SpecTail
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The column means, one per (sample, feature), kept with a unit middle axis: (0 + the sum over the middle axis) / 1000. -/
def meanOps (e : FVec Ideal S128x1000x768 .f32) : FVec Ideal S128x1x768 .f32 :=
  Host.divf
    (broadcastInDim S128x1x768 ![0, 2] bcast_S128x768_S128x1x768_0_2
      (Host.reduceAdd e (constant (F := Ideal) S_ .f32 0x00000000#32) reducesTo_S128x1000x768_S128x768_d1 h_S_))
    (broadcastInDim S128x1x768 ![] bcast_S_S128x1x768 (constant (F := Ideal) S_ .f32 0x447A0000#32))

/-- The centred entries: each entry minus its column's mean. -/
def devOps (e : FVec Ideal S128x1000x768 .f32) : FVec Ideal S128x1000x768 .f32 :=
  subf e (broadcastInDim S128x1000x768 ![0, 1, 2] bcast_S128x1x768_S128x1000x768_0_1_2 (meanOps e))

/-- The normaliser: 1000 minus the integer one converted. -/
def denOps : FVec Ideal S_ .f32 :=
  subf (constant (F := Ideal) S_ .f32 0x447A0000#32) (sitofp .f32 (constantI S_ 32 1#32))

/-- The reference's operations from the gathered array to the spread, in order. -/
def stdOps (e : FVec Ideal S128x1000x768 .f32) : FVec Ideal S128x768 .f32 :=
  Host.sqrt
    (select
      (broadcastInDim S128x768 ![] bcast_S_S128x768 (cmpf .ogt denOps (constant (F := Ideal) S_ .f32 0x00000000#32)))
      (Host.divf
        (Host.reduceAdd (mulf (devOps e) (devOps e)) (constant (F := Ideal) S_ .f32 0x00000000#32)
          reducesTo_S128x1000x768_S128x768_d1 h_S_)
        (broadcastInDim S128x768 ![] bcast_S_S128x768 denOps))
      (broadcastInDim S128x768 ![] bcast_S_S128x768 (id (constant (F := Ideal) S_ .f32 0x7FC00000#32))))

set_option maxRecDepth 8192 in
set_option maxHeartbeats 4000000 in
/-- From any contents, the spread buffer after the first part holds those operations of the gathered embeddings. -/
theorem std_ops (V : Valuation τ sig (Elt Ideal)) :
    after (opsA (F := Ideal)) V (Proc.devRef .tc main_v7)
      = stdOps (Cert.Spec.emb (V (Proc.devRef .tc main_arg7)) (V (Proc.devRef .tc main_arg2))) := by
  simp (disch := decide) only [after_cons, after_nil, nullary_result', unary_result', binary_result', ternary_result', reshape_result', nullary_result_ne', unary_result_ne', binary_result_ne', ternary_result_ne', reshape_result_ne', nary_result_ne']
  rfl

/-! ## The operations read at an index -/

/-- The gathered array's shape reduces over its middle axis to the spread's shape. -/
theorem red_mid : S128x1000x768.Reduces [1] S128x768 := by decide

/-- Column (b, d) with the middle coordinate k inserted is the index (b, k, d). -/
theorem lift_mid (b : Fin 128) (d : Fin 768) (k : Fin 1000) : red_mid.lift (ix2 b d) k = ix3 b k d := by
  funext a
  apply Fin.ext
  match a with
  | ⟨0, _⟩ => rfl
  | ⟨1, _⟩ => rfl
  | ⟨2, _⟩ => rfl

/-- The host's sum over the middle axis from the zero word, at (b, d): the zero word plus the sum of the column's
    1000 entries. -/
theorem reduce_mid_apply (x : FVec Ideal S128x1000x768 .f32) (b : Fin 128) (d : Fin 768) :
    Host.reduceAdd x (constant (F := Ideal) S_ .f32 0x00000000#32) reducesTo_S128x1000x768_S128x768_d1 h_S_ (ix2 b d)
      = Cert.Spec.zW + ∑ k : Fin 1000, x (ix3 b k d) := by
  rw [hostReduceAdd_apply, Ideal.hostReduceAdd_single _ red_mid]
  show Cert.Spec.zW + ∑ k : Fin 1000, x (red_mid.lift (ix2 b d) k) = _
  simp only [lift_mid]

/-- The column mean at (b, ·, d). -/
theorem meanOps_apply (e : FVec Ideal S128x1000x768 .f32) (b : Fin 128) (z : Fin 1) (d : Fin 768) :
    meanOps e (ix3 b z d) = Ideal.div (Cert.Spec.zW + ∑ k : Fin 1000, e (ix3 b k d)) Cert.Spec.c1000 := by
  unfold meanOps
  rw [hostDivf_apply, broadcastInDim_apply _ _ _ (ix3 b z d) (ix2 b d)
    (fun a => by match a with | ⟨0, _⟩ => rfl | ⟨1, _⟩ => rfl), reduce_mid_apply]
  rfl

/-- A centred entry at (b, k, d): the entry minus its column's mean. -/
theorem devOps_apply (e : FVec Ideal S128x1000x768 .f32) (b : Fin 128) (k : Fin 1000) (d : Fin 768) :
    devOps e (ix3 b k d)
      = e (ix3 b k d) - Ideal.div (Cert.Spec.zW + ∑ k : Fin 1000, e (ix3 b k d)) Cert.Spec.c1000 := by
  unfold devOps
  rw [subf_apply, broadcastInDim_apply _ _ _ (ix3 b k d) (ix3 b (0 : Fin 1) d)
    (fun a => by match a with | ⟨0, _⟩ => rfl | ⟨1, _⟩ => rfl | ⟨2, _⟩ => rfl), meanOps_apply]

/-- The operations are the reference's form of the standard deviation, index by index. -/
theorem stdOps_eq (e : FVec Ideal S128x1000x768 .f32) : stdOps e = Cert.Spec.stdR e := by
  funext j
  obtain ⟨b, d, rfl⟩ : ∃ (b : Fin 128) (d : Fin 768), j = ix2 b d := ⟨j 0, j 1, eq_ix2 j⟩
  unfold stdOps Cert.Spec.stdR
  show Ideal.sqrt (if Ideal.cmp .ogt (Cert.Spec.c1000 - Cert.Spec.one32) Cert.Spec.zW = 1#1 then
        Ideal.div (Host.reduceAdd (mulf (devOps e) (devOps e)) (constant (F := Ideal) S_ .f32 0x00000000#32)
          reducesTo_S128x1000x768_S128x768_d1 h_S_ (ix2 b d)) (Cert.Spec.c1000 - Cert.Spec.one32)
      else Cert.Spec.nanW) = _
  rw [reduce_mid_apply]
  simp only [mulf_apply, devOps_apply]
  rfl

/-- From any contents, the spread buffer after the first part holds the standard deviation, in the reference's form,
    of the embeddings gathered through the wrapped indices. -/
theorem std_eq (V : Valuation τ sig (Elt Ideal)) :
    after (opsA (F := Ideal)) V (Proc.devRef .tc main_v7)
      = Cert.Spec.stdR (Cert.Spec.emb (V (Proc.devRef .tc main_arg7)) (V (Proc.devRef .tc main_arg2))) := by
  rw [std_ops, stdOps_eq]

end Cert.ReferenceIdeal.Hand

end
-- ==== Proof.RefSimi.lean ====
/-
  The first part of the reference's line leaves, in the buffer of the gathered row means, the row means of the
  similarity matrix gathered through the wrapped indices. The host's sum of a row starts from the zero word, which is
  the extended real zero, so the row mean is the bare sum of the row's 14541 entries over the word of 14541.
-/
import proofs.«163166_j5368709120527_1_alg».proof.Proof.RefSplit
import proofs.«163166_j5368709120527_1_alg».proof.Proof.SpecRowMean
import proofs.«163166_j5368709120527_1_alg».proof.Proof.SpecTail
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The reference's operations from the similarity matrix to its row means, in order: the sum of each row from the
    zero word, over the word of 14541 broadcast along the rows. -/
def rowMeanOps (a8 : FVec Ideal S14541x14541 .f32) : FVec Ideal S14541 .f32 :=
  Host.divf
    (Host.reduceAdd a8 (constant (F := Ideal) S_ .f32 0x00000000#32) reducesTo_S14541x14541_S14541_d1 h_S_)
    (broadcastInDim S14541 ![] bcast_S_S14541 (constant (F := Ideal) S_ .f32 0x46633400#32))

set_option maxRecDepth 8192 in
set_option maxHeartbeats 4000000 in
/-- From any contents, the buffer of the gathered row means after the first part holds the gather, through the
    wrapped indices, of those operations of the similarity matrix. -/
theorem simi_ops (V : Valuation τ sig (Elt Ideal)) :
    after (opsA (F := Ideal)) V (Proc.devRef .tc main_v17)
      = Cert.Spec.simi (rowMeanOps (V (Proc.devRef .tc main_arg8))) (V (Proc.devRef .tc main_arg2)) := by
  simp (disch := decide) only [after_cons, after_nil, nullary_result', unary_result', binary_result', ternary_result', reshape_result', nullary_result_ne', unary_result_ne', binary_result_ne', ternary_result_ne', reshape_result_ne', nary_result_ne']
  rfl

/-- The matrix's shape reduces over its second axis to the vector of rows. -/
theorem red_row : S14541x14541.Reduces [1] S14541 := by decide

/-- Row i with the column coordinate k inserted is the index (i, k). -/
theorem lift_row (i : Fin 14541) (k : Fin 14541) : red_row.lift (ix1 i) k = ix2 i k := by
  funext a
  apply Fin.ext
  match a with
  | ⟨0, _⟩ => rfl
  | ⟨1, _⟩ => rfl

/-- The operations are the row mean: the zero word the sum starts from is zero. -/
theorem rowMeanOps_eq (a8 : FVec Ideal S14541x14541 .f32) : rowMeanOps a8 = Cert.Spec.rowMean a8 := by
  funext i
  obtain ⟨p, rfl⟩ : ∃ p : Fin 14541, i = ix1 p := ⟨i 0, eq_ix1 i⟩
  unfold rowMeanOps
  rw [hostDivf_apply, hostReduceAdd_apply, Ideal.hostReduceAdd_single _ red_row, Cert.Spec.rowMean_apply]
  show Ideal.div (Ideal.ofBits .f32 0x00000000#32 + ∑ k : Fin 14541, a8 (red_row.lift (ix1 p) k))
      (Ideal.ofBits .f32 0x46633400#32) = _
  rw [Ideal.ofBits_zero_f32, zero_add]
  simp only [lift_row]

/-- From any contents, the buffer of the gathered row means after the first part holds the row means gathered through
    the wrapped indices. -/
theorem simi_eq (V : Valuation τ sig (Elt Ideal)) :
    after (opsA (F := Ideal)) V (Proc.devRef .tc main_v17)
      = Cert.Spec.simi (Cert.Spec.rowMean (V (Proc.devRef .tc main_arg8))) (V (Proc.devRef .tc main_arg2)) := by
  rw [simi_ops, rowMeanOps_eq]

end Cert.ReferenceIdeal.Hand

end
-- ==== Proof.RefTail.lean ====
/-
  The second part of the reference's line is the scalar loss of the two buffers the first part leaves (the spread of
  the gathered embeddings, the gathered row means) and the eight arguments it reads: the operations, in order, are
  the loss's own.
-/
import proofs.«163166_j5368709120527_1_alg».proof.Proof.RefSplit
import proofs.«163166_j5368709120527_1_alg».proof.Proof.SpecTail
import proofs.«163166_j5368709120527_1_alg».proof.Proof.LibNary

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- From any contents, the result buffer after the second part holds the loss of the contents of the spread buffer,
    of the gathered row means and of the eight arguments. -/
theorem tail_eq (W : Valuation τ sig (Elt Ideal)) :
    after (opsB (F := Ideal)) W (Proc.devRef .tc main_v55)
      = Cert.Spec.loss (W (Proc.devRef .tc main_v7)) (W (Proc.devRef .tc main_v17)) (W (Proc.devRef .tc main_arg0)) (W (Proc.devRef .tc main_arg1))
          (W (Proc.devRef .tc main_arg3)) (W (Proc.devRef .tc main_arg4)) (W (Proc.devRef .tc main_arg5)) (W (Proc.devRef .tc main_arg6))
          (W (Proc.devRef .tc main_arg9)) (W (Proc.devRef .tc main_arg10)) := by
  simp (disch := decide) only [after_cons, after_nil, nullary_result', unary_result', binary_result', ternary_result', reshape_result', Cert.LibNary.nary6_result', nullary_result_ne', unary_result_ne', binary_result_ne', ternary_result_ne', reshape_result_ne', nary_result_ne']
  rfl

end Cert.ReferenceIdeal.Hand

end
-- ==== Proof.RefValue.lean ====
/-
  The reference's result as a function of its arguments: the loss of the standard deviation (centred form) of the
  embeddings gathered through the wrapped indices, of the row means gathered through the same indices, and of the
  eight arguments the tail reads. The first part of the line leaves the two arrays and the arguments, the second part
  is the loss of what it finds.
-/
import proofs.«163166_j5368709120527_1_alg».proof.Proof.RefStd
import proofs.«163166_j5368709120527_1_alg».proof.Proof.RefSimi
import proofs.«163166_j5368709120527_1_alg».proof.Proof.RefTail

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first part writes no argument: argument 0 is as it was. -/
theorem main_arg0_A (V : Valuation τ sig (Elt Ideal)) :
    after (opsA (F := Ideal)) V (Proc.devRef .tc main_arg0) = V (Proc.devRef .tc main_arg0) := by
  after_results_simp
/-- The first part writes no argument: argument 1 is as it was. -/
theorem main_arg1_A (V : Valuation τ sig (Elt Ideal)) :
    after (opsA (F := Ideal)) V (Proc.devRef .tc main_arg1) = V (Proc.devRef .tc main_arg1) := by
  after_results_simp
/-- The first part writes no argument: argument 3 is as it was. -/
theorem main_arg3_A (V : Valuation τ sig (Elt Ideal)) :
    after (opsA (F := Ideal)) V (Proc.devRef .tc main_arg3) = V (Proc.devRef .tc main_arg3) := by
  after_results_simp
/-- The first part writes no argument: argument 4 is as it was. -/
theorem main_arg4_A (V : Valuation τ sig (Elt Ideal)) :
    after (opsA (F := Ideal)) V (Proc.devRef .tc main_arg4) = V (Proc.devRef .tc main_arg4) := by
  after_results_simp
/-- The first part writes no argument: argument 5 is as it was. -/
theorem main_arg5_A (V : Valuation τ sig (Elt Ideal)) :
    after (opsA (F := Ideal)) V (Proc.devRef .tc main_arg5) = V (Proc.devRef .tc main_arg5) := by
  after_results_simp
/-- The first part writes no argument: argument 6 is as it was. -/
theorem main_arg6_A (V : Valuation τ sig (Elt Ideal)) :
    after (opsA (F := Ideal)) V (Proc.devRef .tc main_arg6) = V (Proc.devRef .tc main_arg6) := by
  after_results_simp
/-- The first part writes no argument: argument 9 is as it was. -/
theorem main_arg9_A (V : Valuation τ sig (Elt Ideal)) :
    after (opsA (F := Ideal)) V (Proc.devRef .tc main_arg9) = V (Proc.devRef .tc main_arg9) := by
  after_results_simp
/-- The first part writes no argument: argument 10 is as it was. -/
theorem main_arg10_A (V : Valuation τ sig (Elt Ideal)) :
    after (opsA (F := Ideal)) V (Proc.devRef .tc main_arg10) = V (Proc.devRef .tc main_arg10) := by
  after_results_simp

/-- The result buffer after the whole line, from the launch contents of a device. -/
theorem result_eq (m : (ℓ : Loc nD τ sig) → Buf (Elt Ideal) ℓ) (c : Dev nD) :
    after (ops (F := Ideal)) (launchContents m c) (Proc.devRef .tc main_v55)
      = Cert.Spec.loss (Cert.Spec.stdR (Cert.Spec.emb (m ((c.tc : Thread nD τ).loc main_arg7)) (m ((c.tc : Thread nD τ).loc main_arg2))))
          (Cert.Spec.simi (Cert.Spec.rowMean (m ((c.tc : Thread nD τ).loc main_arg8))) (m ((c.tc : Thread nD τ).loc main_arg2)))
          (m ((c.tc : Thread nD τ).loc main_arg0)) (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg9)) (m ((c.tc : Thread nD τ).loc main_arg10)) := by
  rw [after_ops, tail_eq, std_eq, simi_eq, main_arg0_A, main_arg1_A, main_arg3_A, main_arg4_A, main_arg5_A, main_arg6_A, main_arg9_A, main_arg10_A]

/-- Every weakly fair execution of the reference ends with the result buffer at that loss and the eleven arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
        = Cert.Spec.loss (Cert.Spec.stdR (Cert.Spec.emb (m ((c.tc : Thread nD τ).loc main_arg7)) (m ((c.tc : Thread nD τ).loc main_arg2))))
          (Cert.Spec.simi (Cert.Spec.rowMean (m ((c.tc : Thread nD τ).loc main_arg8))) (m ((c.tc : Thread nD τ).loc main_arg2)))
          (m ((c.tc : Thread nD τ).loc main_arg0)) (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (result_eq m c), (h c).2⟩) (run (F := Ideal) m ρ)

end Cert.ReferenceIdeal.Hand

end
-- ==== Proof.Finite.lean ====
/-
  Every entry of the embedding table is a real number.

  The precondition states, among others, that every entry of the embedding table has absolute value below +∞.  On
  the extended reals the absolute value of x is max x (−x), and the pattern 0x7F800000 denotes +∞; an extended real
  whose absolute value is below +∞ is neither +∞ nor −∞, so it is a real.  The precondition is printed as one
  conjunction of eleven "all entries" tests; the test on the embedding table is reached by splitting the conjunction,
  and an "all entries" test that holds, holds at every entry.
-/
import proofs.«163166_j5368709120527_1_alg».proof.Defs
import proofs.«163166_j5368709120527_1_alg».proof.Proof.Gen.Pre_finite_inputs
import Idealize.ShloMosaic.Lib.ReduceAll
import Idealize.ShloMosaic.Lib.ValueIdx

noncomputable section

namespace Cert.Spec

open Idealize.ShloMosaic

/-- The pattern 0x7F800000 denotes +∞. -/
theorem ofBits_inf : Ideal.ofBits .f32 0x7F800000#32 = ⊤ := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

open Cert.Pre_finite_inputs in
/-- If the printed precondition holds of eleven arrays, every entry of the eighth has absolute value below +∞. -/
theorem arg7_test [Cert.Pre_finite_inputs.Facts] (a0 : FVec Ideal S128 .f32) (a1 : FVec Ideal S128 .f32) (a2 : IVec S128x1000 32)
    (a3 : FVec Ideal S128x5 .f32) (a4 : FVec Ideal S128x5 .f32) (a5 : FVec Ideal S128x1000 .f32)
    (a6 : FVec Ideal S128x1000 .f32) (a7 : FVec Ideal S14541x768 .f32) (a8 : FVec Ideal S14541x14541 .f32)
    (a9 : FVec Ideal S1x5768 .f32) (a10 : FVec Ideal S1 .f32)
    (h : Cert.Pre_finite_inputs.fn (F := Ideal) a0 a1 a2 a3 a4 a5 a6 a7 a8 a9 a10 = fun _ => 1#1) (i : S14541x768.Idx) :
    Ideal.cmp .olt (max (a7 i) (-(a7 i))) (Ideal.ofBits .f32 0x7F800000#32) = 1#1 := by
  have h0 := congrFun h ValueIdx.ix0
  dsimp only [Cert.Pre_finite_inputs.fn, Cert.Pre_finite_inputs.fn_part1, Cert.Pre_finite_inputs.fn_part2,
    Idealize.ShloMosaic.andi] at h0
  obtain ⟨⟨⟨⟨_, h7⟩, _⟩, _⟩, _⟩ :
      (((_ ∧ _) ∧ _) ∧ _) ∧ _ := by
    simpa only [IntOp.andi_eq_one] using h0
  exact Host.reduce_andi_all _ _ _ _ _ h7 i

/-- Every entry of the embedding table (the eighth argument) is a real number, on every device. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ,
      m ((c.tc : Thread Cert.KernelIdeal.nD Cert.KernelIdeal.τ).loc Cert.KernelIdeal.main_arg7) i = (r : EReal) :=
  fun i => real_of_abs_lt_inf _ (arg7_test _ _ _ _ _ _ _ _ _ _ _ (h c) i)

end Cert.Spec

end
-- ==== Proof.LibStdLaw.lean ====
/-
  The two textbook forms of the unbiased sample standard deviation agree on the extended reals.

  For real numbers x₁ … xₙ (n > 1), with S = Σ xᵢ:

      √ max( (Σ xᵢ² − S · (S / n)) / (n − 1), 0 )   =   √( Σ (xᵢ − S / n)² / (n − 1) ).

  The left form accumulates a sum and a sum of squares in one pass and clamps the (mathematically non-negative)
  difference at zero before the root; the right form subtracts the mean first.  Over the reals the two radicands are
  equal, because Σ (xᵢ − S/n)² = Σ xᵢ² − S²/n, and the radicand is a sum of squares divided by a positive number, so
  the clamp is the identity.

  The statement here is about EXTENDED reals: every entry is the image of a real, the sums, products, differences and
  the maximum are the extended reals' own, the quotient is the total quotient "Ideal.div" (x · y⁻¹ off zero) and the
  root is "Ideal.sqrt" (the real root on the non-negative reals).  The proof pushes the inclusion of the reals out
  through every operation, so that each side becomes the image of one real number, and then compares those reals.

  Also here: the single-precision patterns 0x447A0000, 0x4479C000 and 0x00000000 denote 1000, 999 and 0; the 32-bit
  integer word 1, converted, is the real 1; and 1000 − 1 = 999, 999 > 0 on the extended reals.
-/
import Mathlib
import Idealize.ShloMosaic.PureOps.Ideal

noncomputable section

open scoped BigOperators

namespace Cert.Lib.StdLaw

open Idealize.ShloMosaic

/-! ## The inclusion of the reals and the operations -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- The maximum of the images of two reals is the image of their maximum. -/
theorem max_coe (a b : ℝ) : max (a : EReal) (b : EReal) = ((max a b : ℝ) : EReal) :=
  (EReal.coe_strictMono.monotone.map_max).symm

/-- A real divided by a nonzero real, with the total quotient of the extended reals, is the real quotient. -/
theorem div_coe_coe (a : ℝ) {r : ℝ} (hr : r ≠ 0) :
    Ideal.div (a : EReal) (r : EReal) = ((a / r : ℝ) : EReal) := by
  rw [Ideal.div_coe hr, ← EReal.coe_mul, mul_one_div]

/-- The root of the image of a non-negative real is the image of its real root. -/
theorem sqrt_coe_of_nonneg {r : ℝ} (hr : 0 ≤ r) : Ideal.sqrt (r : EReal) = ((Real.sqrt r : ℝ) : EReal) := by
  rw [Ideal.sqrt_coe, if_neg (not_lt.mpr hr)]

/-! ## The identity over the reals -/

section Real

variable {ι : Type*} [Fintype ι]

/-- The unbiased sample variance of a finite family of reals, in the form that subtracts the mean first:
    Σ (xᵢ − S/N)² / (N − 1), where S = Σ xᵢ.  (N is meant to be the number of entries.) -/
def svar (x : ι → ℝ) (N : ℝ) : ℝ :=
  (∑ i, (x i - (∑ j, x j) / N) * (x i - (∑ j, x j) / N)) / (N - 1)

/-- Σ xᵢ² − S · (S / N) = Σ (xᵢ − S/N)², when N ≠ 0 is the number of entries. -/
theorem sumsq_sub_eq (x : ι → ℝ) {N : ℝ} (hN : (Fintype.card ι : ℝ) = N) (hN0 : N ≠ 0) :
    (∑ i, x i * x i) - (∑ i, x i) * ((∑ i, x i) / N)
      = ∑ i, (x i - (∑ j, x j) / N) * (x i - (∑ j, x j) / N) := by
  set S : ℝ := ∑ i, x i with hS
  have h : ∀ i, (x i - S / N) * (x i - S / N) = x i * x i - (2 * (S / N)) * x i + (S / N) * (S / N) :=
    fun i => by ring
  simp_rw [h]
  rw [Finset.sum_add_distrib, Finset.sum_sub_distrib, ← Finset.mul_sum, Finset.sum_const, Finset.card_univ,
    nsmul_eq_mul, hN, ← hS]
  field_simp
  ring

/-- A sum of squares is non-negative. -/
theorem sum_sq_nonneg (x : ι → ℝ) (c : ℝ) : 0 ≤ ∑ i, (x i - c) * (x i - c) :=
  Finset.sum_nonneg fun i _ => mul_self_nonneg _

/-- The variance is non-negative when N > 1. -/
theorem svar_nonneg (x : ι → ℝ) {N : ℝ} (h1 : 1 < N) : 0 ≤ svar x N :=
  div_nonneg (sum_sq_nonneg x _) (by linarith)

/-- The one-pass form of the variance equals the mean-first form. -/
theorem onepass_eq_svar (x : ι → ℝ) {N : ℝ} (hN : (Fintype.card ι : ℝ) = N) (h1 : 1 < N) :
    ((∑ i, x i * x i) - (∑ i, x i) * ((∑ i, x i) / N)) / (N - 1) = svar x N := by
  rw [sumsq_sub_eq x hN (by linarith), svar]

end Real

/-! ## Both forms on the extended reals -/

section Ext

variable {ι : Type*} [Fintype ι]

/-- The mean-first form, computed on the extended reals from real entries, is the image of the real root of the
    variance. -/
theorem meanfirst_form (x : ι → ℝ) {N : ℝ} (h1 : 1 < N) :
    Ideal.sqrt (Ideal.div
        (∑ i, ((x i : EReal) - Ideal.div (∑ j, (x j : EReal)) (N : EReal))
            * ((x i : EReal) - Ideal.div (∑ j, (x j : EReal)) (N : EReal)))
        ((N - 1 : ℝ) : EReal))
      = ((Real.sqrt (svar x N) : ℝ) : EReal) := by
  have hN0 : N ≠ 0 := by linarith
  have hN1 : N - 1 ≠ 0 := by linarith
  rw [← coe_sum, div_coe_coe _ hN0]
  simp_rw [← EReal.coe_sub, ← EReal.coe_mul]
  rw [← coe_sum, div_coe_coe _ hN1]
  exact sqrt_coe_of_nonneg (svar_nonneg x h1)

/-- The one-pass form, computed on the extended reals from real entries and clamped at zero, is the image of the
    real root of the variance. -/
theorem onepass_form (x : ι → ℝ) {N : ℝ} (hN : (Fintype.card ι : ℝ) = N) (h1 : 1 < N) :
    Ideal.sqrt (max (Ideal.div
        ((∑ i, (x i : EReal) * (x i : EReal))
            - (∑ i, (x i : EReal)) * Ideal.div (∑ i, (x i : EReal)) (N : EReal))
        ((N - 1 : ℝ) : EReal)) 0)
      = ((Real.sqrt (svar x N) : ℝ) : EReal) := by
  have hN0 : N ≠ 0 := by linarith
  have hN1 : N - 1 ≠ 0 := by linarith
  simp_rw [← EReal.coe_mul]
  rw [← coe_sum, ← coe_sum, div_coe_coe _ hN0, ← EReal.coe_mul, ← EReal.coe_sub, div_coe_coe _ hN1,
    onepass_eq_svar x hN h1, ← EReal.coe_zero, max_coe, max_eq_left (svar_nonneg x h1)]
  exact sqrt_coe_of_nonneg (svar_nonneg x h1)

/-- The two forms of the unbiased standard deviation agree on the extended reals, for real entries. -/
theorem onepass_eq_meanfirst (x : ι → ℝ) {N : ℝ} (hN : (Fintype.card ι : ℝ) = N) (h1 : 1 < N) :
    Ideal.sqrt (max (Ideal.div
        ((∑ i, (x i : EReal) * (x i : EReal))
            - (∑ i, (x i : EReal)) * Ideal.div (∑ i, (x i : EReal)) (N : EReal))
        ((N - 1 : ℝ) : EReal)) 0)
      = Ideal.sqrt (Ideal.div
        (∑ i, ((x i : EReal) - Ideal.div (∑ j, (x j : EReal)) (N : EReal))
            * ((x i : EReal) - Ideal.div (∑ j, (x j : EReal)) (N : EReal)))
        ((N - 1 : ℝ) : EReal)) := by
  rw [onepass_form x hN h1, meanfirst_form x h1]

/-- The same for a family of extended reals each of which is a real: the form in which a program's arrays arrive. -/
theorem onepass_eq_meanfirst_of_real (e : ι → EReal) (he : ∀ i, ∃ r : ℝ, e i = (r : EReal)) {N : ℝ}
    (hN : (Fintype.card ι : ℝ) = N) (h1 : 1 < N) :
    Ideal.sqrt (max (Ideal.div
        ((∑ i, e i * e i) - (∑ i, e i) * Ideal.div (∑ i, e i) (N : EReal))
        ((N - 1 : ℝ) : EReal)) 0)
      = Ideal.sqrt (Ideal.div
        (∑ i, (e i - Ideal.div (∑ j, e j) (N : EReal)) * (e i - Ideal.div (∑ j, e j) (N : EReal)))
        ((N - 1 : ℝ) : EReal)) := by
  choose x hx using he
  have : e = fun i => (x i : EReal) := funext hx
  subst this
  exact onepass_eq_meanfirst x hN h1

end Ext

/-! ## The float patterns and the small facts about them -/

/-- The single-precision pattern 0x447A0000 denotes 1000. -/
theorem ofBits_1000 : Ideal.ofBits .f32 0x447A0000#32 = ((1000 : ℝ) : EReal) := by
  simp [Ideal.ofBits, Ideal.ieee, -EReal.coe_mul]; norm_num

/-- The single-precision pattern 0x4479C000 denotes 999. -/
theorem ofBits_999 : Ideal.ofBits .f32 0x4479C000#32 = ((999 : ℝ) : EReal) := by
  simp [Ideal.ofBits, Ideal.ieee, -EReal.coe_mul]; norm_num

/-- The single-precision pattern 0x00000000 denotes 0. -/
theorem ofBits_zero : Ideal.ofBits .f32 0x00000000#32 = 0 := by
  simp [Ideal.ofBits, Ideal.ieee]

/-- The 32-bit integer word 1, read signed, is the integer 1; as an extended real, the real 1. -/
theorem coe_toInt_one : (((1#32 : BitVec 32).toInt : ℝ) : EReal) = ((1 : ℝ) : EReal) := by
  have : (1#32 : BitVec 32).toInt = 1 := by decide
  rw [this, Int.cast_one]

/-- 1000 − 1 = 999 on the extended reals. -/
theorem thousand_sub_one : ((1000 : ℝ) : EReal) - ((1 : ℝ) : EReal) = ((999 : ℝ) : EReal) := by
  rw [← EReal.coe_sub]; norm_num

/-- 999 is above zero on the extended reals. -/
theorem zero_lt_999 : (0 : EReal) < ((999 : ℝ) : EReal) := by
  rw [← EReal.coe_zero, EReal.coe_lt_coe_iff]; norm_num

/-- The ordered "greater than" comparison of the extended reals answers the word 1 when its first argument is above
    its second. -/
theorem cmp_ogt_of_lt {x y : EReal} (h : y < x) : Ideal.cmp .ogt x y = 1#1 := by
  simp [Ideal.cmp, h]

/-- A sum started at zero is the sum. -/
theorem zero_add_sum {ι : Type*} (s : Finset ι) (f : ι → EReal) : (0 : EReal) + ∑ i ∈ s, f i = ∑ i ∈ s, f i :=
  zero_add _

end Cert.Lib.StdLaw

end
-- ==== Proof.StdBridge.lean ====
/-
  The kernel's and the reference's spellings of the unbiased standard deviation over the middle axis agree at every
  output index, when every entry of the array is a real number.

  At output index (b, d) both spellings are functions of the column x k = e (b, k, d), k < 1000.  The float words
  denote 0, 1000 and 999; the reference's normaliser 1000 − 1 is 999, which is above zero, so its guard takes the
  quotient; a sum started at zero is the sum.  What is left is the general law: the one-pass form clamped at zero
  equals the mean-first form, for 1000 real entries.
-/
import proofs.«163166_j5368709120527_1_alg».proof.Proof.SpecStd
import proofs.«163166_j5368709120527_1_alg».proof.Proof.LibStdLaw

noncomputable section

open scoped BigOperators

namespace Cert.Spec

open Idealize.ShloMosaic Cert.Lib.StdLaw

/-- The zero word denotes 0. -/
theorem zW_eq : zW = 0 := ofBits_zero

/-- The word of 1000.0 denotes 1000. -/
theorem c1000_eq : c1000 = ((1000 : ℝ) : EReal) := ofBits_1000

/-- The word of 999.0 denotes 999. -/
theorem c999_eq : c999 = ((999 : ℝ) : EReal) := ofBits_999

/-- The reference's normaliser, 1000 minus the converted integer 1, is 999. -/
theorem normaliser_eq : c1000 - one32 = ((999 : ℝ) : EReal) := by
  rw [c1000_eq, one32, coe_toInt_one, thousand_sub_one]

/-- The two spellings agree on an array of real entries. -/
theorem std_forms_agree (e : (⟨3, ![128, 1000, 768]⟩ : Shape).Idx → EReal)
    (hreal : ∀ i, ∃ r : ℝ, e i = (r : EReal)) : stdK e = stdR e := by
  funext j
  have law := onepass_eq_meanfirst_of_real (fun k : Fin 1000 => col e j k) (fun k => hreal _)
    (N := 1000) (by simp) (by norm_num)
  have h999 : ((1000 : ℝ) - 1) = 999 := by norm_num
  rw [h999] at law
  unfold stdK stdR
  rw [normaliser_eq, zW_eq, if_pos (cmp_ogt_of_lt zero_lt_999), c1000_eq, c999_eq]
  simp only [zero_add]
  exact law

end Cert.Spec

end
-- ==== Proof.EmbReal.lean ====
/-
  The gathered embeddings are real numbers, and so the two spellings of the standard deviation agree on them.

  Every entry of a gathered array is one entry of the operand (the gather only chooses which), so if every entry of
  the embedding table is a real number, every gathered entry is.
-/
import proofs.«163166_j5368709120527_1_alg».proof.Proof.SpecTail
import proofs.«163166_j5368709120527_1_alg».proof.Proof.StdBridge

noncomputable section

namespace Cert.Spec

open Idealize.ShloMosaic Cert.Spec.Tail

/-- The gathered embeddings of a table of real entries are real, whatever the indices. -/
theorem real_emb (a7 : FVec Ideal T14541x768 .f32) (a2 : IVec T128x1000 32)
    (h7 : ∀ i, ∃ r : ℝ, a7 i = (r : EReal)) : ∀ j, ∃ r : ℝ, emb a7 a2 j = (r : EReal) :=
  fun _ => h7 _

/-- On the gathered embeddings of a table of real entries the kernel's and the reference's standard deviations
    agree. -/
theorem std_emb_agree (a7 : FVec Ideal T14541x768 .f32) (a2 : IVec T128x1000 32)
    (h7 : ∀ i, ∃ r : ℝ, a7 i = (r : EReal)) : stdK (emb a7 a2) = stdR (emb a7 a2) :=
  std_forms_agree _ (real_emb a7 a2 h7)

end Cert.Spec

end
-- ==== Proof.lean ====
/-
  The proof of the certificate's claim for the hinge loss over gated scores (f32[] from eleven arrays).

  The program computes, per device: the row means r of a [14541, 14541] similarity matrix (a kernel over blocks
  of 256 rows, the last block overhanging the array); the gathers of r and of the rows of a [14541, 768]
  embedding table through entity indices wrapped into [0, 14541); the unbiased standard deviation s of the
  gathered embeddings over their middle axis (a kernel that carries a running sum and a running sum of squares
  across 25 blocks of 40 and ends with sqrt (max ((S2 - S1 * (S1 / 1000)) / 999) 0)); and a scalar loss of s, of
  the gathered row means and of eight more arguments (a gated mix of scores through a hinge, averaged over 640).
  The reference computes the row means by a host reduction, the standard deviation in the mean-first form
  sqrt (∑ (x - mean)² / (1000 - 1)), and the same gathers and the same loss.

  * The frames: each program runs to the end, faults nowhere and leaves its arguments as launched — the kernel
    programs as six items (two kernel regions and four stretches of host operations) over the launch, the
    reference as one stretch of host operations.
  * The idealization rewrote nothing.
  * On the extended reals both programs return ONE function of the arguments: the loss of stdK (emb a7 a2) and of
    simi (rowMean a8) a2. The kernel program's result is that by what its two regions leave in their output arrays;
    the reference's result is the same loss of the mean-first form stdR (emb a7 a2), and the two forms agree on an
    array of real entries: S2 - S1 * (S1 / n) = ∑ (x - S1 / n)² ≥ 0 for reals, so the kernel's max with 0 changes
    nothing and the two quotients by 999 are equal. The gathered embeddings are entries of the table a7, which the
    precondition makes finite.
-/
import proofs.«163166_j5368709120527_1_alg».proof.Defs
import proofs.«163166_j5368709120527_1_alg».proof.Proof.Gen.Kernel
import proofs.«163166_j5368709120527_1_alg».proof.Proof.Gen.KernelIdeal
import proofs.«163166_j5368709120527_1_alg».proof.Proof.Gen.ReferenceIdeal
import proofs.«163166_j5368709120527_1_alg».proof.Proof.Gen.Pre_finite_inputs
import proofs.«163166_j5368709120527_1_alg».proof.Proof.KRun
import proofs.«163166_j5368709120527_1_alg».proof.Proof.KIRun
import proofs.«163166_j5368709120527_1_alg».proof.Proof.KIValue
import proofs.«163166_j5368709120527_1_alg».proof.Proof.KIRegion0Value
import proofs.«163166_j5368709120527_1_alg».proof.Proof.KIRegion1Value
import proofs.«163166_j5368709120527_1_alg».proof.Proof.RefRun
import proofs.«163166_j5368709120527_1_alg».proof.Proof.RefValue
import proofs.«163166_j5368709120527_1_alg».proof.Proof.Finite
import proofs.«163166_j5368709120527_1_alg».proof.Proof.EmbReal
import Idealize.ShloMosaic.Adequacy
import Idealize.ShloMosaic.Init

noncomputable section

namespace Cert.Proof

open Idealize.ShloMosaic Idealize.ShloMosaic.TcCoe Idealize.SL.Sem

section Value

open Cert.KernelIdeal Cert.KernelIdeal.Gen Cert.KernelIdeal.Hand

variable (m : (ℓ : Loc nD τ sig) → Buf (Elt Ideal) ℓ)

/-- The common result on device `c`: the loss of the kernel's form of the spread of the gathered embeddings and of the
    gathered row means, at the launch contents of the arguments. -/
def value (c : Dev nD) : Buf (Elt Ideal) ((c.tc : Thread nD τ).loc main_v53) :=
  Cert.Spec.loss
    (Cert.Spec.stdK (Cert.Spec.emb (m ((c.tc : Thread nD τ).loc main_arg7)) (m ((c.tc : Thread nD τ).loc main_arg2))))
    (Cert.Spec.simi (Cert.Spec.rowMean (m ((c.tc : Thread nD τ).loc main_arg8))) (m ((c.tc : Thread nD τ).loc main_arg2)))
    (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg9)) (m ((c.tc : Thread nD τ).loc main_arg10))

/-- The kernel program's result buffer ends at the common result: region 1 leaves the kernel's form of the spread of what
    it is entered with, the gathered embeddings; region 0 leaves the row means of the similarity matrix. -/
theorem kernel_value (c : Dev nD) : V6 m (outs m) c main_v53 = value m c := by
  have h1 : spread m c = Cert.Spec.stdK (Cert.Spec.emb (m ((c.tc : Thread nD τ).loc main_arg7)) (m ((c.tc : Thread nD τ).loc main_arg2))) :=
    (arr1_out (entry1 m) c).trans (congrArg Cert.Spec.stdK (emb_eq m c))
  have h0 : rowMeans m c = Cert.Spec.rowMean (m ((c.tc : Thread nD τ).loc main_arg8)) := arr0_out (entry0 m) c
  rw [result_eq m c, h1, h0]; rfl

/-- The reference's result term is the common result: the same loss of the mean-first form of the spread, which is the
    kernel's form on the gathered embeddings (entries of the finite table), at arguments that agree. -/
theorem ref_value (hpre : Cert.Pre_KernelIdeal m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    StableHlo.after (Cert.ReferenceIdeal.Hand.ops (F := Ideal)) (StableHlo.launchContents m' c) (Proc.devRef .tc Cert.ReferenceIdeal.main_v55)
      = value m c := by
  rw [Cert.ReferenceIdeal.Hand.result_eq m' c, h0, h1, h2, h3, h4, h5, h6, h7, h8, h9, h10,
    ← Cert.Spec.std_emb_agree _ _ (Cert.Spec.real_arg7 m hpre c)]
  rfl

end Value

/-- On the extended reals the two programs, run from memories that agree on the arguments, both end with the common
    result and with their arguments as launched. -/
theorem algebraic : Cert.algebraic_KernelIdeal_ReferenceIdeal := fun m g m' g' hpre hagree =>
  ⟨value m,
    (θ_run Cert.KernelIdeal.defs _ _).mono (fun r h c =>
      ⟨(h c _ (Cert.KernelIdeal.Hand.mem_uc Cert.KernelIdeal.main_v53 (by decide))).trans (kernel_value m c),
        Cert.KernelIdeal.Hand.args_of_values m c r.2 (h c)⟩) (Cert.KernelIdeal.Hand.run_values m g),
    (θ_run Cert.ReferenceIdeal.defs _ _).mono (fun r h c =>
      ⟨(h c).1.trans (ref_value m hpre m' c (hagree c).1 (hagree c).2.1 (hagree c).2.2.1 (hagree c).2.2.2.1 (hagree c).2.2.2.2.1
          (hagree c).2.2.2.2.2.1 (hagree c).2.2.2.2.2.2.1 (hagree c).2.2.2.2.2.2.2.1 (hagree c).2.2.2.2.2.2.2.2.1
          (hagree c).2.2.2.2.2.2.2.2.2.1 (hagree c).2.2.2.2.2.2.2.2.2.2), (h c).2⟩)
      (Cert.ReferenceIdeal.Hand.run (F := Ideal) m' g')⟩

theorem claim : Cert.Claim :=
  ⟨Cert.Kernel.Gen.facts, Cert.KernelIdeal.Gen.facts, Cert.ReferenceIdeal.Gen.facts, Cert.Pre_finite_inputs.Gen.facts,
    fun m g _ => Cert.Kernel.Hand.frame (F := Bits) m g,
    fun m g _ => Cert.KernelIdeal.Hand.frame m g,
    Cert.ReferenceIdeal.Hand.frame_ri,
    trivial,
    algebraic⟩

end Cert.Proof

end
